-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v77)) (v1 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v116) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S1000000 : Shape := ⟨1, ![1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part7 {F : FTy → Type} [FloatOps F] (main_arg27 : FVec F S64x64 .f32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_v124 : FVec F S64x64 .f32 := Host.absf main_arg27
  let main_cst_48 : FVec F S_ .f32 := constant S_ .f32 0x7F800000#32
  let main_v125 : FVec F S64x64 .f32 := broadcastInDim S64x64 ![] bcast_S_S64x64 main_cst_48
  let main_v126 : IVec S64x64 1 := cmpf .olt main_v124 main_v125
  let main_c_49 : IVec S_ 1 := constantI S_ 1 1#1
  let main_v127 : IVec S_ 1 := (fun x v => Host.reduce IntOp.andi x v reducesTo_S64x64_S_d0_1 h_S_) main_v126 main_c_49
  let main_v128 : IVec S_ 1 := andi main_v123 main_v127
  main_v128

def fn_part6 {F : FTy → Type} [FloatOps F] (main_arg23 : FVec F S64 .f32) (main_arg24 : FVec F S64x64 .f32) (main_arg25 : FVec F S64x64 .f32) (main_arg26 : FVec F S64 .f32) (main_arg27 : FVec F S64x64 .f32) (main_v98 : IVec S_ 1) (main_v101 : IVec S64x64 1) (main_c_39 : IVec S_ 1) : IVec S_ 1 :=
  let main_v102 : IVec S_ 1 := (fun x v => Host.reduce IntOp.andi x v reducesTo_S64x64_S_d0_1 h_S_) main_v101 main_c_39
  let main_v103 : IVec S_ 1 := andi main_v98 main_v102
  let main_v104 : FVec F S64 .f32 := Host.absf main_arg23
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64x64 .f32 := Host.absf main_arg24
  let main_cst_42 : FVec F S_ .f32 := constant S_ .f32 0x7F800000#32
  let main_v110 : FVec F S64x64 .f32 := broadcastInDim S64x64 ![] bcast_S_S64x64 main_cst_42
  let main_v111 : IVec S64x64 1 := cmpf .olt main_v109 main_v110
  let main_c_43 : IVec S_ 1 := constantI S_ 1 1#1
  let main_v112 : IVec S_ 1 := (fun x v => Host.reduce IntOp.andi x v reducesTo_S64x64_S_d0_1 h_S_) main_v111 main_c_43
  let main_v113 : IVec S_ 1 := andi main_v108 main_v112
  let main_v114 : FVec F S64x64 .f32 := Host.absf main_arg25
  let main_cst_44 : FVec F S_ .f32 := constant S_ .f32 0x7F800000#32
  let main_v115 : FVec F S64x64 .f32 := broadcastInDim S64x64 ![] bcast_S_S64x64 main_cst_44
  let main_v116 : IVec S64x64 1 := cmpf .olt main_v114 main_v115
  let main_c_45 : IVec S_ 1 := constantI S_ 1 1#1
  let main_v117 : IVec S_ 1 := (fun x v => Host.reduce IntOp.andi x v reducesTo_S64x64_S_d0_1 h_S_) main_v116 main_c_45
  let main_v118 : IVec S_ 1 := andi main_v113 main_v117
  let main_v119 : FVec F S64 .f32 := Host.absf main_arg26
  fn_part7 (F := F) main_arg27 main_v118 main_v119

def fn_part5 {F : FTy → Type} [FloatOps F] (main_arg20 : FVec F S64 .f32) (main_arg21 : FVec F S64x64 .f32) (main_arg22 : FVec F S64x64 .f32) (main_arg23 : FVec F S64 .f32) (main_arg24 : FVec F S64x64 .f32) (main_arg25 : FVec F S64x64 .f32) (main_arg26 : FVec F S64 .f32) (main_arg27 : FVec F S64x64 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x64 .f32 := Host.absf main_arg21
  let main_cst_36 : FVec F S_ .f32 := constant S_ .f32 0x7F800000#32
  let main_v95 : FVec F S64x64 .f32 := broadcastInDim S64x64 ![] bcast_S_S64x64 main_cst_36
  let main_v96 : IVec S64x64 1 := cmpf .olt main_v94 main_v95
  let main_c_37 : IVec S_ 1 := constantI S_ 1 1#1
  let main_v97 : IVec S_ 1 := (fun x v => Host.reduce IntOp.andi x v reducesTo_S64x64_S_d0_1 h_S_) main_v96 main_c_37
  let main_v98 : IVec S_ 1 := andi main_v93 main_v97
  let main_v99 : FVec F S64x64 .f32 := Host.absf main_arg22
  let main_cst_38 : FVec F S_ .f32 := constant S_ .f32 0x7F800000#32
  let main_v100 : FVec F S64x64 .f32 := broadcastInDim S64x64 ![] bcast_S_S64x64 main_cst_38
  let main_v101 : IVec S64x64 1 := cmpf .olt main_v99 main_v100
  let main_c_39 : IVec S_ 1 := constantI S_ 1 1#1
  fn_part6 (F := F) main_arg23 main_arg24 main_arg25 main_arg26 main_arg27 main_v98 main_v101 main_c_39

def fn_part4 {F : FTy → Type} [FloatOps F] (main_arg16 : FVec F S64x64 .f32) (main_arg17 : FVec F S64 .f32) (main_arg18 : FVec F S64x64 .f32) (main_arg19 : FVec F S64x64 .f32) (main_arg20 : FVec F S64 .f32) (main_arg21 : FVec F S64x64 .f32) (main_arg22 : FVec F S64x64 .f32) (main_arg23 : FVec F S64 .f32) (main_arg24 : FVec F S64x64 .f32) (main_arg25 : FVec F S64x64 .f32) (main_arg26 : FVec F S64 .f32) (main_arg27 : FVec F S64x64 .f32) (main_v63 : IVec S_ 1) (main_v67 : IVec S_ 1) : IVec S_ 1 :=
  let main_v68 : IVec S_ 1 := andi main_v63 main_v67
  let main_v69 : FVec F S64x64 .f32 := Host.absf main_arg16
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg18
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64x64 .f32 := Host.absf main_arg19
  let main_cst_32 : FVec F S_ .f32 := constant S_ .f32 0x7F800000#32
  fn_part5 (F := F) main_arg20 main_arg21 main_arg22 main_arg23 main_arg24 main_arg25 main_arg26 main_arg27 main_v83 main_v84 main_cst_32

def fn_part3 {F : FTy → Type} [FloatOps F] (main_arg13 : FVec F S64 .f32) (main_arg14 : FVec F S64 .f32) (main_arg15 : FVec F S64 .f32) (main_arg16 : FVec F S64x64 .f32) (main_arg17 : FVec F S64 .f32) (main_arg18 : FVec F S64x64 .f32) (main_arg19 : FVec F S64x64 .f32) (main_arg20 : FVec F S64 .f32) (main_arg21 : FVec F S64x64 .f32) (main_arg22 : FVec F S64x64 .f32) (main_arg23 : FVec F S64 .f32) (main_arg24 : FVec F S64x64 .f32) (main_arg25 : FVec F S64x64 .f32) (main_arg26 : FVec F S64 .f32) (main_arg27 : FVec F S64x64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_arg21 main_arg22 main_arg23 main_arg24 main_arg25 main_arg26 main_arg27 main_v63 main_v67

def fn_part2 {F : FTy → Type} [FloatOps F] (main_arg9 : FVec F S64 .f32) (main_arg10 : FVec F S64 .f32) (main_arg11 : FVec F S64 .f32) (main_arg12 : FVec F S64 .f32) (main_arg13 : FVec F S64 .f32) (main_arg14 : FVec F S64 .f32) (main_arg15 : FVec F S64 .f32) (main_arg16 : FVec F S64x64 .f32) (main_arg17 : FVec F S64 .f32) (main_arg18 : FVec F S64x64 .f32) (main_arg19 : FVec F S64x64 .f32) (main_arg20 : FVec F S64 .f32) (main_arg21 : FVec F S64x64 .f32) (main_arg22 : FVec F S64x64 .f32) (main_arg23 : FVec F S64 .f32) (main_arg24 : FVec F S64x64 .f32) (main_arg25 : FVec F S64x64 .f32) (main_arg26 : FVec F S64 .f32) (main_arg27 : FVec F S64x64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg6 : FVec F S64x64 .f32) (main_arg7 : FVec F S64 .f32) (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64 .f32) (main_arg15 : FVec F S64 .f32) (main_arg16 : FVec F S64x64 .f32) (main_arg17 : FVec F S64 .f32) (main_arg18 : FVec F S64x64 .f32) (main_arg19 : FVec F S64x64 .f32) (main_arg20 : FVec F S64 .f32) (main_arg21 : FVec F S64x64 .f32) (main_arg22 : FVec F S64x64 .f32) (main_arg23 : FVec F S64 .f32) (main_arg24 : FVec F S64x64 .f32) (main_arg25 : FVec F S64x64 .f32) (main_arg26 : FVec F S64 .f32) (main_arg27 : FVec F S64x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S100000x64 .f32) (main_arg1 : FVec F S50000x64 .f32) (main_arg2 : IVec S1000000 32) (main_arg3 : IVec S1000000 32) (main_arg4 : FVec F S64x64 .f32) (main_arg5 : FVec F S64 .f32) (main_arg6 : FVec F S64x64 .f32) (main_arg7 : FVec F S64 .f32) (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64 .f32) (main_arg15 : FVec F S64 .f32) (main_arg16 : FVec F S64x64 .f32) (main_arg17 : FVec F S64 .f32) (main_arg18 : FVec F S64x64 .f32) (main_arg19 : FVec F S64x64 .f32) (main_arg20 : FVec F S64 .f32) (main_arg21 : FVec F S64x64 .f32) (main_arg22 : FVec F S64x64 .f32) (main_arg23 : FVec F S64 .f32) (main_arg24 : FVec F S64x64 .f32) (main_arg25 : FVec F S64x64 .f32) (main_arg26 : FVec F S64 .f32) (main_arg27 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S100000x64 : Shape := ⟨2, ![100000, 64]⟩
abbrev S50000x64 : Shape := ⟨2, ![50000, 64]⟩
abbrev S1000000 : Shape := ⟨1, ![1000000]⟩
abbrev S64x64 : Shape := ⟨2, ![64, 64]⟩
abbrev S64 : Shape := ⟨1, ![64]⟩
abbrev S_ : Shape := ⟨0, ![]⟩
abbrev S50000 : Shape := ⟨1, ![50000]⟩
abbrev S1000000x1 : Shape := ⟨2, ![1000000, 1]⟩
abbrev S50000x1 : Shape := ⟨2, ![50000, 1]⟩
abbrev S100000 : Shape := ⟨1, ![100000]⟩
abbrev S100000x1 : Shape := ⟨2, ![100000, 1]⟩
abbrev S1x64 : Shape := ⟨2, ![1, 64]⟩
abbrev S5000x64 : Shape := ⟨2, ![5000, 64]⟩
abbrev S1000000x64 : Shape := ⟨2, ![1000000, 64]⟩
abbrev S5000x1 : Shape := ⟨2, ![5000, 1]⟩

abbrev nBuf : Space → Nat
  | .hbm => 126
  | .vmem => 64
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S1000000, .i32⟩
  | .hbm, ⟨3, _⟩ => ⟨S1000000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S64x64, .f32⟩
  | .hbm, ⟨19, _⟩ => ⟨S64x64, .f32⟩
  | .hbm, ⟨20, _⟩ => ⟨S64, .f32⟩
  | .hbm, ⟨21, _⟩ => ⟨S64x64, .f32⟩
  | .hbm, ⟨22, _⟩ => ⟨S64x64, .f32⟩
  | .hbm, ⟨23, _⟩ => ⟨S64, .f32⟩
  | .hbm, ⟨24, _⟩ => ⟨S64x64, .f32⟩
  | .hbm, ⟨25, _⟩ => ⟨S64x64, .f32⟩
  | .hbm, ⟨26, _⟩ => ⟨S64, .f32⟩
  | .hbm, ⟨27, _⟩ => ⟨S64x64, .f32⟩
  | .hbm, ⟨28, _⟩ => ⟨S_, .f32⟩
  | .hbm, ⟨29, _⟩ => ⟨S1000000, .f32⟩
  | .hbm, ⟨30, _⟩ => ⟨S_, .f32⟩
  | .hbm, ⟨31, _⟩ => ⟨S50000, .f32⟩
  | .hbm, ⟨32, _⟩ => ⟨S1000000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S_, .f32⟩
  | .hbm, ⟨42, _⟩ => ⟨S1000000, .f32⟩
  | .hbm, ⟨43, _⟩ => ⟨S_, .f32⟩
  | .hbm, ⟨44, _⟩ => ⟨S100000, .f32⟩
  | .hbm, ⟨45, _⟩ => ⟨S1000000x1, .i32⟩
  | .hbm, ⟨46, _⟩ => ⟨S100000, .f32⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S_, .f32⟩
  | .hbm, ⟨51, _⟩ => ⟨S100000, .f32⟩
  | .hbm, ⟨52, _⟩ => ⟨S100000, .f32⟩
  | .hbm, ⟨53, _⟩ => ⟨S100000x1, .f32⟩
  | .hbm, ⟨54, _⟩ => ⟨S1x64, .f32⟩
  | .hbm, ⟨55, _⟩ => ⟨S1x64, .f32⟩
  | .hbm, ⟨56, _⟩ => ⟨S1x64, .f32⟩
  | .hbm, ⟨57, _⟩ => ⟨S1x64, .f32⟩
  | .hbm, ⟨58, _⟩ => ⟨S1x64, .f32⟩
  | .hbm, ⟨59, _⟩ => ⟨S100000x64, .f32⟩
  | .hbm, ⟨60, _⟩ => ⟨S1x64, .f32⟩
  | .hbm, ⟨61, _⟩ => ⟨S1x64, .f32⟩
  | .hbm, ⟨62, _⟩ => ⟨S1x64, .f32⟩
  | .hbm, ⟨63, _⟩ => ⟨S1x64, .f32⟩
  | .hbm, ⟨64, _⟩ => ⟨S1x64, .f32⟩
  | .hbm, ⟨65, _⟩ => ⟨S50000x64, .f32⟩
  | .hbm, ⟨66, _⟩ => ⟨S_, .i32⟩
  | .hbm, ⟨67, _⟩ => ⟨S1000000, .i32⟩
  | .hbm, ⟨68, _⟩ => ⟨S1000000, .i1⟩
  | .hbm, ⟨69, _⟩ => ⟨S_, .i32⟩
  | .hbm, ⟨70, _⟩ => ⟨S1000000, .i32⟩
  | .hbm, ⟨71, _⟩ => ⟨S1000000, .i32⟩
  | .hbm, ⟨72, _⟩ => ⟨S1000000, .i32⟩
  | .hbm, ⟨73, _⟩ => ⟨S1000000x1, .i32⟩
  | .hbm, ⟨74, _⟩ => ⟨S1000000x64, .f32⟩
  | .hbm, ⟨75, _⟩ => ⟨S_, .f32⟩
  | .hbm, ⟨76, _⟩ => ⟨S50000x64, .f32⟩
  | .hbm, ⟨77, _⟩ => ⟨S1000000x1, .i32⟩
  | .hbm, ⟨78, _⟩ => ⟨S50000x64, .f32⟩
  | .hbm, ⟨79, _⟩ => ⟨S1x64, .f32⟩
  | .hbm, ⟨80, _⟩ => ⟨S50000x64, .f32⟩
  | .hbm, ⟨81, _⟩ => ⟨S_, .i32⟩
  | .hbm, ⟨82, _⟩ => ⟨S1000000, .i32⟩
  | .hbm, ⟨83, _⟩ => ⟨S1000000, .i1⟩
  | .hbm, ⟨84, _⟩ => ⟨S_, .i32⟩
  | .hbm, ⟨85, _⟩ => ⟨S1000000, .i32⟩
  | .hbm, ⟨86, _⟩ => ⟨S1000000, .i32⟩
  | .hbm, ⟨87, _⟩ => ⟨S1000000, .i32⟩
  | .hbm, ⟨88, _⟩ => ⟨S1000000x1, .i32⟩
  | .hbm, ⟨89, _⟩ => ⟨S1000000x64, .f32⟩
  | .hbm, ⟨90, _⟩ => ⟨S_, .f32⟩
  | .hbm, ⟨91, _⟩ => ⟨S100000x64, .f32⟩
  | .hbm, ⟨92, _⟩ => ⟨S1000000x1, .i32⟩
  | .hbm, ⟨93, _⟩ => ⟨S100000x64, .f32⟩
  | .hbm, ⟨94, _⟩ => ⟨S1x64, .f32⟩
  | .hbm, ⟨95, _⟩ => ⟨S100000x64, .f32⟩
  | .hbm, ⟨96, _⟩ => ⟨S_, .i32⟩
  | .hbm, ⟨97, _⟩ => ⟨S1000000, .i32⟩
  | .hbm, ⟨98, _⟩ => ⟨S1000000, .i1⟩
  | .hbm, ⟨99, _⟩ => ⟨S_, .i32⟩
  | .hbm, ⟨100, _⟩ => ⟨S1000000, .i32⟩
  | .hbm, ⟨101, _⟩ => ⟨S1000000, .i32⟩
  | .hbm, ⟨102, _⟩ => ⟨S1000000, .i32⟩
  | .hbm, ⟨103, _⟩ => ⟨S1000000x1, .i32⟩
  | .hbm, ⟨104, _⟩ => ⟨S1000000x64, .f32⟩
  | .hbm, ⟨105, _⟩ => ⟨S_, .f32⟩
  | .hbm, ⟨106, _⟩ => ⟨S50000x64, .f32⟩
  | .hbm, ⟨107, _⟩ => ⟨S1000000x1, .i32⟩
  | .hbm, ⟨108, _⟩ => ⟨S50000x64, .f32⟩
  | .hbm, ⟨109, _⟩ => ⟨S1x64, .f32⟩
  | .hbm, ⟨110, _⟩ => ⟨S50000x64, .f32⟩
  | .hbm, ⟨111, _⟩ => ⟨S_, .i32⟩
  | .hbm, ⟨112, _⟩ => ⟨S1000000, .i32⟩
  | .hbm, ⟨113, _⟩ => ⟨S1000000, .i1⟩
  | .hbm, ⟨114, _⟩ => ⟨S_, .i32⟩
  | .hbm, ⟨115, _⟩ => ⟨S1000000, .i32⟩
  | .hbm, ⟨116, _⟩ => ⟨S1000000, .i32⟩
  | .hbm, ⟨117, _⟩ => ⟨S1000000, .i32⟩
  | .hbm, ⟨118, _⟩ => ⟨S1000000x1, .i32⟩
  | .hbm, ⟨119, _⟩ => ⟨S1000000x64, .f32⟩
  | .hbm, ⟨120, _⟩ => ⟨S_, .f32⟩
  | .hbm, ⟨121, _⟩ => ⟨S100000x64, .f32⟩
  | .hbm, ⟨122, _⟩ => ⟨S1000000x1, .i32⟩
  | .hbm, ⟨123, _⟩ => ⟨S100000x64, .f32⟩
  | .hbm, ⟨124, _⟩ => ⟨S1x64, .f32⟩
  | .hbm, ⟨125, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x1, .f32⟩
  | .local _ .vmem, ⟨23, _⟩ => ⟨S5000x1, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S1x64, .f32⟩
  | .local _ .vmem, ⟨28, _⟩ => ⟨S64x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x1, .f32⟩
  | .local _ .vmem, ⟨34, _⟩ => ⟨S5000x1, .f32⟩
  | .local _ .vmem, ⟨35, _⟩ => ⟨S5000x64, .f32⟩
  | .local _ .vmem, ⟨36, _⟩ => ⟨S5000x64, .f32⟩
  | .local _ .vmem, ⟨37, _⟩ => ⟨S64x64, .f32⟩
  | .local _ .vmem, ⟨38, _⟩ => ⟨S1x64, .f32⟩
  | .local _ .vmem, ⟨39, _⟩ => ⟨S64x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x1, .f32⟩
  | .local _ .vmem, ⟨45, _⟩ => ⟨S5000x1, .f32⟩
  | .local _ .vmem, ⟨46, _⟩ => ⟨S5000x64, .f32⟩
  | .local _ .vmem, ⟨47, _⟩ => ⟨S5000x64, .f32⟩
  | .local _ .vmem, ⟨48, _⟩ => ⟨S64x64, .f32⟩
  | .local _ .vmem, ⟨49, _⟩ => ⟨S1x64, .f32⟩
  | .local _ .vmem, ⟨50, _⟩ => ⟨S64x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x1, .f32⟩
  | .local _ .vmem, ⟨56, _⟩ => ⟨S5000x1, .f32⟩
  | .local _ .vmem, ⟨57, _⟩ => ⟨S5000x64, .f32⟩
  | .local _ .vmem, ⟨58, _⟩ => ⟨S5000x64, .f32⟩
  | .local _ .vmem, ⟨59, _⟩ => ⟨S64x64, .f32⟩
  | .local _ .vmem, ⟨60, _⟩ => ⟨S1x64, .f32⟩
  | .local _ .vmem, ⟨61, _⟩ => ⟨S64x64, .f32⟩
  | .local _ .vmem, ⟨62, _⟩ => ⟨S5000x64, .f32⟩
  | .local _ .vmem, ⟨63, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_cst_0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_cst_1 : Ref sig .tc := ⟨.hbm, 34, rfl⟩
abbrev main_v4 : Ref sig .tc := ⟨.hbm, 35, rfl⟩
abbrev main_v5 : Ref sig .tc := ⟨.hbm, 36, rfl⟩
abbrev main_cst_2 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_cst_3 : Ref sig .tc := ⟨.hbm, 41, rfl⟩
abbrev main_v9 : Ref sig .tc := ⟨.hbm, 42, rfl⟩
abbrev main_cst_4 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_cst_5 : Ref sig .tc := ⟨.hbm, 47, rfl⟩
abbrev main_v13 : Ref sig .tc := ⟨.hbm, 48, rfl⟩
abbrev main_v14 : Ref sig .tc := ⟨.hbm, 49, rfl⟩
abbrev main_cst_6 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_c : Ref sig .tc := ⟨.hbm, 66, rfl⟩
abbrev main_v30 : Ref sig .tc := ⟨.hbm, 67, rfl⟩
abbrev main_v31 : Ref sig .tc := ⟨.hbm, 68, rfl⟩
abbrev main_c_7 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_8 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_c_9 : Ref sig .tc := ⟨.hbm, 81, rfl⟩
abbrev main_v42 : Ref sig .tc := ⟨.hbm, 82, rfl⟩
abbrev main_v43 : Ref sig .tc := ⟨.hbm, 83, rfl⟩
abbrev main_c_10 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_cst_11 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_c_12 : Ref sig .tc := ⟨.hbm, 96, rfl⟩
abbrev main_v54 : Ref sig .tc := ⟨.hbm, 97, rfl⟩
abbrev main_v55 : Ref sig .tc := ⟨.hbm, 98, rfl⟩
abbrev main_c_13 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_14 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_c_15 : Ref sig .tc := ⟨.hbm, 111, rfl⟩
abbrev main_v66 : Ref sig .tc := ⟨.hbm, 112, rfl⟩
abbrev main_v67 : Ref sig .tc := ⟨.hbm, 113, rfl⟩
abbrev main_c_16 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_cst_17 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg6_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg6_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg6_0 : Ref sig .tc := ⟨.vmem, 51, rfl⟩
abbrev cc4_stg6_1 : Ref sig .tc := ⟨.vmem, 52, rfl⟩
abbrev cc5_stg0_0 : Ref sig .tc := ⟨.vmem, 53, rfl⟩
abbrev cc5_stg0_1 : Ref sig .tc := ⟨.vmem, 54, rfl⟩
abbrev cc5_stg1_0 : Ref sig .tc := ⟨.vmem, 55, rfl⟩
abbrev cc5_stg1_1 : Ref sig .tc := ⟨.vmem, 56, rfl⟩
abbrev cc5_stg2_0 : Ref sig .tc := ⟨.vmem, 57, rfl⟩
abbrev cc5_stg2_1 : Ref sig .tc := ⟨.vmem, 58, rfl⟩
abbrev cc5_stg3_0 : Ref sig .tc := ⟨.vmem, 59, rfl⟩
abbrev cc5_stg4_0 : Ref sig .tc := ⟨.vmem, 60, rfl⟩
abbrev cc5_stg5_0 : Ref sig .tc := ⟨.vmem, 61, rfl⟩
abbrev cc5_stg6_0 : Ref sig .tc := ⟨.vmem, 62, rfl⟩
abbrev cc5_stg6_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem6_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem2_1 : DmaSem sig := 36
abbrev cc3_sem3_0 : DmaSem sig := 37
abbrev cc3_sem4_0 : DmaSem sig := 38
abbrev cc3_sem5_0 : DmaSem sig := 39
abbrev cc3_sem6_0 : DmaSem sig := 40
abbrev cc3_sem6_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem4_0 : DmaSem sig := 49
abbrev cc4_sem5_0 : DmaSem sig := 50
abbrev cc4_sem6_0 : DmaSem sig := 51
abbrev cc4_sem6_1 : DmaSem sig := 52
abbrev cc5_sem0_0 : DmaSem sig := 53
abbrev cc5_sem0_1 : DmaSem sig := 54
abbrev cc5_sem1_0 : DmaSem sig := 55
abbrev cc5_sem1_1 : DmaSem sig := 56
abbrev cc5_sem2_0 : DmaSem sig := 57
abbrev cc5_sem2_1 : DmaSem sig := 58
abbrev cc5_sem3_0 : DmaSem sig := 59
abbrev cc5_sem4_0 : DmaSem sig := 60
abbrev cc5_sem5_0 : DmaSem sig := 61
abbrev cc5_sem6_0 : DmaSem sig := 62
abbrev cc5_sem6_1 : DmaSem sig := 63

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  bcast_S_S1000000 : S_.BroadcastsInDim S1000000 (![] : Fin 0 → Fin S1000000.rank)
  bcast_S_S50000 : S_.BroadcastsInDim S50000 (![] : Fin 0 → Fin S50000.rank)
  bcast_S1000000_S1000000x1_0 : S1000000.BroadcastsInDim S1000000x1 (![0] : Fin 1 → Fin S1000000x1.rank)
  shapeCasts_S50000_S50000x1 : S50000.ShapeCasts S50000x1
  bcast_S_S100000 : S_.BroadcastsInDim S100000 (![] : Fin 0 → Fin S100000.rank)
  shapeCasts_S100000_S100000x1 : S100000.ShapeCasts S100000x1
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S50000x64 : S_.BroadcastsInDim S50000x64 (![] : Fin 0 → Fin S50000x64.rank)
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S100000x64 : S_.BroadcastsInDim S100000x64 (![] : Fin 0 → Fin S100000x64.rank)
  scatter_S50000_S1000000x1_S1000000_n_0_0_1_wf : ScatterDims.WF S50000 S1000000x1 S1000000 [] [0] [0] 1
  scatter_S100000_S1000000x1_S1000000_n_0_0_1_wf : ScatterDims.WF S100000 S1000000x1 S1000000 [] [0] [0] 1
  dot_S5000x64_S64x64_S5000x64_1_0_0_1_n_n_wf : DotDims.WF S5000x64 S64x64 S5000x64 [1] [0] [0] [1] [] []
  gather_S100000x64_S1000000x1_S1000000x64_1_0_n_n_0_1_164_wf : GatherDims.WF S100000x64 S1000000x1 S1000000x64 [1] [0] [] [0] [] 1 ![1, 64]
  scatter_S50000x64_S1000000x1_S1000000x64_1_0_0_1_wf : ScatterDims.WF S50000x64 S1000000x1 S1000000x64 [1] [0] [0] 1
  gather_S50000x64_S1000000x1_S1000000x64_1_0_n_n_0_1_164_wf : GatherDims.WF S50000x64 S1000000x1 S1000000x64 [1] [0] [] [0] [] 1 ![1, 64]
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S100000x64.size a
  hwx0_7 : ∀ i : grid0.Coords, EltTy.bits .f32 = 32 ∨ (Rect.block (s := S100000x64) S5000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S50000x64.size a
  hwx4_6 : ∀ i : grid4.Coords, EltTy.bits .f32 = 32 ∨ (Rect.block (s := S50000x64) S5000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x64.size a ≤ S64x64.size a
  hwx5_5 : ∀ i : grid5.Coords, EltTy.bits .f32 = 32 ∨ (Rect.block (s := S64x64) S64x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S100000x64.size a
  hwx5_6 : ∀ i : grid5.Coords, EltTy.bits .f32 = 32 ∨ (Rect.block (s := S100000x64) S5000x64.size (cc5_transform_6 i) (hinb5_6 i)).WholeWords (EltTy.packing .f32)

variable [Facts₀]

def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v39) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg16) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg18) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v41) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v51) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v23) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg19) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v52) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg21) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v53) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v63) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v8) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v41) S5000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg22) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v64) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg24) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v65) S5000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v75) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v17) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v53) S5000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg25) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v76) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg27) S64x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v77) S5000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S1000000 : Shape := ⟨1, ![1000000]⟩
abbrev S64x64 : Shape := ⟨2, ![64, 64]⟩
abbrev S64 : Shape := ⟨1, ![64]⟩
abbrev S1x64 : Shape := ⟨2, ![1, 64]⟩
abbrev S_ : Shape := ⟨0, ![]⟩
abbrev S1000000x1 : Shape := ⟨2, ![1000000, 1]⟩
abbrev S1000000x64 : Shape := ⟨2, ![1000000, 64]⟩
abbrev S50000 : Shape := ⟨1, ![50000]⟩
abbrev S50000x1 : Shape := ⟨2, ![50000, 1]⟩
abbrev S100000 : Shape := ⟨1, ![100000]⟩
abbrev S100000x1 : Shape := ⟨2, ![100000, 1]⟩

abbrev nBuf : Space → Nat
  | .hbm => 204
  | .vmem => 0
  | .smem => 0
  | _ => 0

abbrev hbmTy0_0 (i : Nat) : BufTy := match i % 128 with
  | 0 => ⟨S100000x64, .f32⟩
  | 1 => ⟨S50000x64, .f32⟩
  | 2 => ⟨S1000000, .i32⟩
  | 3 => ⟨S1000000, .i32⟩
  | 4 => ⟨S64x64, .f32⟩
  | 5 => ⟨S64, .f32⟩
  | 6 => ⟨S64x64, .f32⟩
  | 7 => ⟨S64, .f32⟩
  | 8 => ⟨S64, .f32⟩
  | 9 => ⟨S64, .f32⟩
  | 10 => ⟨S64, .f32⟩
  | 11 => ⟨S64, .f32⟩
  | 12 => ⟨S64, .f32⟩
  | 13 => ⟨S64, .f32⟩
  | 14 => ⟨S64, .f32⟩
  | 15 => ⟨S64, .f32⟩
  | 16 => ⟨S64x64, .f32⟩
  | 17 => ⟨S64, .f32⟩
  | 18 => ⟨S64x64, .f32⟩
  | 19 => ⟨S64x64, .f32⟩
  | 20 => ⟨S64, .f32⟩
  | 21 => ⟨S64x64, .f32⟩
  | 22 => ⟨S64x64, .f32⟩
  | 23 => ⟨S64, .f32⟩
  | 24 => ⟨S64x64, .f32⟩
  | 25 => ⟨S64x64, .f32⟩
  | 26 => ⟨S64, .f32⟩
  | 27 => ⟨S64x64, .f32⟩
  | 28 => ⟨S100000x64, .f32⟩
  | 29 => ⟨S1x64, .f32⟩
  | 30 => ⟨S100000x64, .f32⟩
  | 31 => ⟨S100000x64, .f32⟩
  | 32 => ⟨S1x64, .f32⟩
  | 33 => ⟨S100000x64, .f32⟩
  | 34 => ⟨S100000x64, .f32⟩
  | 35 => ⟨S_, .f32⟩
  | 36 => ⟨S64, .f32⟩
  | 37 => ⟨S64, .f32⟩
  | 38 => ⟨S64, .f32⟩
  | 39 => ⟨S1x64, .f32⟩
  | 40 => ⟨S100000x64, .f32⟩
  | 41 => ⟨S100000x64, .f32⟩
  | 42 => ⟨S1x64, .f32⟩
  | 43 => ⟨S100000x64, .f32⟩
  | 44 => ⟨S100000x64, .f32⟩
  | 45 => ⟨S1x64, .f32⟩
  | 46 => ⟨S100000x64, .f32⟩
  | 47 => ⟨S100000x64, .f32⟩
  | 48 => ⟨S_, .f32⟩
  | 49 => ⟨S100000x64, .f32⟩
  | 50 => ⟨S100000x64, .f32⟩
  | 51 => ⟨S50000x64, .f32⟩
  | 52 => ⟨S1x64, .f32⟩
  | 53 => ⟨S50000x64, .f32⟩
  | 54 => ⟨S50000x64, .f32⟩
  | 55 => ⟨S1x64, .f32⟩
  | 56 => ⟨S50000x64, .f32⟩
  | 57 => ⟨S50000x64, .f32⟩
  | 58 => ⟨S_, .f32⟩
  | 59 => ⟨S64, .f32⟩
  | 60 => ⟨S64, .f32⟩
  | 61 => ⟨S64, .f32⟩
  | 62 => ⟨S1x64, .f32⟩
  | 63 => ⟨S50000x64, .f32⟩
  | 64 => ⟨S50000x64, .f32⟩
  | 65 => ⟨S1x64, .f32⟩
  | 66 => ⟨S50000x64, .f32⟩
  | 67 => ⟨S50000x64, .f32⟩
  | 68 => ⟨S1x64, .f32⟩
  | 69 => ⟨S50000x64, .f32⟩
  | 70 => ⟨S50000x64, .f32⟩
  | 71 => ⟨S_, .f32⟩
  | 72 => ⟨S50000x64, .f32⟩
  | 73 => ⟨S50000x64, .f32⟩
  | 74 => ⟨S_, .i32⟩
  | 75 => ⟨S1000000, .i32⟩
  | 76 => ⟨S1000000, .i1⟩
  | 77 => ⟨S_, .i32⟩
  | 78 => ⟨S1000000, .i32⟩
  | 79 => ⟨S1000000, .i32⟩
  | 80 => ⟨S1000000, .i32⟩
  | 81 => ⟨S1000000x1, .i32⟩
  | 82 => ⟨S1000000x64, .f32⟩
  | 83 => ⟨S_, .f32⟩
  | 84 => ⟨S50000x64, .f32⟩
  | 85 => ⟨S1000000x1, .i32⟩
  | 86 => ⟨S50000x64, .f32⟩
  | 87 => ⟨S_, .f32⟩
  | 88 => ⟨S1000000, .f32⟩
  | 89 => ⟨S_, .f32⟩
  | 90 => ⟨S50000, .f32⟩
  | 91 => ⟨S1000000x1, .i32⟩
  | 92 => ⟨S50000, .f32⟩
  | 93 => ⟨S_, .f32⟩
  | 94 => ⟨S50000, .f32⟩
  | 95 => ⟨S50000, .f32⟩
  | 96 => ⟨S50000x1, .f32⟩
  | 97 => ⟨S50000x64, .f32⟩
  | 98 => ⟨S50000x64, .f32⟩
  | 99 => ⟨S50000x64, .f32⟩
  | 100 => ⟨S1x64, .f32⟩
  | 101 => ⟨S50000x64, .f32⟩
  | 102 => ⟨S50000x64, .f32⟩
  | 103 => ⟨S50000x64, .f32⟩
  | 104 => ⟨S50000x64, .f32⟩
  | 105 => ⟨S_, .i32⟩
  | 106 => ⟨S1000000, .i32⟩
  | 107 => ⟨S1000000, .i1⟩
  | 108 => ⟨S_, .i32⟩
  | 109 => ⟨S1000000, .i32⟩
  | 110 => ⟨S1000000, .i32⟩
  | 111 => ⟨S1000000, .i32⟩
  | 112 => ⟨S1000000x1, .i32⟩
  | 113 => ⟨S1000000x64, .f32⟩
  | 114 => ⟨S_, .f32⟩
  | 115 => ⟨S100000x64, .f32⟩
  | 116 => ⟨S1000000x1, .i32⟩
  | 117 => ⟨S100000x64, .f32⟩
  | 118 => ⟨S_, .f32⟩
  | 119 => ⟨S1000000, .f32⟩
  | 120 => ⟨S_, .f32⟩
  | 121 => ⟨S100000, .f32⟩
  | 122 => ⟨S1000000x1, .i32⟩
  | 123 => ⟨S100000, .f32⟩
  | 124 => ⟨S_, .f32⟩
  | 125 => ⟨S100000, .f32⟩
  | 126 => ⟨S100000, .f32⟩
  | 127 => ⟨S100000x1, .f32⟩
  | _ => ⟨S100000x64, .f32⟩

abbrev hbmTy0_1 (i : Nat) : BufTy := match i % 128 with
  | 0 => ⟨S100000x64, .f32⟩
  | 1 => ⟨S100000x64, .f32⟩
  | 2 => ⟨S100000x64, .f32⟩
  | 3 => ⟨S1x64, .f32⟩
  | 4 => ⟨S100000x64, .f32⟩
  | 5 => ⟨S100000x64, .f32⟩
  | 6 => ⟨S100000x64, .f32⟩
  | 7 => ⟨S100000x64, .f32⟩
  | 8 => ⟨S_, .f32⟩
  | 9 => ⟨S100000x64, .f32⟩
  | 10 => ⟨S100000x64, .f32⟩
  | 11 => ⟨S_, .f32⟩
  | 12 => ⟨S50000x64, .f32⟩
  | 13 => ⟨S50000x64, .f32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S1000000x1, .i32⟩
  | 22 => ⟨S1000000x64, .f32⟩
  | 23 => ⟨S_, .f32⟩
  | 24 => ⟨S50000x64, .f32⟩
  | 25 => ⟨S1000000x1, .i32⟩
  | 26 => ⟨S50000x64, .f32⟩
  | 27 => ⟨S_, .f32⟩
  | 28 => ⟨S1000000, .f32⟩
  | 29 => ⟨S_, .f32⟩
  | 30 => ⟨S50000, .f32⟩
  | 31 => ⟨S1000000x1, .i32⟩
  | 32 => ⟨S50000, .f32⟩
  | 33 => ⟨S_, .f32⟩
  | 34 => ⟨S50000, .f32⟩
  | 35 => ⟨S50000, .f32⟩
  | 36 => ⟨S50000x1, .f32⟩
  | 37 => ⟨S50000x64, .f32⟩
  | 38 => ⟨S50000x64, .f32⟩
  | 39 => ⟨S50000x64, .f32⟩
  | 40 => ⟨S1x64, .f32⟩
  | 41 => ⟨S50000x64, .f32⟩
  | 42 => ⟨S50000x64, .f32⟩
  | 43 => ⟨S50000x64, .f32⟩
  | 44 => ⟨S50000x64, .f32⟩
  | 45 => ⟨S_, .i32⟩
  | 46 => ⟨S1000000, .i32⟩
  | 47 => ⟨S1000000, .i1⟩
  | 48 => ⟨S_, .i32⟩
  | 49 => ⟨S1000000, .i32⟩
  | 50 => ⟨S1000000, .i32⟩
  | 51 => ⟨S1000000, .i32⟩
  | 52 => ⟨S1000000x1, .i32⟩
  | 53 => ⟨S1000000x64, .f32⟩
  | 54 => ⟨S_, .f32⟩
  | 55 => ⟨S100000x64, .f32⟩
  | 56 => ⟨S1000000x1, .i32⟩
  | 57 => ⟨S100000x64, .f32⟩
  | 58 => ⟨S_, .f32⟩
  | 59 => ⟨S1000000, .f32⟩
  | 60 => ⟨S_, .f32⟩
  | 61 => ⟨S100000, .f32⟩
  | 62 => ⟨S1000000x1, .i32⟩
  | 63 => ⟨S100000, .f32⟩
  | 64 => ⟨S_, .f32⟩
  | 65 => ⟨S100000, .f32⟩
  | 66 => ⟨S100000, .f32⟩
  | 67 => ⟨S100000x1, .f32⟩
  | 68 => ⟨S100000x64, .f32⟩
  | 69 => ⟨S100000x64, .f32⟩
  | 70 => ⟨S100000x64, .f32⟩
  | 71 => ⟨S1x64, .f32⟩
  | 72 => ⟨S100000x64, .f32⟩
  | 73 => ⟨S100000x64, .f32⟩
  | 74 => ⟨S100000x64, .f32⟩
  | 75 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_call0_cst : Ref sig .tc := ⟨.hbm, 48, rfl⟩
abbrev main_call0_v0 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_0 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_call1_cst : Ref sig .tc := ⟨.hbm, 71, rfl⟩
abbrev main_call1_v0 : Ref sig .tc := ⟨.hbm, 72, rfl⟩
abbrev main_v39 : Ref sig .tc := ⟨.hbm, 73, rfl⟩
abbrev main_c : Ref sig .tc := ⟨.hbm, 74, rfl⟩
abbrev main_v40 : Ref sig .tc := ⟨.hbm, 75, rfl⟩
abbrev main_v41 : Ref sig .tc := ⟨.hbm, 76, rfl⟩
abbrev main_c_1 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_2 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_3 : Ref sig .tc := ⟨.hbm, 87, rfl⟩
abbrev main_v50 : Ref sig .tc := ⟨.hbm, 88, rfl⟩
abbrev main_cst_4 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_5 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_c_6 : Ref sig .tc := ⟨.hbm, 105, rfl⟩
abbrev main_v65 : Ref sig .tc := ⟨.hbm, 106, rfl⟩
abbrev main_v66 : Ref sig .tc := ⟨.hbm, 107, rfl⟩
abbrev main_c_7 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_cst_8 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_cst_9 : Ref sig .tc := ⟨.hbm, 118, rfl⟩
abbrev main_v75 : Ref sig .tc := ⟨.hbm, 119, rfl⟩
abbrev main_cst_10 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_cst_11 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_call2_cst : Ref sig .tc := ⟨.hbm, 136, rfl⟩
abbrev main_call2_v0 : Ref sig .tc := ⟨.hbm, 137, rfl⟩
abbrev main_v90 : Ref sig .tc := ⟨.hbm, 138, rfl⟩
abbrev main_call3_cst : Ref sig .tc := ⟨.hbm, 139, rfl⟩
abbrev main_call3_v0 : Ref sig .tc := ⟨.hbm, 140, rfl⟩
abbrev main_v91 : Ref sig .tc := ⟨.hbm, 141, rfl⟩
abbrev main_c_12 : Ref sig .tc := ⟨.hbm, 142, rfl⟩
abbrev main_v92 : Ref sig .tc := ⟨.hbm, 143, rfl⟩
abbrev main_v93 : Ref sig .tc := ⟨.hbm, 144, rfl⟩
abbrev main_c_13 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_cst_14 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_cst_15 : Ref sig .tc := ⟨.hbm, 155, rfl⟩
abbrev main_v102 : Ref sig .tc := ⟨.hbm, 156, rfl⟩
abbrev main_cst_16 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_cst_17 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_c_18 : Ref sig .tc := ⟨.hbm, 173, rfl⟩
abbrev main_v117 : Ref sig .tc := ⟨.hbm, 174, rfl⟩
abbrev main_v118 : Ref sig .tc := ⟨.hbm, 175, rfl⟩
abbrev main_c_19 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_cst_20 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_cst_21 : Ref sig .tc := ⟨.hbm, 186, rfl⟩
abbrev main_v127 : Ref sig .tc := ⟨.hbm, 187, rfl⟩
abbrev main_cst_22 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_cst_23 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S100000x64 : S_.BroadcastsInDim S100000x64 (![] : Fin 0 → Fin S100000x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x64_S64x64_S100000x64_1_0_0_1_n_n_wf : DotDims.WF S100000x64 S64x64 S100000x64 [1] [0] [0] [1] [] []
  dot_S50000x64_S64x64_S50000x64_1_0_0_1_n_n_wf : DotDims.WF S50000x64 S64x64 S50000x64 [1] [0] [0] [1] [] []
  gather_S100000x64_S1000000x1_S1000000x64_1_0_n_n_0_1_164_wf : GatherDims.WF S100000x64 S1000000x1 S1000000x64 [1] [0] [] [0] [] 1 ![1, 64]
  scatter_S50000x64_S1000000x1_S1000000x64_1_0_0_1_wf : ScatterDims.WF S50000x64 S1000000x1 S1000000x64 [1] [0] [0] 1
  scatter_S50000_S1000000x1_S1000000_n_0_0_1_wf : ScatterDims.WF S50000 S1000000x1 S1000000 [] [0] [0] 1
  gather_S50000x64_S1000000x1_S1000000x64_1_0_n_n_0_1_164_wf : GatherDims.WF S50000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf

class Facts : Prop extends Facts₀ where

variable [Facts]
-- ==== Proof.KernelRun.lean ====
/-
  The idealized kernel's run, with every buffer that outlives the regions named at its end.

  @main is six tiled regions among stretches of host operations.  The contents of the TensorCore's buffers at each
  boundary are a fold from the launch memory: a stretch of host operations applies its operations' functions, a region
  replaces each of its arrays by what its blocks' write-backs leave.  The last stage of the fold is `W12`.  The
  several-regions launch theorem of the pipeline library runs the segments one after the other from thread states of
  the form "every unscoped buffer at the boundary's contents"; the last such state, read against the final memory,
  says that every buffer not scoped to a region ends at `W12`'s contents.  A frame claim keeps of this only the
  argument arrays; here the whole reading is kept, so that the two results can be read off the fold.
-/
import proofs.«145198_j57071525429486_2_alg».proof.Proof.Gen.KernelIdeal.Frame

set_option maxRecDepth 16384

noncomputable section

namespace Cert.KernelIdeal.KerValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is read of a final memory on core `c`: every unscoped buffer holds the fold's last stage. -/
abbrev EndsAtFold (c : Dev nD) (s : MemSt nD τ sig (Elt F)) : Prop :=
  ∀ b ∈ Pipeline.ucRefs τ sig, s.mem (((c : Thread nD τ)).1, b) = W12 m ρ c b

-- the launch theorem's implicit arguments are found by unifying its conclusion with the statement below, which
-- takes unfolding plain definitions in a metavariable's type
set_option backward.isDefEq.respectTransparency.types false in
/-- Every weakly fair execution of @main terminates, nothing faulting, and every buffer that is not scoped to a
    region ends at the last stage of the fold. -/
theorem run_all : θ_run defs (onTc (τ := τ) (main (F := F))) ⟨m, fun _ => 0, ρ⟩
    (fun r => ∀ c : Dev nD, EndsAtFold m ρ c r.2) := by
  -- the launch element: the pipeline library's initial element at every staging cell, no other ghost resource
  let u₀ := initOf (Pipeline.cells cfgs cellOf_inj) (Pipeline.launchToks cfgs cellOf_inj)
  refine Pipeline.θ_run_regions_kit (pcfgs (F := F)) adm (pdats m ρ) () cellOf_inj emb₁ defs₀ 𝒱₀ L lv m ρ main (segs m ρ)
    ?hmain ?hnd (O₀ := 0) (hL := fun _ _ => rfl) (G := fun _ => iprop(emp)) (u₀ := u₀) ?hu
    (T₀ := fun c => iprop(StableHlo.held (c : Thread nD τ) (Pipeline.ucRefs τ sig) (W0 m ρ c) ∗ R c)) (Tₙ := Tₙ m ρ)
    ?hch ?hinit (QY := EndsAtFold m ρ) ?hfin (hQ := fun s h => h)
  case hmain =>
    -- @main is the run of the segment list
    intro c Q
    rw [main_run m ρ c]
  case hnd =>
    -- each of the six pipelines is entered once
    simp only [segs, Pipeline.Seg.pipes_host, Pipeline.Seg.pipes_region, Pipeline.Seg.pipes_nil]
    decide
  case hu =>
    -- the launch element is the library's own, and a separating product of `emp`s is `emp`
    iintro Hu
    imodintro
    isplitl [Hu]
    · iapply (show (ownU u₀ : sProp 𝕄) ⊢ BI.own (emb₁ u₀) from .rfl)
      iexact Hu
    · iapply (show (BI.emp : sProp 𝕄) ⊢ bigSep Finset.univ (fun _ : Dev nD => (BI.emp : sProp 𝕄)) from by
        rw [BI.bigSep_emp_const])
      iempintro
  case hch =>
    -- each segment starts from the thread state the one before it ends in: the boundaries' contents are the fold's stages
    exact ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩
  case hinit =>
    -- the first thread state, core by core: the launch memory's unscoped buffers, the generator register, nothing owed
    refine Pipeline.initEach L lv fun c => ?_
    rw [show unscopedBufs c (fun b => m ((c : Thread nD τ).loc b))
        = StableHlo.held (c : Thread nD τ) (Pipeline.ucRefs τ sig) (W0 m ρ c) from Pipeline.unscopedBufs_held c (W0 m ρ c)]
    iintro ⟨⟨Hbufs, -, Howes, -, Hprng, -⟩, -⟩
    imodintro
    isplitl [Hbufs]
    · iexact Hbufs
    isplitl [Hprng]
    · iexists _
      iexact Hprng
    iexists ∅
    iexact Howes
  case hfin =>
    -- the last thread state holds every unscoped buffer at the fold's last stage; read them against the final state
    intro c s'
    iintro ⟨⟨Hbufs, -⟩, HSI⟩
    unfold StableHlo.held
    imodintro
    iapply (pointsTo_read_all (Pipeline.ucRefs τ sig) (fun b => (((c : Thread nD τ)).1, b)) (W12 m ρ c) s')
    isplitl [Hbufs] <;> iassumption

end Cert.KernelIdeal.KerValue

end
-- ==== Proof.Spec.lean ====
/-
  The mathematics of the two programs, row by row, on the extended reals.

  A node's feature row is a function `Fin 64 → EReal`; a weight matrix is `Fin 64 → Fin 64 → EReal`.
  Two row functions describe everything either program computes on a node:

  * `encRow`: the input layer of one node, `max (((x·W + b − μ) · rsqrt (σ² + ε)) · γ + β) 0`: a linear map,
    a normalisation by running statistics, and a rectifier.
  * `aggRow`: one neighbourhood-mean layer of one node, `(s / max c 1)·Wl + bl + x·Wr`, where `s` is the sum of
    the neighbours' rows and `c` the number of neighbours.  `aggRowScaled` is the same layer with the division by
    `max c 1` replaced by a product, after the matrix product, with a given factor.

  The constants `eps`, `zero` and `one` are kept as the binary words both programs print; only `one` is ever
  evaluated (it is the real number 1).
-/
import Idealize.ShloMosaic.PureOps.Ideal

noncomputable section

namespace Cert.SageSpec

open Idealize.ShloMosaic

/-- A feature row. -/
abbrev Row := Fin 64 → EReal
/-- A 64 × 64 weight matrix, indexed (input feature, output feature). -/
abbrev Mat := Fin 64 → Fin 64 → EReal

/-- The variance offset ε, as the word both programs print. -/
def eps : EReal := Ideal.ofBits .f32 0x3727C5AC#32
/-- The rectifier's floor, as the word both programs print. -/
def zero : EReal := Ideal.ofBits .f32 0x00000000#32
/-- The least divisor of a neighbourhood mean, as the word both programs print. -/
def one : EReal := Ideal.ofBits .f32 0x3F800000#32

/-- The input layer on one node: `max (((x·W + b − μ) · rsqrt (σ² + ε)) · γ + β) 0`. -/
def encRow (x : Row) (w : Mat) (b g beta rm rv : Row) : Row := fun j =>
  max (((((∑ k : Fin 64, x k * w k j) + b j) - rm j) * Ideal.rsqrt (rv j + eps)) * g j + beta j) zero

/-- One neighbourhood-mean layer on one node: `(s / max c 1)·Wl + bl + x·Wr`. -/
def aggRow (s : Row) (cnt : EReal) (x : Row) (wl : Mat) (bl : Row) (wr : Mat) : Row := fun j =>
  ((∑ k : Fin 64, Ideal.div (s k) (max cnt one) * wl k j) + bl j) + ∑ k : Fin 64, x k * wr k j

/-- The same layer with the mean's division replaced by a factor applied after the matrix product:
    `(s·Wl)·f + bl + x·Wr`. -/
def aggRowScaled (s : Row) (f : EReal) (x : Row) (wl : Mat) (bl : Row) (wr : Mat) : Row := fun j =>
  (((∑ k : Fin 64, s k * wl k j) * f) + bl j) + ∑ k : Fin 64, x k * wr k j

/-- The rectifier on a row. -/
def reluRow (r : Row) : Row := fun j => max (r j) zero

end Cert.SageSpec

end
-- ==== Proof.KerEnc.lean ====
/-
  The value of the two input-layer regions.

  Each region sweeps its node-feature array in blocks of 5000 rows.  At a grid point the body computes, from the
  row block x, the weight matrix W and five one-row arrays b, γ, β, μ, σ², the block
  max (((x·W + b − μ) · rsqrt (σ² + ε)) · γ + β) 0, and the block is written back to rows 5000·t … 5000·t + 4999
  of the result.  Read at an entry (p, q) this is the input layer of row p alone: the block product into a zero
  accumulator is the sum over the contraction index of the products of row p with column q, a one-row array
  broadcast down the block reads its only row, and the remaining operations act entry by entry.  The blocks of
  the 20 (resp. 10) grid points tile the 100000 (resp. 50000) rows, row r lying in block r / 5000, so the whole
  result array is the input layer applied row by row to the arrays the region finds on entry.
-/
import proofs.«145198_j57071525429486_2_alg».proof.Proof.Gen.KernelIdeal.Frame
import proofs.«145198_j57071525429486_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KerValue

open Cert.KernelIdeal Cert.KernelIdeal.Gen Idealize.ShloMosaic Idealize.ShloMosaic.TcCoe Idealize.SL.Sem
open Idealize.ShloMosaic.ValueIdx
open Cert
open Idealize.ShloMosaic.Pipeline (Dat)

/-- The left factor's index of the block product at output index i and contraction index κ: row of i, … -/
theorem blockProduct_lhs_row (i : S5000x64.Idx) (κ : dot_S5000x64_S64x64_S5000x64_1_0_0_1_n_n.contr.Idx) :
    (dot_S5000x64_S64x64_S5000x64_1_0_0_1_n_n.lhsIdx i κ 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and column κ. -/
theorem blockProduct_lhs_col (i : S5000x64.Idx) (κ : dot_S5000x64_S64x64_S5000x64_1_0_0_1_n_n.contr.Idx) :
    (dot_S5000x64_S64x64_S5000x64_1_0_0_1_n_n.lhsIdx i κ 1).val = (κ ⟨0, by decide⟩).val :=
  dot_S5000x64_S64x64_S5000x64_1_0_0_1_n_n.lhsIdx_val_of_single rfl i κ
/-- The right factor's index: row κ, … -/
theorem blockProduct_rhs_row (i : S5000x64.Idx) (κ : dot_S5000x64_S64x64_S5000x64_1_0_0_1_n_n.contr.Idx) :
    (dot_S5000x64_S64x64_S5000x64_1_0_0_1_n_n.rhsIdx i κ 0).val = (κ ⟨0, by decide⟩).val :=
  dot_S5000x64_S64x64_S5000x64_1_0_0_1_n_n.rhsIdx_val_of_single rfl i κ
/-- … and the column of i. -/
theorem blockProduct_rhs_col (i : S5000x64.Idx) (κ : dot_S5000x64_S64x64_S5000x64_1_0_0_1_n_n.contr.Idx) :
    (dot_S5000x64_S64x64_S5000x64_1_0_0_1_n_n.rhsIdx i κ 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block product into the zero accumulator, at row p and column q: the sum over the contraction index of
    the products of row p of the left factor with column q of the right factor. -/
theorem blockProduct_apply (x : FVec Ideal S5000x64 .bf16) (w : FVec Ideal S64x64 .bf16) (p : Fin 5000) (q : Fin 64) :
    matmul dot_S5000x64_S64x64_S5000x64_1_0_0_1_n_n none x w (constant S5000x64 .f32 0x00000000#32) (ix2 p q)
      = ∑ k : Fin 64, x (ix2 p k) * w (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact blockProduct_lhs_row _ _
    | ⟨1, _⟩ => exact (blockProduct_lhs_col _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (blockProduct_rhs_row _ _).trans hk
    | ⟨1, _⟩ => exact blockProduct_rhs_col _ _)
  rw [el, er]

/-- One row broadcast down a block's 5000 rows reads, at (p, q), the row at q. -/
theorem rowBroadcast_apply (v : FVec Ideal S1x64 .f32) (p : Fin 5000) (q : Fin 64) :
    broadcastTo S5000x64 v broadcasts_S1x64_S5000x64 (ix2 p q) = v (ix2 (0 : Fin 1) q) :=
  broadcastTo_1b_ab_apply v broadcasts_S1x64_S5000x64 p q

/-- The input layer's payload on a block, at row p and column q, is the input layer of row p of the block. -/
theorem encPayload0_apply (x : Vec Ideal S5000x64 .f32) (w : Vec Ideal S64x64 .f32) (b rm rv g be : Vec Ideal S1x64 .f32)
    (p : Fin 5000) (q : Fin 64) :
    k0_pay1 (F := Ideal) x w b rm rv g be (ix2 p q)
      = SageSpec.encRow (fun k => x (ix2 p k)) (fun k j => w (ix2 k j)) (fun j => b (ix2 (0 : Fin 1) j))
          (fun j => g (ix2 (0 : Fin 1) j)) (fun j => be (ix2 (0 : Fin 1) j)) (fun j => rm (ix2 (0 : Fin 1) j))
          (fun j => rv (ix2 (0 : Fin 1) j)) q := by
  unfold k0_pay1
  simp only [shapeCast_self]
  simp only [maximumf_apply, addf_apply, mulf_apply, subf_apply, rowBroadcast_apply, blockProduct_apply, truncf_apply, broadcast_apply]
  rfl

/-! ## From the blocks to the array: region 0 (100000 rows in 20 blocks of 5000) -/

theorem zeroOffsets : (![0, 0] : Fin 2 → Nat) = fun _ => 0 := funext fun a => by fin_cases a <;> rfl

/-- What the body leaves in the output block, at row p and column q, from the seven input blocks: the input layer of
    row p of the row block, with the weight block and the five one-row blocks. -/
theorem encBlock0_apply (x0 : Vec Ideal S5000x64 .f32) (x1 : Vec Ideal S64x64 .f32) (x2 x3 x4 x5 x6 : Vec Ideal S1x64 .f32)
    (p : Fin 5000) (q : Fin 64) :
    out0_7 (F := Ideal) x0 x1 x2 x3 x4 x5 x6 (ix2 p q)
      = SageSpec.encRow (fun k => x0 (ix2 p k)) (fun k j => x1 (ix2 k j)) (fun j => x2 (ix2 (0 : Fin 1) j))
          (fun j => x3 (ix2 (0 : Fin 1) j)) (fun j => x4 (ix2 (0 : Fin 1) j)) (fun j => x5 (ix2 (0 : Fin 1) j))
          (fun j => x6 (ix2 (0 : Fin 1) j)) q := by
  unfold out0_7
  rw [View.canon_unit_zero zeroOffsets]
  simp only [View.ld_unit_zero (S := S5000x64) zeroOffsets, View.ld_unit_zero (S := S64x64) zeroOffsets, View.ld_unit_zero (S := S1x64) zeroOffsets]
  exact encPayload0_apply x0 x1 x2 x5 x6 x3 x4 p q

variable (V : (c : Dev nD) → (b : Ref sig .tc) → Buf (Elt Ideal) ((c : Thread nD τ).loc b))

/-- The region's result as one function of the arrays it finds: row r is the input layer of row r of the node
    features, with the weight matrix and the five 64-vectors (each held as a 1 × 64 array). -/
def encArr0 (c : Dev nD) : S100000x64.Idx → EReal := fun i =>
  SageSpec.encRow (fun k => (V c main_arg0 : S100000x64.Idx → EReal) (ix2 (i 0 : Fin 100000) k))
    (fun k j => (V c main_arg4 : S64x64.Idx → EReal) (ix2 k j))
    (fun j => (V c main_v18 : S1x64.Idx → EReal) (ix2 (0 : Fin 1) j))
    (fun j => (V c main_v19 : S1x64.Idx → EReal) (ix2 (0 : Fin 1) j))
    (fun j => (V c main_v20 : S1x64.Idx → EReal) (ix2 (0 : Fin 1) j))
    (fun j => (V c main_v21 : S1x64.Idx → EReal) (ix2 (0 : Fin 1) j))
    (fun j => (V c main_v22 : S1x64.Idx → EReal) (ix2 (0 : Fin 1) j)) (i 1 : Fin 64)

/-- The printed index maps, decided over the 20 grid points: the row windows (input 0, output 7) sit at block
    (t, 0); the weight window and the five one-row windows sit at block (0, 0). -/
theorem indexFacts0 : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Row p of the row block at point t is row 5000·t + p of the node features. -/
theorem rowBlock0_apply (c : Dev nD) (t : Fin cfg0.N) (p : Fin 5000) (k : Fin 64) (r : Fin 100000)
    (hr : r.val = t.val * 5000 + p.val) :
    (iblk0 V c 0 t : Vec Ideal S5000x64 .f32) (ix2 p k) = (V c main_arg0 : S100000x64.Idx → EReal) (ix2 r k) := by
  obtain ⟨e0, e1, -⟩ := indexFacts0 t
  show V c main_arg0 (((cfg0.win 0).blk t).view.emb (ix2 p k)) = V c main_arg0 (ix2 r k)
  refine congrArg (V c main_arg0) ?_
  funext a; apply Fin.ext
  match a with
  | ⟨0, _⟩ => show win0_0.index t (0 : Fin 2) * 5000 + 1 * p.val = r.val; omega
  | ⟨1, _⟩ => show win0_0.index t (1 : Fin 2) * 64 + 1 * k.val = k.val; omega

/-- The weight block at every point is the whole weight matrix. -/
theorem weightBlock0_apply (c : Dev nD) (t : Fin cfg0.N) (k j : Fin 64) :
    (iblk0 V c 1 t : Vec Ideal S64x64 .f32) (ix2 k j) = (V c main_arg4 : S64x64.Idx → EReal) (ix2 k j) := by
  obtain ⟨-, -, -, -, e0, e1, -⟩ := indexFacts0 t
  show V c main_arg4 (((cfg0.win 1).blk t).view.emb (ix2 k j)) = V c main_arg4 (ix2 k j)
  refine congrArg (V c main_arg4) ?_
  funext a; apply Fin.ext
  match a with
  | ⟨0, _⟩ => show win0_1.index t (0 : Fin 2) * 64 + 1 * k.val = k.val; omega
  | ⟨1, _⟩ => show win0_1.index t (1 : Fin 2) * 64 + 1 * j.val = j.val; omega

/-- Each one-row block at every point is its whole 1 × 64 array. -/
theorem biasBlock0_apply (c : Dev nD) (t : Fin cfg0.N) (j : Fin 64) :
    (iblk0 V c 2 t : Vec Ideal S1x64 .f32) (ix2 (0 : Fin 1) j) = (V c main_v18 : S1x64.Idx → EReal) (ix2 (0 : Fin 1) j) := by
  obtain ⟨-, -, -, -, -, -, e0, e1, -⟩ := indexFacts0 t
  show V c main_v18 (((cfg0.win 2).blk t).view.emb (ix2 (0 : Fin 1) j)) = V c main_v18 (ix2 (0 : Fin 1) j)
  refine congrArg (V c main_v18) ?_
  funext a; apply Fin.ext
  match a with
  | ⟨0, _⟩ => show win0_2.index t (0 : Fin 2) * 1 + 1 * (0 : Fin 1).val = (0 : Fin 1).val; omega
  | ⟨1, _⟩ => show win0_2.index t (1 : Fin 2) * 64 + 1 * j.val = j.val; omega

theorem scaleBlock0_apply (c : Dev nD) (t : Fin cfg0.N) (j : Fin 64) :
    (iblk0 V c 3 t : Vec Ideal S1x64 .f32) (ix2 (0 : Fin 1) j) = (V c main_v19 : S1x64.Idx → EReal) (ix2 (0 : Fin 1) j) := by
  obtain ⟨-, -, -, -, -, -, -, -, e0, e1, -⟩ := indexFacts0 t
  show V c main_v19 (((cfg0.win 3).blk t).view.emb (ix2 (0 : Fin 1) j)) = V c main_v19 (ix2 (0 : Fin 1) j)
  refine congrArg (V c main_v19) ?_
  funext a; apply Fin.ext
  match a with
  | ⟨0, _⟩ => show win0_3.index t (0 : Fin 2) * 1 + 1 * (0 : Fin 1).val = (0 : Fin 1).val; omega
  | ⟨1, _⟩ => show win0_3.index t (1 : Fin 2) * 64 + 1 * j.val = j.val; omega

theorem shiftBlock0_apply (c : Dev nD) (t : Fin cfg0.N) (j : Fin 64) :
    (iblk0 V c 4 t : Vec Ideal S1x64 .f32) (ix2 (0 : Fin 1) j) = (V c main_v20 : S1x64.Idx → EReal) (ix2 (0 : Fin 1) j) := by
  obtain ⟨-, -, -, -, -, -, -, -, -, -, e0, e1, -⟩ := indexFacts0 t
  show V c main_v20 (((cfg0.win 4).blk t).view.emb (ix2 (0 : Fin 1) j)) = V c main_v20 (ix2 (0 : Fin 1) j)
  refine congrArg (V c main_v20) ?_
  funext a; apply Fin.ext
  match a with
  | ⟨0, _⟩ => show win0_4.index t (0 : Fin 2) * 1 + 1 * (0 : Fin 1).val = (0 : Fin 1).val; omega
  | ⟨1, _⟩ => show win0_4.index t (1 : Fin 2) * 64 + 1 * j.val = j.val; omega

theorem meanBlock0_apply (c : Dev nD) (t : Fin cfg0.N) (j : Fin 64) :
    (iblk0 V c 5 t : Vec Ideal S1x64 .f32) (ix2 (0 : Fin 1) j) = (V c main_v21 : S1x64.Idx → EReal) (ix2 (0 : Fin 1) j) := by
  obtain ⟨-, -, -, -, -, -, -, -, -, -, -, -, e0, e1, -⟩ := indexFacts0 t
  show V c main_v21 (((cfg0.win 5).blk t).view.emb (ix2 (0 : Fin 1) j)) = V c main_v21 (ix2 (0 : Fin 1) j)
  refine congrArg (V c main_v21) ?_
  funext a; apply Fin.ext
  match a with
  | ⟨0, _⟩ => show win0_5.index t (0 : Fin 2) * 1 + 1 * (0 : Fin 1).val = (0 : Fin 1).val; omega
  | ⟨1, _⟩ => show win0_5.index t (1 : Fin 2) * 64 + 1 * j.val = j.val; omega

theorem varBlock0_apply (c : Dev nD) (t : Fin cfg0.N) (j : Fin 64) :
    (iblk0 V c 6 t : Vec Ideal S1x64 .f32) (ix2 (0 : Fin 1) j) = (V c main_v22 : S1x64.Idx → EReal) (ix2 (0 : Fin 1) j) := by
  obtain ⟨-, -, -, -, -, -, -, -, -, -, -, -, -, -, e0, e1⟩ := indexFacts0 t
  show V c main_v22 (((cfg0.win 6).blk t).view.emb (ix2 (0 : Fin 1) j)) = V c main_v22 (ix2 (0 : Fin 1) j)
  refine congrArg (V c main_v22) ?_
  funext a; apply Fin.ext
  match a with
  | ⟨0, _⟩ => show win0_6.index t (0 : Fin 2) * 1 + 1 * (0 : Fin 1).val = (0 : Fin 1).val; omega
  | ⟨1, _⟩ => show win0_6.index t (1 : Fin 2) * 64 + 1 * j.val = j.val; omega

/-- What point t writes back is block t of the region's result function. -/
theorem enc0_flushed (c : Dev nD) (t : Fin cfg0.N) :
    (dat0 (F := Ideal) V c).flushed 7 t = ((cfg0.win 7).blk t).view.read (Elt Ideal) (encArr0 V c) := by
  show (cfg0.win 7).cut (grid0.coords t) ((dat0 V c).after 7 t) = _
  rw [after0_7]
  refine funext fun (y : S5000x64.Idx) => ?_
  obtain ⟨p, q, rfl⟩ : ∃ (p : Fin 5000) (q : Fin 64), y = ix2 p q := ⟨y 0, y 1, eq_ix2 y⟩
  refine (encBlock0_apply (iblk0 V c 0 t) (iblk0 V c 1 t) (iblk0 V c 2 t) (iblk0 V c 3 t) (iblk0 V c 4 t) (iblk0 V c 5 t) (iblk0 V c 6 t) p q).trans ?_
  obtain ⟨-, -, e0, e1, -⟩ := indexFacts0 t
  have ht : t.val < 20 := lt_of_lt_of_eq t.isLt N_0
  have hrow : ((((cfg0.win 7).blk t).view.emb (ix2 p q)) 0).val = t.val * 5000 + p.val := by
    show win0_7.index t (0 : Fin 2) * 5000 + 1 * p.val = _; omega
  have hcol : ((((cfg0.win 7).blk t).view.emb (ix2 p q)) 1).val = q.val := by
    show win0_7.index t (1 : Fin 2) * 64 + 1 * q.val = _; omega
  show _ = encArr0 V c (((cfg0.win 7).blk t).view.emb (ix2 p q))
  unfold encArr0
  have hx : (fun k : Fin 64 => (iblk0 V c 0 t : Vec Ideal S5000x64 .f32) (ix2 p k))
      = fun k => (V c main_arg0 : S100000x64.Idx → EReal) (ix2 ((((cfg0.win 7).blk t).view.emb (ix2 p q)) 0 : Fin 100000) k) :=
    funext fun k => rowBlock0_apply V c t p k _ hrow
  have hw : (fun k j : Fin 64 => (iblk0 V c 1 t : Vec Ideal S64x64 .f32) (ix2 k j)) = fun k j => (V c main_arg4 : S64x64.Idx → EReal) (ix2 k j) :=
    funext fun k => funext fun j => weightBlock0_apply V c t k j
  have h2 : (fun j : Fin 64 => (iblk0 V c 2 t : Vec Ideal S1x64 .f32) (ix2 (0 : Fin 1) j)) = fun j => (V c main_v18 : S1x64.Idx → EReal) (ix2 (0 : Fin 1) j) :=
    funext fun j => biasBlock0_apply V c t j
  have h3 : (fun j : Fin 64 => (iblk0 V c 3 t : Vec Ideal S1x64 .f32) (ix2 (0 : Fin 1) j)) = fun j => (V c main_v19 : S1x64.Idx → EReal) (ix2 (0 : Fin 1) j) :=
    funext fun j => scaleBlock0_apply V c t j
  have h4 : (fun j : Fin 64 => (iblk0 V c 4 t : Vec Ideal S1x64 .f32) (ix2 (0 : Fin 1) j)) = fun j => (V c main_v20 : S1x64.Idx → EReal) (ix2 (0 : Fin 1) j) :=
    funext fun j => shiftBlock0_apply V c t j
  have h5 : (fun j : Fin 64 => (iblk0 V c 5 t : Vec Ideal S1x64 .f32) (ix2 (0 : Fin 1) j)) = fun j => (V c main_v21 : S1x64.Idx → EReal) (ix2 (0 : Fin 1) j) :=
    funext fun j => meanBlock0_apply V c t j
  have h6 : (fun j : Fin 64 => (iblk0 V c 6 t : Vec Ideal S1x64 .f32) (ix2 (0 : Fin 1) j)) = fun j => (V c main_v22 : S1x64.Idx → EReal) (ix2 (0 : Fin 1) j) :=
    funext fun j => varBlock0_apply V c t j
  have hq : q = ((((cfg0.win 7).blk t).view.emb (ix2 p q)) 1 : Fin 64) := Fin.ext hcol.symm
  rw [hx, hw, h2, h3, h4, h5, h6]
  exact congrArg _ hq

/-- An index of the result array is in point t's block iff each coordinate is in the block's range on its axis. -/
theorem mem_outBlock0 (t : Fin cfg0.N) (i : S100000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v23).slice (win0_7.rect t)).set ↔ _
  rw [View.set_slice_whole, Rect.mem_set_unit]
  exact Iff.rfl

/-- Row r of the result array is covered by point r / 5000. -/
theorem enc0_cover (i : S100000x64.Idx) :
    ∃ t : Fin cfg0.N, (cfg0.win 7).flush t = true ∧ i ∈ ((cfg0.win 7).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, e0, e1, -⟩ := indexFacts0 t
  have htv : t.val = (i 0).val / 5000 := rfl
  refine ⟨t, flush0_7 t, ?_⟩
  rw [mem_outBlock0]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 64 ≤ (i 1).val ∧ (i 1).val < win0_7.index t (1 : Fin 2) * 64 + 64; omega

/-- The result array after region 0 is the input layer of the node features, row by row. -/
theorem enc0_final (c : Dev nD) : (dat0 (F := Ideal) V c).arrAt 7 cfg0.N = encArr0 V c :=
  (dat0 (F := Ideal) V c).arrAt_eq_of_cover 7 (encArr0 V c) (fun t _ => enc0_flushed V c t) enc0_cover

/-- REGION 0, read: entry (p, q) of the array the region leaves is the input layer of row p of the user features. -/
theorem enc0_value (c : Dev nD) (p : Fin 100000) (q : Fin 64) :
    (dat0 (F := Ideal) V c).arrAt 7 cfg0.N (ix2 p q)
      = SageSpec.encRow (fun k => (V c main_arg0 : S100000x64.Idx → EReal) (ix2 p k))
          (fun k j => (V c main_arg4 : S64x64.Idx → EReal) (ix2 k j))
          (fun j => (V c main_v18 : S1x64.Idx → EReal) (ix2 (0 : Fin 1) j))
          (fun j => (V c main_v19 : S1x64.Idx → EReal) (ix2 (0 : Fin 1) j))
          (fun j => (V c main_v20 : S1x64.Idx → EReal) (ix2 (0 : Fin 1) j))
          (fun j => (V c main_v21 : S1x64.Idx → EReal) (ix2 (0 : Fin 1) j))
          (fun j => (V c main_v22 : S1x64.Idx → EReal) (ix2 (0 : Fin 1) j)) q := by
  rw [enc0_final]
  rfl

/-! ## Region 1 (50000 rows in 10 blocks of 5000): the same layer on the second node type -/

/-- The input layer's payload on a block, at row p and column q, is the input layer of row p of the block. -/
theorem encPayload1_apply (x : Vec Ideal S5000x64 .f32) (w : Vec Ideal S64x64 .f32) (b rm rv g be : Vec Ideal S1x64 .f32)
    (p : Fin 5000) (q : Fin 64) :
    k1_pay1 (F := Ideal) x w b rm rv g be (ix2 p q)
      = SageSpec.encRow (fun k => x (ix2 p k)) (fun k j => w (ix2 k j)) (fun j => b (ix2 (0 : Fin 1) j))
          (fun j => g (ix2 (0 : Fin 1) j)) (fun j => be (ix2 (0 : Fin 1) j)) (fun j => rm (ix2 (0 : Fin 1) j))
          (fun j => rv (ix2 (0 : Fin 1) j)) q := by
  unfold k1_pay1
  simp only [shapeCast_self]
  simp only [maximumf_apply, addf_apply, mulf_apply, subf_apply, rowBroadcast_apply, blockProduct_apply, truncf_apply, broadcast_apply]
  rfl

/-- What the body leaves in the output block, at row p and column q, from the seven input blocks: the input layer of
    row p of the row block, with the weight block and the five one-row blocks. -/
theorem encBlock1_apply (x0 : Vec Ideal S5000x64 .f32) (x1 : Vec Ideal S64x64 .f32) (x2 x3 x4 x5 x6 : Vec Ideal S1x64 .f32)
    (p : Fin 5000) (q : Fin 64) :
    out1_7 (F := Ideal) x0 x1 x2 x3 x4 x5 x6 (ix2 p q)
      = SageSpec.encRow (fun k => x0 (ix2 p k)) (fun k j => x1 (ix2 k j)) (fun j => x2 (ix2 (0 : Fin 1) j))
          (fun j => x3 (ix2 (0 : Fin 1) j)) (fun j => x4 (ix2 (0 : Fin 1) j)) (fun j => x5 (ix2 (0 : Fin 1) j))
          (fun j => x6 (ix2 (0 : Fin 1) j)) q := by
  unfold out1_7
  rw [View.canon_unit_zero zeroOffsets]
  simp only [View.ld_unit_zero (S := S5000x64) zeroOffsets, View.ld_unit_zero (S := S64x64) zeroOffsets, View.ld_unit_zero (S := S1x64) zeroOffsets]
  exact encPayload1_apply x0 x1 x2 x5 x6 x3 x4 p q

/-- The region's result as one function of the arrays it finds: row r is the input layer of row r of the node
    features, with the weight matrix and the five 64-vectors (each held as a 1 × 64 array). -/
def encArr1 (c : Dev nD) : S50000x64.Idx → EReal := fun i =>
  SageSpec.encRow (fun k => (V c main_arg1 : S50000x64.Idx → EReal) (ix2 (i 0 : Fin 50000) k))
    (fun k j => (V c main_arg6 : S64x64.Idx → EReal) (ix2 k j))
    (fun j => (V c main_v24 : S1x64.Idx → EReal) (ix2 (0 : Fin 1) j))
    (fun j => (V c main_v25 : S1x64.Idx → EReal) (ix2 (0 : Fin 1) j))
    (fun j => (V c main_v26 : S1x64.Idx → EReal) (ix2 (0 : Fin 1) j))
    (fun j => (V c main_v27 : S1x64.Idx → EReal) (ix2 (0 : Fin 1) j))
    (fun j => (V c main_v28 : S1x64.Idx → EReal) (ix2 (0 : Fin 1) j)) (i 1 : Fin 64)

/-- The printed index maps, decided over the 10 grid points: the row windows (input 0, output 7) sit at block
    (t, 0); the weight window and the five one-row windows sit at block (0, 0). -/
theorem indexFacts1 : ∀ t : Fin cfg1.N,
    win1_0.index t (0 : Fin 2) = t.val ∧ win1_0.index t (1 : Fin 2) = 0
    ∧ win1_7.index t (0 : Fin 2) = t.val ∧ win1_7.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Row p of the row block at point t is row 5000·t + p of the node features. -/
theorem rowBlock1_apply (c : Dev nD) (t : Fin cfg1.N) (p : Fin 5000) (k : Fin 64) (r : Fin 50000)
    (hr : r.val = t.val * 5000 + p.val) :
    (iblk1 V c 0 t : Vec Ideal S5000x64 .f32) (ix2 p k) = (V c main_arg1 : S50000x64.Idx → EReal) (ix2 r k) := by
  obtain ⟨e0, e1, -⟩ := indexFacts1 t
  show V c main_arg1 (((cfg1.win 0).blk t).view.emb (ix2 p k)) = V c main_arg1 (ix2 r k)
  refine congrArg (V c main_arg1) ?_
  funext a; apply Fin.ext
  match a with
  | ⟨0, _⟩ => show win1_0.index t (0 : Fin 2) * 5000 + 1 * p.val = r.val; omega
  | ⟨1, _⟩ => show win1_0.index t (1 : Fin 2) * 64 + 1 * k.val = k.val; omega

/-- The weight block at every point is the whole weight matrix. -/
theorem weightBlock1_apply (c : Dev nD) (t : Fin cfg1.N) (k j : Fin 64) :
    (iblk1 V c 1 t : Vec Ideal S64x64 .f32) (ix2 k j) = (V c main_arg6 : S64x64.Idx → EReal) (ix2 k j) := by
  obtain ⟨-, -, -, -, e0, e1, -⟩ := indexFacts1 t
  show V c main_arg6 (((cfg1.win 1).blk t).view.emb (ix2 k j)) = V c main_arg6 (ix2 k j)
  refine congrArg (V c main_arg6) ?_
  funext a; apply Fin.ext
  match a with
  | ⟨0, _⟩ => show win1_1.index t (0 : Fin 2) * 64 + 1 * k.val = k.val; omega
  | ⟨1, _⟩ => show win1_1.index t (1 : Fin 2) * 64 + 1 * j.val = j.val; omega

/-- Each one-row block at every point is its whole 1 × 64 array. -/
theorem biasBlock1_apply (c : Dev nD) (t : Fin cfg1.N) (j : Fin 64) :
    (iblk1 V c 2 t : Vec Ideal S1x64 .f32) (ix2 (0 : Fin 1) j) = (V c main_v24 : S1x64.Idx → EReal) (ix2 (0 : Fin 1) j) := by
  obtain ⟨-, -, -, -, -, -, e0, e1, -⟩ := indexFacts1 t
  show V c main_v24 (((cfg1.win 2).blk t).view.emb (ix2 (0 : Fin 1) j)) = V c main_v24 (ix2 (0 : Fin 1) j)
  refine congrArg (V c main_v24) ?_
  funext a; apply Fin.ext
  match a with
  | ⟨0, _⟩ => show win1_2.index t (0 : Fin 2) * 1 + 1 * (0 : Fin 1).val = (0 : Fin 1).val; omega
  | ⟨1, _⟩ => show win1_2.index t (1 : Fin 2) * 64 + 1 * j.val = j.val; omega

theorem scaleBlock1_apply (c : Dev nD) (t : Fin cfg1.N) (j : Fin 64) :
    (iblk1 V c 3 t : Vec Ideal S1x64 .f32) (ix2 (0 : Fin 1) j) = (V c main_v25 : S1x64.Idx → EReal) (ix2 (0 : Fin 1) j) := by
  obtain ⟨-, -, -, -, -, -, -, -, e0, e1, -⟩ := indexFacts1 t
  show V c main_v25 (((cfg1.win 3).blk t).view.emb (ix2 (0 : Fin 1) j)) = V c main_v25 (ix2 (0 : Fin 1) j)
  refine congrArg (V c main_v25) ?_
  funext a; apply Fin.ext
  match a with
  | ⟨0, _⟩ => show win1_3.index t (0 : Fin 2) * 1 + 1 * (0 : Fin 1).val = (0 : Fin 1).val; omega
  | ⟨1, _⟩ => show win1_3.index t (1 : Fin 2) * 64 + 1 * j.val = j.val; omega

theorem shiftBlock1_apply (c : Dev nD) (t : Fin cfg1.N) (j : Fin 64) :
    (iblk1 V c 4 t : Vec Ideal S1x64 .f32) (ix2 (0 : Fin 1) j) = (V c main_v26 : S1x64.Idx → EReal) (ix2 (0 : Fin 1) j) := by
  obtain ⟨-, -, -, -, -, -, -, -, -, -, e0, e1, -⟩ := indexFacts1 t
  show V c main_v26 (((cfg1.win 4).blk t).view.emb (ix2 (0 : Fin 1) j)) = V c main_v26 (ix2 (0 : Fin 1) j)
  refine congrArg (V c main_v26) ?_
  funext a; apply Fin.ext
  match a with
  | ⟨0, _⟩ => show win1_4.index t (0 : Fin 2) * 1 + 1 * (0 : Fin 1).val = (0 : Fin 1).val; omega
  | ⟨1, _⟩ => show win1_4.index t (1 : Fin 2) * 64 + 1 * j.val = j.val; omega

theorem meanBlock1_apply (c : Dev nD) (t : Fin cfg1.N) (j : Fin 64) :
    (iblk1 V c 5 t : Vec Ideal S1x64 .f32) (ix2 (0 : Fin 1) j) = (V c main_v27 : S1x64.Idx → EReal) (ix2 (0 : Fin 1) j) := by
  obtain ⟨-, -, -, -, -, -, -, -, -, -, -, -, e0, e1, -⟩ := indexFacts1 t
  show V c main_v27 (((cfg1.win 5).blk t).view.emb (ix2 (0 : Fin 1) j)) = V c main_v27 (ix2 (0 : Fin 1) j)
  refine congrArg (V c main_v27) ?_
  funext a; apply Fin.ext
  match a with
  | ⟨0, _⟩ => show win1_5.index t (0 : Fin 2) * 1 + 1 * (0 : Fin 1).val = (0 : Fin 1).val; omega
  | ⟨1, _⟩ => show win1_5.index t (1 : Fin 2) * 64 + 1 * j.val = j.val; omega

theorem varBlock1_apply (c : Dev nD) (t : Fin cfg1.N) (j : Fin 64) :
    (iblk1 V c 6 t : Vec Ideal S1x64 .f32) (ix2 (0 : Fin 1) j) = (V c main_v28 : S1x64.Idx → EReal) (ix2 (0 : Fin 1) j) := by
  obtain ⟨-, -, -, -, -, -, -, -, -, -, -, -, -, -, e0, e1⟩ := indexFacts1 t
  show V c main_v28 (((cfg1.win 6).blk t).view.emb (ix2 (0 : Fin 1) j)) = V c main_v28 (ix2 (0 : Fin 1) j)
  refine congrArg (V c main_v28) ?_
  funext a; apply Fin.ext
  match a with
  | ⟨0, _⟩ => show win1_6.index t (0 : Fin 2) * 1 + 1 * (0 : Fin 1).val = (0 : Fin 1).val; omega
  | ⟨1, _⟩ => show win1_6.index t (1 : Fin 2) * 64 + 1 * j.val = j.val; omega

/-- What point t writes back is block t of the region's result function. -/
theorem enc1_flushed (c : Dev nD) (t : Fin cfg1.N) :
    (dat1 (F := Ideal) V c).flushed 7 t = ((cfg1.win 7).blk t).view.read (Elt Ideal) (encArr1 V c) := by
  show (cfg1.win 7).cut (grid1.coords t) ((dat1 V c).after 7 t) = _
  rw [after1_7]
  refine funext fun (y : S5000x64.Idx) => ?_
  obtain ⟨p, q, rfl⟩ : ∃ (p : Fin 5000) (q : Fin 64), y = ix2 p q := ⟨y 0, y 1, eq_ix2 y⟩
  refine (encBlock1_apply (iblk1 V c 0 t) (iblk1 V c 1 t) (iblk1 V c 2 t) (iblk1 V c 3 t) (iblk1 V c 4 t) (iblk1 V c 5 t) (iblk1 V c 6 t) p q).trans ?_
  obtain ⟨-, -, e0, e1, -⟩ := indexFacts1 t
  have ht : t.val < 10 := lt_of_lt_of_eq t.isLt N_1
  have hrow : ((((cfg1.win 7).blk t).view.emb (ix2 p q)) 0).val = t.val * 5000 + p.val := by
    show win1_7.index t (0 : Fin 2) * 5000 + 1 * p.val = _; omega
  have hcol : ((((cfg1.win 7).blk t).view.emb (ix2 p q)) 1).val = q.val := by
    show win1_7.index t (1 : Fin 2) * 64 + 1 * q.val = _; omega
  show _ = encArr1 V c (((cfg1.win 7).blk t).view.emb (ix2 p q))
  unfold encArr1
  have hx : (fun k : Fin 64 => (iblk1 V c 0 t : Vec Ideal S5000x64 .f32) (ix2 p k))
      = fun k => (V c main_arg1 : S50000x64.Idx → EReal) (ix2 ((((cfg1.win 7).blk t).view.emb (ix2 p q)) 0 : Fin 50000) k) :=
    funext fun k => rowBlock1_apply V c t p k _ hrow
  have hw : (fun k j : Fin 64 => (iblk1 V c 1 t : Vec Ideal S64x64 .f32) (ix2 k j)) = fun k j => (V c main_arg6 : S64x64.Idx → EReal) (ix2 k j) :=
    funext fun k => funext fun j => weightBlock1_apply V c t k j
  have h2 : (fun j : Fin 64 => (iblk1 V c 2 t : Vec Ideal S1x64 .f32) (ix2 (0 : Fin 1) j)) = fun j => (V c main_v24 : S1x64.Idx → EReal) (ix2 (0 : Fin 1) j) :=
    funext fun j => biasBlock1_apply V c t j
  have h3 : (fun j : Fin 64 => (iblk1 V c 3 t : Vec Ideal S1x64 .f32) (ix2 (0 : Fin 1) j)) = fun j => (V c main_v25 : S1x64.Idx → EReal) (ix2 (0 : Fin 1) j) :=
    funext fun j => scaleBlock1_apply V c t j
  have h4 : (fun j : Fin 64 => (iblk1 V c 4 t : Vec Ideal S1x64 .f32) (ix2 (0 : Fin 1) j)) = fun j => (V c main_v26 : S1x64.Idx → EReal) (ix2 (0 : Fin 1) j) :=
    funext fun j => shiftBlock1_apply V c t j
  have h5 : (fun j : Fin 64 => (iblk1 V c 5 t : Vec Ideal S1x64 .f32) (ix2 (0 : Fin 1) j)) = fun j => (V c main_v27 : S1x64.Idx → EReal) (ix2 (0 : Fin 1) j) :=
    funext fun j => meanBlock1_apply V c t j
  have h6 : (fun j : Fin 64 => (iblk1 V c 6 t : Vec Ideal S1x64 .f32) (ix2 (0 : Fin 1) j)) = fun j => (V c main_v28 : S1x64.Idx → EReal) (ix2 (0 : Fin 1) j) :=
    funext fun j => varBlock1_apply V c t j
  have hq : q = ((((cfg1.win 7).blk t).view.emb (ix2 p q)) 1 : Fin 64) := Fin.ext hcol.symm
  rw [hx, hw, h2, h3, h4, h5, h6]
  exact congrArg _ hq

/-- An index of the result array is in point t's block iff each coordinate is in the block's range on its axis. -/
theorem mem_outBlock1 (t : Fin cfg1.N) (i : S50000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v29).slice (win1_7.rect t)).set ↔ _
  rw [View.set_slice_whole, Rect.mem_set_unit]
  exact Iff.rfl

/-- Row r of the result array is covered by point r / 5000. -/
theorem enc1_cover (i : S50000x64.Idx) :
    ∃ t : Fin cfg1.N, (cfg1.win 7).flush t = true ∧ i ∈ ((cfg1.win 7).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  obtain ⟨-, -, e0, e1, -⟩ := indexFacts1 t
  have htv : t.val = (i 0).val / 5000 := rfl
  refine ⟨t, flush1_7 t, ?_⟩
  rw [mem_outBlock1]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 64 ≤ (i 1).val ∧ (i 1).val < win1_7.index t (1 : Fin 2) * 64 + 64; omega

/-- The result array after region 1 is the input layer of the node features, row by row. -/
theorem enc1_final (c : Dev nD) : (dat1 (F := Ideal) V c).arrAt 7 cfg1.N = encArr1 V c :=
  (dat1 (F := Ideal) V c).arrAt_eq_of_cover 7 (encArr1 V c) (fun t _ => enc1_flushed V c t) enc1_cover

/-- REGION 1, read: entry (p, q) of the array the region leaves is the input layer of row p of the movie features. -/
theorem enc1_value (c : Dev nD) (p : Fin 50000) (q : Fin 64) :
    (dat1 (F := Ideal) V c).arrAt 7 cfg1.N (ix2 p q)
      = SageSpec.encRow (fun k => (V c main_arg1 : S50000x64.Idx → EReal) (ix2 p k))
          (fun k j => (V c main_arg6 : S64x64.Idx → EReal) (ix2 k j))
          (fun j => (V c main_v24 : S1x64.Idx → EReal) (ix2 (0 : Fin 1) j))
          (fun j => (V c main_v25 : S1x64.Idx → EReal) (ix2 (0 : Fin 1) j))
          (fun j => (V c main_v26 : S1x64.Idx → EReal) (ix2 (0 : Fin 1) j))
          (fun j => (V c main_v27 : S1x64.Idx → EReal) (ix2 (0 : Fin 1) j))
          (fun j => (V c main_v28 : S1x64.Idx → EReal) (ix2 (0 : Fin 1) j)) q := by
  rw [enc1_final]
  rfl

end Cert.KernelIdeal.KerValue

end
-- ==== Proof.RefEnc.lean ====
/-
  The reference program's input layer, read at one node and one feature.

  For each node type the reference computes, on whole arrays, the matrix product `x·W`, adds the bias row,
  subtracts the running mean, multiplies by `rsqrt (σ² + ε)` and by `γ`, adds `β`, and takes the maximum with
  the zero array; every row vector is first broadcast `[64] → [1,64] → [rows,64]`.  Read at entry `(p, q)` this is
  the specification's `encRow` of node `p`'s feature row, at feature `q`:

  * the product's entry `(p, q)` is `∑ k, x (p, k) · W (k, q)`;
  * a broadcast row vector's entry `(p, q)` is the vector's entry `q`;
  * the pointwise operations are the extended reals' own, and the two constants are the words the
    specification names `eps` and `zero`.
-/
import proofs.«145198_j57071525429486_2_alg».proof.Proof.Gen.ReferenceIdeal.Read
import proofs.«145198_j57071525429486_2_alg».proof.Proof.Spec

noncomputable section

namespace Cert.ReferenceIdeal.RefValue

open Cert.ReferenceIdeal Cert.ReferenceIdeal.Gen Idealize.ShloMosaic Idealize.ShloMosaic.StableHlo
open Idealize.ShloMosaic.ValueIdx
open Cert
open scoped BigOperators

/-! ## Index equations: the operand entries each result entry reads -/

/-- The `k`-th term of the product's entry `(p, q)` reads the left operand at `(p, k)`. -/
theorem lidx_v0 (p : Fin 100000) (q k : Fin 64) : Read.lidx_main_v0 (ix2 p q) k = ix2 p k :=
  funext fun a => Fin.ext (by match a with | ⟨0, _⟩ => rfl | ⟨1, _⟩ => rfl)
/-- … and the right operand at `(k, q)`. -/
theorem ridx_v0 (p : Fin 100000) (q k : Fin 64) : Read.ridx_main_v0 (ix2 p q) k = ix2 k q :=
  funext fun a => Fin.ext (by match a with | ⟨0, _⟩ => rfl | ⟨1, _⟩ => rfl)
/-- The same two facts for the second node type's product. -/
theorem lidx_v20 (p : Fin 50000) (q k : Fin 64) : Read.lidx_main_v20 (ix2 p q) k = ix2 p k :=
  funext fun a => Fin.ext (by match a with | ⟨0, _⟩ => rfl | ⟨1, _⟩ => rfl)
theorem ridx_v20 (p : Fin 50000) (q k : Fin 64) : Read.ridx_main_v20 (ix2 p q) k = ix2 k q :=
  funext fun a => Fin.ext (by match a with | ⟨0, _⟩ => rfl | ⟨1, _⟩ => rfl)

/-- Two broadcasts in a row, `[64] → [1,64] → [100000,64]`, read entry `(p, q)` of the result at entry `q`
    of the vector. -/
theorem bcast_v1_v2 (p : Fin 100000) (q : Fin 64) :
    Read.idx_main_v1 (Read.idx_main_v2 (ix2 p q)) = ix1 q :=
  funext fun a => Fin.ext (by match a with | ⟨0, _⟩ => rfl)
/-- Two broadcasts in a row, `[64] → [1,64] → [100000,64]`, read entry `(p, q)` of the result at entry `q`
    of the vector. -/
theorem bcast_v4_v5 (p : Fin 100000) (q : Fin 64) :
    Read.idx_main_v4 (Read.idx_main_v5 (ix2 p q)) = ix1 q :=
  funext fun a => Fin.ext (by match a with | ⟨0, _⟩ => rfl)
/-- Two broadcasts in a row, `[64] → [1,64] → [100000,64]`, read entry `(p, q)` of the result at entry `q`
    of the vector. -/
theorem bcast_v10_v11 (p : Fin 100000) (q : Fin 64) :
    Read.idx_main_v10 (Read.idx_main_v11 (ix2 p q)) = ix1 q :=
  funext fun a => Fin.ext (by match a with | ⟨0, _⟩ => rfl)
/-- Two broadcasts in a row, `[64] → [1,64] → [100000,64]`, read entry `(p, q)` of the result at entry `q`
    of the vector. -/
theorem bcast_v13_v14 (p : Fin 100000) (q : Fin 64) :
    Read.idx_main_v13 (Read.idx_main_v14 (ix2 p q)) = ix1 q :=
  funext fun a => Fin.ext (by match a with | ⟨0, _⟩ => rfl)
/-- Two broadcasts in a row, `[64] → [1,64] → [100000,64]`, read entry `(p, q)` of the result at entry `q`
    of the vector. -/
theorem bcast_v16_v17 (p : Fin 100000) (q : Fin 64) :
    Read.idx_main_v16 (Read.idx_main_v17 (ix2 p q)) = ix1 q :=
  funext fun a => Fin.ext (by match a with | ⟨0, _⟩ => rfl)
/-- Two broadcasts in a row, `[64] → [1,64] → [50000,64]`, read entry `(p, q)` of the result at entry `q`
    of the vector. -/
theorem bcast_v21_v22 (p : Fin 50000) (q : Fin 64) :
    Read.idx_main_v21 (Read.idx_main_v22 (ix2 p q)) = ix1 q :=
  funext fun a => Fin.ext (by match a with | ⟨0, _⟩ => rfl)
/-- Two broadcasts in a row, `[64] → [1,64] → [50000,64]`, read entry `(p, q)` of the result at entry `q`
    of the vector. -/
theorem bcast_v24_v25 (p : Fin 50000) (q : Fin 64) :
    Read.idx_main_v24 (Read.idx_main_v25 (ix2 p q)) = ix1 q :=
  funext fun a => Fin.ext (by match a with | ⟨0, _⟩ => rfl)
/-- Two broadcasts in a row, `[64] → [1,64] → [50000,64]`, read entry `(p, q)` of the result at entry `q`
    of the vector. -/
theorem bcast_v30_v31 (p : Fin 50000) (q : Fin 64) :
    Read.idx_main_v30 (Read.idx_main_v31 (ix2 p q)) = ix1 q :=
  funext fun a => Fin.ext (by match a with | ⟨0, _⟩ => rfl)
/-- Two broadcasts in a row, `[64] → [1,64] → [50000,64]`, read entry `(p, q)` of the result at entry `q`
    of the vector. -/
theorem bcast_v33_v34 (p : Fin 50000) (q : Fin 64) :
    Read.idx_main_v33 (Read.idx_main_v34 (ix2 p q)) = ix1 q :=
  funext fun a => Fin.ext (by match a with | ⟨0, _⟩ => rfl)
/-- Two broadcasts in a row, `[64] → [1,64] → [50000,64]`, read entry `(p, q)` of the result at entry `q`
    of the vector. -/
theorem bcast_v36_v37 (p : Fin 50000) (q : Fin 64) :
    Read.idx_main_v36 (Read.idx_main_v37 (ix2 p q)) = ix1 q :=
  funext fun a => Fin.ext (by match a with | ⟨0, _⟩ => rfl)

/-! ## The input layer at an entry -/

/-- First node type (100000 rows): entry `(p, q)` of the input layer is `encRow` of row `p` at `q`, with
    weights `x4`, bias `x5`, scale `x8`, shift `x9`, running mean `x10` and running variance `x11`. -/
theorem ref_hu (x0 : (⟨S100000x64, .f32⟩ : BufTy).Contents (Elt Ideal)) (x4 : (⟨S64x64, .f32⟩ : BufTy).Contents (Elt Ideal))
    (x5 x8 x9 x10 x11 : (⟨S64, .f32⟩ : BufTy).Contents (Elt Ideal)) (p : Fin 100000) (q : Fin 64) :
    Read.val_main_v19 (F := Ideal) x0 x4 x5 x8 x9 x10 x11 (ix2 p q)
      = SageSpec.encRow (fun k => x0 (ix2 p k)) (fun k j => x4 (ix2 k j)) (fun j => x5 (ix1 j))
          (fun j => x8 (ix1 j)) (fun j => x9 (ix1 j)) (fun j => x10 (ix1 j)) (fun j => x11 (ix1 j)) q := by
  -- open the operations from the outermost (the maximum) down to the arguments and the constants
  rw [Read.val_main_v19_apply, Read.val_main_v18_apply, Read.val_main_v15_apply, Read.val_main_v12_apply,
    Read.val_main_v6_apply, Read.val_main_v3_apply, Read.val_main_v0_apply,
    Read.val_main_v2_apply, Read.val_main_v1_apply, Read.val_main_v5_apply, Read.val_main_v4_apply,
    Read.val_main_v11_apply, Read.val_main_v10_apply, Read.val_main_v9_apply, Read.val_main_v8_apply,
    Read.val_main_v7_apply, Read.val_main_cst_apply,
    Read.val_main_v14_apply, Read.val_main_v13_apply, Read.val_main_v17_apply, Read.val_main_v16_apply,
    Read.val_main_call0_v0_apply, Read.val_main_call0_cst_apply]
  -- the entries read, and the operations as the extended reals'
  simp only [lidx_v0, ridx_v0, bcast_v1_v2, bcast_v4_v5, bcast_v10_v11, bcast_v13_v14, bcast_v16_v17,
    Ideal.addf_def, Ideal.subf_def, Ideal.mulf_def, Ideal.maximumf_def, Ideal.hostUnary_rsqrt_def, Ideal.ofBits_def]
  rfl

/-- Second node type (50000 rows): the same, with weights `x6`, bias `x7`, scale `x12`, shift `x13`, running
    mean `x14` and running variance `x15`. -/
theorem ref_hm (x1 : (⟨S50000x64, .f32⟩ : BufTy).Contents (Elt Ideal)) (x6 : (⟨S64x64, .f32⟩ : BufTy).Contents (Elt Ideal))
    (x7 x12 x13 x14 x15 : (⟨S64, .f32⟩ : BufTy).Contents (Elt Ideal)) (p : Fin 50000) (q : Fin 64) :
    Read.val_main_v39 (F := Ideal) x1 x6 x7 x12 x13 x14 x15 (ix2 p q)
      = SageSpec.encRow (fun k => x1 (ix2 p k)) (fun k j => x6 (ix2 k j)) (fun j => x7 (ix1 j))
          (fun j => x12 (ix1 j)) (fun j => x13 (ix1 j)) (fun j => x14 (ix1 j)) (fun j => x15 (ix1 j)) q := by
  rw [Read.val_main_v39_apply, Read.val_main_v38_apply, Read.val_main_v35_apply, Read.val_main_v32_apply,
    Read.val_main_v26_apply, Read.val_main_v23_apply, Read.val_main_v20_apply,
    Read.val_main_v22_apply, Read.val_main_v21_apply, Read.val_main_v25_apply, Read.val_main_v24_apply,
    Read.val_main_v31_apply, Read.val_main_v30_apply, Read.val_main_v29_apply, Read.val_main_v28_apply,
    Read.val_main_v27_apply, Read.val_main_cst_0_apply,
    Read.val_main_v34_apply, Read.val_main_v33_apply, Read.val_main_v37_apply, Read.val_main_v36_apply,
    Read.val_main_call1_v0_apply, Read.val_main_call1_cst_apply]
  simp only [lidx_v20, ridx_v20, bcast_v21_v22, bcast_v24_v25, bcast_v30_v31, bcast_v33_v34, bcast_v36_v37,
    Ideal.addf_def, Ideal.subf_def, Ideal.mulf_def, Ideal.maximumf_def, Ideal.hostUnary_rsqrt_def, Ideal.ofBits_def]
  rfl

end Cert.ReferenceIdeal.RefValue

end
-- ==== Proof.FoldArgs.lean ====
/-
  The argument arrays through the fold.

  The buffer contents at the boundaries of @main's segments are a fold from the launch memory: `W1` after the first
  stretch of host operations, `W2` after the first region, and so on to `W12`.  No host operation writes an argument
  array, and a region changes only its output array; so an argument array holds its launch contents at every
  stage at which it has not yet been an input array of a region (past that it is still unchanged, but that is never
  needed: each weight matrix is read by one region only, and the two index arrays by host operations only).
-/
import proofs.«145198_j57071525429486_2_alg».proof.Proof.Gen.KernelIdeal.Frame

set_option maxRecDepth 16384

noncomputable section

namespace Cert.KernelIdeal.KerValue

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- The argument arrays of @main. -/
def argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27]

/-- A stretch of host operations leaves a buffer alone when none of its operations writes it: the goal
    `after ops W b = W b` for a literal `b`. -/
macro "unwritten_by " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))))

/-- The same for an argument array `b` given by `hb : b ∈ argRefs`: every operation writes a buffer of its own,
    which is not in the list. -/
macro "arg_unwritten_by " ops:ident " with " hb:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => absurd (e ▸ $hb) (by decide)))))

variable (c : Dev nD) (b : Ref sig .tc) (hb : b ∈ argRefs)

include hb in
/-- An argument array after the host stretch 0 (stage 1), when no region before it takes it as an array. -/
theorem arg_at_W1  :
    W1 m ρ c (Proc.devRef .tc b) = m ((c : Thread nD τ).loc b) :=
  (show W1 m ρ c (Proc.devRef .tc b) = W0 m ρ c (Proc.devRef .tc b) by arg_unwritten_by hostOps0 with hb).trans
    rfl

include hb in
/-- An argument array after region 0 (stage 2), when neither that region nor an earlier one takes it as an array. -/
theorem arg_at_W2 (h0 : ∀ w, Pipeline.arrRef spec0 w ≠ b) :
    W2 m ρ c (Proc.devRef .tc b) = m ((c : Thread nD τ).loc b) :=
  (W2_of_ne m ρ c b h0).trans (arg_at_W1 m ρ c b hb )

include hb in
/-- An argument array after the host stretch 1 (stage 3), when no region before it takes it as an array. -/
theorem arg_at_W3 (h0 : ∀ w, Pipeline.arrRef spec0 w ≠ b) :
    W3 m ρ c (Proc.devRef .tc b) = m ((c : Thread nD τ).loc b) :=
  (show W3 m ρ c (Proc.devRef .tc b) = W2 m ρ c (Proc.devRef .tc b) by arg_unwritten_by hostOps1 with hb).trans
    (arg_at_W2 m ρ c b hb h0)

include hb in
/-- An argument array after region 1 (stage 4), when neither that region nor an earlier one takes it as an array. -/
theorem arg_at_W4 (h0 : ∀ w, Pipeline.arrRef spec0 w ≠ b) (h1 : ∀ w, Pipeline.arrRef spec1 w ≠ b) :
    W4 m ρ c (Proc.devRef .tc b) = m ((c : Thread nD τ).loc b) :=
  (W4_of_ne m ρ c b h1).trans (arg_at_W3 m ρ c b hb h0)

include hb in
/-- An argument array after the host stretch 2 (stage 5), when no region before it takes it as an array. -/
theorem arg_at_W5 (h0 : ∀ w, Pipeline.arrRef spec0 w ≠ b) (h1 : ∀ w, Pipeline.arrRef spec1 w ≠ b) :
    W5 m ρ c (Proc.devRef .tc b) = m ((c : Thread nD τ).loc b) :=
  (show W5 m ρ c (Proc.devRef .tc b) = W4 m ρ c (Proc.devRef .tc b) by arg_unwritten_by hostOps2 with hb).trans
    (arg_at_W4 m ρ c b hb h0 h1)

include hb in
/-- An argument array after region 2 (stage 6), when neither that region nor an earlier one takes it as an array. -/
theorem arg_at_W6 (h0 : ∀ w, Pipeline.arrRef spec0 w ≠ b) (h1 : ∀ w, Pipeline.arrRef spec1 w ≠ b) (h2 : ∀ w, Pipeline.arrRef spec2 w ≠ b) :
    W6 m ρ c (Proc.devRef .tc b) = m ((c : Thread nD τ).loc b) :=
  (W6_of_ne m ρ c b h2).trans (arg_at_W5 m ρ c b hb h0 h1)

include hb in
/-- An argument array after the host stretch 3 (stage 7), when no region before it takes it as an array. -/
theorem arg_at_W7 (h0 : ∀ w, Pipeline.arrRef spec0 w ≠ b) (h1 : ∀ w, Pipeline.arrRef spec1 w ≠ b) (h2 : ∀ w, Pipeline.arrRef spec2 w ≠ b) :
    W7 m ρ c (Proc.devRef .tc b) = m ((c : Thread nD τ).loc b) :=
  (show W7 m ρ c (Proc.devRef .tc b) = W6 m ρ c (Proc.devRef .tc b) by arg_unwritten_by hostOps3 with hb).trans
    (arg_at_W6 m ρ c b hb h0 h1 h2)

include hb in
/-- An argument array after region 3 (stage 8), when neither that region nor an earlier one takes it as an array. -/
theorem arg_at_W8 (h0 : ∀ w, Pipeline.arrRef spec0 w ≠ b) (h1 : ∀ w, Pipeline.arrRef spec1 w ≠ b) (h2 : ∀ w, Pipeline.arrRef spec2 w ≠ b) (h3 : ∀ w, Pipeline.arrRef spec3 w ≠ b) :
    W8 m ρ c (Proc.devRef .tc b) = m ((c : Thread nD τ).loc b) :=
  (W8_of_ne m ρ c b h3).trans (arg_at_W7 m ρ c b hb h0 h1 h2)

include hb in
/-- An argument array after the host stretch 4 (stage 9), when no region before it takes it as an array. -/
theorem arg_at_W9 (h0 : ∀ w, Pipeline.arrRef spec0 w ≠ b) (h1 : ∀ w, Pipeline.arrRef spec1 w ≠ b) (h2 : ∀ w, Pipeline.arrRef spec2 w ≠ b) (h3 : ∀ w, Pipeline.arrRef spec3 w ≠ b) :
    W9 m ρ c (Proc.devRef .tc b) = m ((c : Thread nD τ).loc b) :=
  (show W9 m ρ c (Proc.devRef .tc b) = W8 m ρ c (Proc.devRef .tc b) by arg_unwritten_by hostOps4 with hb).trans
    (arg_at_W8 m ρ c b hb h0 h1 h2 h3)

include hb in
/-- An argument array after region 4 (stage 10), when neither that region nor an earlier one takes it as an array. -/
theorem arg_at_W10 (h0 : ∀ w, Pipeline.arrRef spec0 w ≠ b) (h1 : ∀ w, Pipeline.arrRef spec1 w ≠ b) (h2 : ∀ w, Pipeline.arrRef spec2 w ≠ b) (h3 : ∀ w, Pipeline.arrRef spec3 w ≠ b) (h4 : ∀ w, Pipeline.arrRef spec4 w ≠ b) :
    W10 m ρ c (Proc.devRef .tc b) = m ((c : Thread nD τ).loc b) :=
  (W10_of_ne m ρ c b h4).trans (arg_at_W9 m ρ c b hb h0 h1 h2 h3)

include hb in
/-- An argument array after the host stretch 5 (stage 11), when no region before it takes it as an array. -/
theorem arg_at_W11 (h0 : ∀ w, Pipeline.arrRef spec0 w ≠ b) (h1 : ∀ w, Pipeline.arrRef spec1 w ≠ b) (h2 : ∀ w, Pipeline.arrRef spec2 w ≠ b) (h3 : ∀ w, Pipeline.arrRef spec3 w ≠ b) (h4 : ∀ w, Pipeline.arrRef spec4 w ≠ b) :
    W11 m ρ c (Proc.devRef .tc b) = m ((c : Thread nD τ).loc b) :=
  (show W11 m ρ c (Proc.devRef .tc b) = W10 m ρ c (Proc.devRef .tc b) by arg_unwritten_by hostOps5 with hb).trans
    (arg_at_W10 m ρ c b hb h0 h1 h2 h3 h4)

end Cert.KernelIdeal.KerValue

end
-- ==== Proof.HostTerms.lean ====
/-
  The host operations around the regions, as named functions of arrays.

  Between the tiled regions @main works along the million edges (user `e₂ i`, movie `e₃ i`):
  * `gatherUsers h e₂` is the array of the edges' user rows, `h[e₂ i]` (a negative index counted from the end, as
    the printed `select` spells it), and `gatherMovies h e₃` the edges' movie rows;
  * `sumIntoMovies u e₃` adds edge `i`'s row `u i` into row `e₃ i` of a zero array: the sum of the rows of a
    movie's neighbours; `sumIntoUsers u e₂` likewise for the users;
  * `movieCount e₃` and `userCount e₂` add a one per edge instead: the number of neighbours;
  * `recipCount c` is `1 / max c 1`, entry by entry.
  They are spelt exactly as the printed operations, so that reading a stretch of host operations gives them back.
-/
import proofs.«145198_j57071525429486_2_alg».proof.Proof.Gen.KernelIdeal.Frame

set_option maxRecDepth 16384

noncomputable section

namespace Cert.KernelIdeal.KerValue

open Cert.KernelIdeal Cert.KernelIdeal.Gen
open Idealize.ShloMosaic Idealize.ShloMosaic.TcCoe Idealize.SL.Sem
open Idealize.ShloMosaic.Pipeline (Dat Cfg Window)

variable {F : FTy → Type} [FloatOps F]

/-- The edges' user rows `h[e₂ i]`. -/
def gatherUsers (h : (⟨S100000x64, .f32⟩ : BufTy).Contents (Elt F)) (e : (⟨S1000000, .i32⟩ : BufTy).Contents (Elt F)) : (⟨S1000000x64, .f32⟩ : BufTy).Contents (Elt F) :=
  Host.gather gather_S100000x64_S1000000x1_S1000000x64_1_0_n_n_0_1_164 h
    (broadcastInDim S1000000x1 ![0] bcast_S1000000_S1000000x1_0
      (select (cmpi .slt e (broadcastInDim S1000000 ![] bcast_S_S1000000 (constantI S_ 32 0#32)))
        (addi e (broadcastInDim S1000000 ![] bcast_S_S1000000 (constantI S_ 32 100000#32))) e))

/-- The edges' movie rows `h[e₃ i]`. -/
def gatherMovies (h : (⟨S50000x64, .f32⟩ : BufTy).Contents (Elt F)) (e : (⟨S1000000, .i32⟩ : BufTy).Contents (Elt F)) : (⟨S1000000x64, .f32⟩ : BufTy).Contents (Elt F) :=
  Host.gather gather_S50000x64_S1000000x1_S1000000x64_1_0_n_n_0_1_164 h
    (broadcastInDim S1000000x1 ![0] bcast_S1000000_S1000000x1_0
      (select (cmpi .slt e (broadcastInDim S1000000 ![] bcast_S_S1000000 (constantI S_ 32 0#32)))
        (addi e (broadcastInDim S1000000 ![] bcast_S_S1000000 (constantI S_ 32 50000#32))) e))

/-- The sum, for each movie, of the rows of the edges that end at it. -/
def sumIntoMovies (u : (⟨S1000000x64, .f32⟩ : BufTy).Contents (Elt F)) (e : (⟨S1000000, .i32⟩ : BufTy).Contents (Elt F)) : (⟨S50000x64, .f32⟩ : BufTy).Contents (Elt F) :=
  Host.scatterAdd scatter_S50000x64_S1000000x1_S1000000x64_1_0_0_1
    (broadcastInDim S50000x64 ![] bcast_S_S50000x64 (constant S_ .f32 0x00000000#32))
    (broadcastInDim S1000000x1 ![0] bcast_S1000000_S1000000x1_0 e) u

/-- The sum, for each user, of the rows of the edges that start at it. -/
def sumIntoUsers (u : (⟨S1000000x64, .f32⟩ : BufTy).Contents (Elt F)) (e : (⟨S1000000, .i32⟩ : BufTy).Contents (Elt F)) : (⟨S100000x64, .f32⟩ : BufTy).Contents (Elt F) :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 e) u

/-- The number of edges that end at each movie. -/
def movieCount (e : (⟨S1000000, .i32⟩ : BufTy).Contents (Elt F)) : (⟨S50000, .f32⟩ : BufTy).Contents (Elt F) :=
  Host.scatterAdd scatter_S50000_S1000000x1_S1000000_n_0_0_1
    (broadcastInDim S50000 ![] bcast_S_S50000 (constant S_ .f32 0x00000000#32))
    (broadcastInDim S1000000x1 ![0] bcast_S1000000_S1000000x1_0 e)
    (broadcastInDim S1000000 ![] bcast_S_S1000000 (constant S_ .f32 0x3F800000#32))

/-- The number of edges that start at each user. -/
def userCount (e : (⟨S1000000, .i32⟩ : BufTy).Contents (Elt F)) : (⟨S100000, .f32⟩ : BufTy).Contents (Elt F) :=
  Host.scatterAdd scatter_S100000_S1000000x1_S1000000_n_0_0_1
    (broadcastInDim S100000 ![] bcast_S_S100000 (constant S_ .f32 0x00000000#32))
    (broadcastInDim S1000000x1 ![0] bcast_S1000000_S1000000x1_0 e)
    (broadcastInDim S1000000 ![] bcast_S_S1000000 (constant S_ .f32 0x3F800000#32))

/-- `1 / max c 1` over the movies. -/
def recipCountMovies (cnt : (⟨S50000, .f32⟩ : BufTy).Contents (Elt F)) : (⟨S50000, .f32⟩ : BufTy).Contents (Elt F) :=
  Host.divf (broadcastInDim S50000 ![] bcast_S_S50000 (constant S_ .f32 0x3F800000#32))
    (maximumf cnt (broadcastInDim S50000 ![] bcast_S_S50000 (constant S_ .f32 0x3F800000#32)))

/-- `1 / max c 1` over the users. -/
def recipCountUsers (cnt : (⟨S100000, .f32⟩ : BufTy).Contents (Elt F)) : (⟨S100000, .f32⟩ : BufTy).Contents (Elt F) :=
  Host.divf (broadcastInDim S100000 ![] bcast_S_S100000 (constant S_ .f32 0x3F800000#32))
    (maximumf cnt (broadcastInDim S100000 ![] bcast_S_S100000 (constant S_ .f32 0x3F800000#32)))

end Cert.KernelIdeal.KerValue

end
-- ==== Proof.FoldRead0.lean ====
/-
  The first stretch of host operations read: the users' bias and normalisation parameters laid out as 1 × 64 rows,
  and, for each node type, the column of reciprocal neighbour counts `1 / max c 1` (a count vector laid out as an
  n × 1 column: entry `(p, 0)` of the column is entry `p` of the vector).
-/
import proofs.«145198_j57071525429486_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value
import proofs.«145198_j57071525429486_2_alg».proof.Proof.HostTerms

set_option maxRecDepth 16384

noncomputable section

namespace Cert.KernelIdeal.KerValue

open Cert.KernelIdeal Cert.KernelIdeal.Gen
open Idealize.ShloMosaic Idealize.ShloMosaic.TcCoe Idealize.SL.Sem
open Idealize.ShloMosaic.Pipeline (Dat Cfg Window)
open Idealize.ShloMosaic.StableHlo Idealize.ShloMosaic.ValueIdx

variable {F : FTy → Type} [FloatOps F]
variable (m : (ℓ : Loc nD τ sig) → Buf (Elt F) ℓ) (ρ : Dev nD → PrngReg)

variable (c : Dev nD)

/-- The users' bias as a row. -/
theorem b_user_row (q : Fin 64) :
    (W1 m ρ c (Proc.devRef .tc main_v18) : S1x64.Idx → F .f32) (ix2 (0 : Fin 1) q)
      = (W0 m ρ c (Proc.devRef .tc main_arg5) : S64.Idx → F .f32) (ix1 q) := by
  have h : (W1 m ρ c (Proc.devRef .tc main_v18) : S1x64.Idx → F .f32)
      = shapeCast S1x64 (W0 m ρ c (Proc.devRef .tc main_arg5) : S64.Idx → F .f32) shapeCasts_S64_S1x64 := by
    show StableHlo.after hostOps0 (W0 m ρ c) (Proc.devRef .tc main_v18) = _
    simp only [hostOps0]
    after_results
    rfl
  rw [h]
  exact shapeCast_a_1a_apply _ _ _ _

/-- The users' scale γ as a row. -/
theorem g_user_row (q : Fin 64) :
    (W1 m ρ c (Proc.devRef .tc main_v19) : S1x64.Idx → F .f32) (ix2 (0 : Fin 1) q)
      = (W0 m ρ c (Proc.devRef .tc main_arg8) : S64.Idx → F .f32) (ix1 q) := by
  have h : (W1 m ρ c (Proc.devRef .tc main_v19) : S1x64.Idx → F .f32)
      = shapeCast S1x64 (W0 m ρ c (Proc.devRef .tc main_arg8) : S64.Idx → F .f32) shapeCasts_S64_S1x64 := by
    show StableHlo.after hostOps0 (W0 m ρ c) (Proc.devRef .tc main_v19) = _
    simp only [hostOps0]
    after_results
    rfl
  rw [h]
  exact shapeCast_a_1a_apply _ _ _ _

/-- The users' shift β as a row. -/
theorem beta_user_row (q : Fin 64) :
    (W1 m ρ c (Proc.devRef .tc main_v20) : S1x64.Idx → F .f32) (ix2 (0 : Fin 1) q)
      = (W0 m ρ c (Proc.devRef .tc main_arg9) : S64.Idx → F .f32) (ix1 q) := by
  have h : (W1 m ρ c (Proc.devRef .tc main_v20) : S1x64.Idx → F .f32)
      = shapeCast S1x64 (W0 m ρ c (Proc.devRef .tc main_arg9) : S64.Idx → F .f32) shapeCasts_S64_S1x64 := by
    show StableHlo.after hostOps0 (W0 m ρ c) (Proc.devRef .tc main_v20) = _
    simp only [hostOps0]
    after_results
    rfl
  rw [h]
  exact shapeCast_a_1a_apply _ _ _ _

/-- The users' running mean as a row. -/
theorem rm_user_row (q : Fin 64) :
    (W1 m ρ c (Proc.devRef .tc main_v21) : S1x64.Idx → F .f32) (ix2 (0 : Fin 1) q)
      = (W0 m ρ c (Proc.devRef .tc main_arg10) : S64.Idx → F .f32) (ix1 q) := by
  have h : (W1 m ρ c (Proc.devRef .tc main_v21) : S1x64.Idx → F .f32)
      = shapeCast S1x64 (W0 m ρ c (Proc.devRef .tc main_arg10) : S64.Idx → F .f32) shapeCasts_S64_S1x64 := by
    show StableHlo.after hostOps0 (W0 m ρ c) (Proc.devRef .tc main_v21) = _
    simp only [hostOps0]
    after_results
    rfl
  rw [h]
  exact shapeCast_a_1a_apply _ _ _ _

/-- The users' running variance as a row. -/
theorem rv_user_row (q : Fin 64) :
    (W1 m ρ c (Proc.devRef .tc main_v22) : S1x64.Idx → F .f32) (ix2 (0 : Fin 1) q)
      = (W0 m ρ c (Proc.devRef .tc main_arg11) : S64.Idx → F .f32) (ix1 q) := by
  have h : (W1 m ρ c (Proc.devRef .tc main_v22) : S1x64.Idx → F .f32)
      = shapeCast S1x64 (W0 m ρ c (Proc.devRef .tc main_arg11) : S64.Idx → F .f32) shapeCasts_S64_S1x64 := by
    show StableHlo.after hostOps0 (W0 m ρ c) (Proc.devRef .tc main_v22) = _
    simp only [hostOps0]
    after_results
    rfl
  rw [h]
  exact shapeCast_a_1a_apply _ _ _ _

/-- The movies' column of reciprocal neighbour counts, row `p`. -/
theorem recip_movie_col (p : Fin 50000) :
    (W1 m ρ c (Proc.devRef .tc main_v8) : S50000x1.Idx → F .f32) (ix2 p (0 : Fin 1))
      = recipCountMovies (movieCount (W0 m ρ c (Proc.devRef .tc main_arg3))) (ix1 p) := by
  have h : (W1 m ρ c (Proc.devRef .tc main_v8) : S50000x1.Idx → F .f32)
      = shapeCast S50000x1 (recipCountMovies (movieCount (W0 m ρ c (Proc.devRef .tc main_arg3)))) shapeCasts_S50000_S50000x1 := by
    show StableHlo.after hostOps0 (W0 m ρ c) (Proc.devRef .tc main_v8) = _
    simp only [hostOps0]
    after_results
    rfl
  rw [h]
  refine shapeCast_apply _ _ _ _ ?_
  rw [Shape.rowMajor_val_one, Shape.rowMajor_val_two]
  show p.val = p.val * 1 + (0 : Fin 1).val
  simp

/-- The users' column of reciprocal neighbour counts, row `p`. -/
theorem recip_user_col (p : Fin 100000) :
    (W1 m ρ c (Proc.devRef .tc main_v17) : S100000x1.Idx → F .f32) (ix2 p (0 : Fin 1))
      = recipCountUsers (userCount (W0 m ρ c (Proc.devRef .tc main_arg2))) (ix1 p) := by
  have h : (W1 m ρ c (Proc.devRef .tc main_v17) : S100000x1.Idx → F .f32)
      = shapeCast S100000x1 (recipCountUsers (userCount (W0 m ρ c (Proc.devRef .tc main_arg2)))) shapeCasts_S100000_S100000x1 := by
    show StableHlo.after hostOps0 (W0 m ρ c) (Proc.devRef .tc main_v17) = _
    simp only [hostOps0]
    after_results
    rfl
  rw [h]
  refine shapeCast_apply _ _ _ _ ?_
  rw [Shape.rowMajor_val_one, Shape.rowMajor_val_two]
  show p.val = p.val * 1 + (0 : Fin 1).val
  simp

end Cert.KernelIdeal.KerValue

end
-- ==== Proof.FoldRead1.lean ====
/-
  The second stretch of host operations read: five 64-vectors (the movies' bias and normalisation parameters) laid
  out as 1 × 64 rows.  A row's entry `(0, q)` is the vector's entry `q`.
-/
import proofs.«145198_j57071525429486_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value
import proofs.«145198_j57071525429486_2_alg».proof.Proof.HostTerms

set_option maxRecDepth 16384

noncomputable section

namespace Cert.KernelIdeal.KerValue

open Cert.KernelIdeal Cert.KernelIdeal.Gen
open Idealize.ShloMosaic Idealize.ShloMosaic.TcCoe Idealize.SL.Sem
open Idealize.ShloMosaic.Pipeline (Dat Cfg Window)
open Idealize.ShloMosaic.StableHlo Idealize.ShloMosaic.ValueIdx

variable {F : FTy → Type} [FloatOps F]
variable (m : (ℓ : Loc nD τ sig) → Buf (Elt F) ℓ) (ρ : Dev nD → PrngReg)

variable (c : Dev nD)

/-- The movies' bias as a row. -/
theorem b_movie_row (q : Fin 64) :
    (W3 m ρ c (Proc.devRef .tc main_v24) : S1x64.Idx → F .f32) (ix2 (0 : Fin 1) q)
      = (W2 m ρ c (Proc.devRef .tc main_arg7) : S64.Idx → F .f32) (ix1 q) := by
  have h : (W3 m ρ c (Proc.devRef .tc main_v24) : S1x64.Idx → F .f32)
      = shapeCast S1x64 (W2 m ρ c (Proc.devRef .tc main_arg7) : S64.Idx → F .f32) shapeCasts_S64_S1x64 := by
    show StableHlo.after hostOps1 (W2 m ρ c) (Proc.devRef .tc main_v24) = _
    simp only [hostOps1]
    after_results
    rfl
  rw [h]
  exact shapeCast_a_1a_apply _ _ _ _

/-- The movies' scale γ as a row. -/
theorem g_movie_row (q : Fin 64) :
    (W3 m ρ c (Proc.devRef .tc main_v25) : S1x64.Idx → F .f32) (ix2 (0 : Fin 1) q)
      = (W2 m ρ c (Proc.devRef .tc main_arg12) : S64.Idx → F .f32) (ix1 q) := by
  have h : (W3 m ρ c (Proc.devRef .tc main_v25) : S1x64.Idx → F .f32)
      = shapeCast S1x64 (W2 m ρ c (Proc.devRef .tc main_arg12) : S64.Idx → F .f32) shapeCasts_S64_S1x64 := by
    show StableHlo.after hostOps1 (W2 m ρ c) (Proc.devRef .tc main_v25) = _
    simp only [hostOps1]
    after_results
    rfl
  rw [h]
  exact shapeCast_a_1a_apply _ _ _ _

/-- The movies' shift β as a row. -/
theorem beta_movie_row (q : Fin 64) :
    (W3 m ρ c (Proc.devRef .tc main_v26) : S1x64.Idx → F .f32) (ix2 (0 : Fin 1) q)
      = (W2 m ρ c (Proc.devRef .tc main_arg13) : S64.Idx → F .f32) (ix1 q) := by
  have h : (W3 m ρ c (Proc.devRef .tc main_v26) : S1x64.Idx → F .f32)
      = shapeCast S1x64 (W2 m ρ c (Proc.devRef .tc main_arg13) : S64.Idx → F .f32) shapeCasts_S64_S1x64 := by
    show StableHlo.after hostOps1 (W2 m ρ c) (Proc.devRef .tc main_v26) = _
    simp only [hostOps1]
    after_results
    rfl
  rw [h]
  exact shapeCast_a_1a_apply _ _ _ _

/-- The movies' running mean as a row. -/
theorem rm_movie_row (q : Fin 64) :
    (W3 m ρ c (Proc.devRef .tc main_v27) : S1x64.Idx → F .f32) (ix2 (0 : Fin 1) q)
      = (W2 m ρ c (Proc.devRef .tc main_arg14) : S64.Idx → F .f32) (ix1 q) := by
  have h : (W3 m ρ c (Proc.devRef .tc main_v27) : S1x64.Idx → F .f32)
      = shapeCast S1x64 (W2 m ρ c (Proc.devRef .tc main_arg14) : S64.Idx → F .f32) shapeCasts_S64_S1x64 := by
    show StableHlo.after hostOps1 (W2 m ρ c) (Proc.devRef .tc main_v27) = _
    simp only [hostOps1]
    after_results
    rfl
  rw [h]
  exact shapeCast_a_1a_apply _ _ _ _

/-- The movies' running variance as a row. -/
theorem rv_movie_row (q : Fin 64) :
    (W3 m ρ c (Proc.devRef .tc main_v28) : S1x64.Idx → F .f32) (ix2 (0 : Fin 1) q)
      = (W2 m ρ c (Proc.devRef .tc main_arg15) : S64.Idx → F .f32) (ix1 q) := by
  have h : (W3 m ρ c (Proc.devRef .tc main_v28) : S1x64.Idx → F .f32)
      = shapeCast S1x64 (W2 m ρ c (Proc.devRef .tc main_arg15) : S64.Idx → F .f32) shapeCasts_S64_S1x64 := by
    show StableHlo.after hostOps1 (W2 m ρ c) (Proc.devRef .tc main_v28) = _
    simp only [hostOps1]
    after_results
    rfl
  rw [h]
  exact shapeCast_a_1a_apply _ _ _ _

end Cert.KernelIdeal.KerValue

end
-- ==== Proof.BridgeEnc.lean ====
/-
  The input layers: what regions 0 and 1 leave is what the reference computes.

  Region 0 writes, row by row in blocks of 5000, the input layer of every user from the arrays it finds at its entry:
  the features and the weight matrix (argument arrays, as launched) and the bias and the four normalisation vectors
  laid out as rows by the host.  The reference applies the same row function to the same vectors.  Region 1 does the
  same for the movies.
-/
import proofs.«145198_j57071525429486_2_alg».proof.Proof.KerEnc
import proofs.«145198_j57071525429486_2_alg».proof.Proof.RefEnc
import proofs.«145198_j57071525429486_2_alg».proof.Proof.FoldArgs
import proofs.«145198_j57071525429486_2_alg».proof.Proof.FoldRead0
import proofs.«145198_j57071525429486_2_alg».proof.Proof.FoldRead1

set_option maxRecDepth 16384

noncomputable section

namespace Cert.Bridge

open Cert.KernelIdeal Cert.KernelIdeal.Gen Cert.KernelIdeal.KerValue
open Idealize.ShloMosaic Idealize.ShloMosaic.TcCoe Idealize.SL.Sem Idealize.ShloMosaic.ValueIdx
open Cert.ReferenceIdeal.Read Cert.ReferenceIdeal.RefValue

variable (m : (ℓ : Loc nD τ sig) → Buf (Elt Ideal) ℓ) (ρ : Dev nD → PrngReg) (c : Dev nD)

/-- The users' input-layer rows after region 0 are the reference's. -/
theorem users_input_layer :
    (W2 m ρ c (Proc.devRef .tc main_v23) : S100000x64.Idx → EReal)
      = val_main_v19 (F := Ideal) (m ((c : Thread nD τ).loc main_arg0)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) := by
  funext i
  obtain ⟨p, q, rfl⟩ : ∃ (p : Fin 100000) (q : Fin 64), i = ix2 p q := ⟨i 0, i 1, eq_ix2 i⟩
  rw [ref_hu]
  have hK : (W2 m ρ c (Proc.devRef .tc main_v23) : S100000x64.Idx → EReal) = (dat0 (V1 m ρ) c).arrAt 7 cfg0.N :=
    W2_arr m ρ c 7
  rw [hK, enc0_value (V1 m ρ) c p q]
  have ex : (V1 m ρ c main_arg0 : S100000x64.Idx → EReal) = (m ((c : Thread nD τ).loc main_arg0)) := arg_at_W1 m ρ c main_arg0 (by decide)
  have ew : (V1 m ρ c main_arg4 : S64x64.Idx → EReal) = (m ((c : Thread nD τ).loc main_arg4)) := arg_at_W1 m ρ c main_arg4 (by decide)
  have er0 : ∀ j : Fin 64, (V1 m ρ c main_v18 : S1x64.Idx → EReal) (ix2 (0 : Fin 1) j) = (m ((c : Thread nD τ).loc main_arg5)) (ix1 j) :=
    fun j => b_user_row m ρ c j
  have er1 : ∀ j : Fin 64, (V1 m ρ c main_v19 : S1x64.Idx → EReal) (ix2 (0 : Fin 1) j) = (m ((c : Thread nD τ).loc main_arg8)) (ix1 j) :=
    fun j => g_user_row m ρ c j
  have er2 : ∀ j : Fin 64, (V1 m ρ c main_v20 : S1x64.Idx → EReal) (ix2 (0 : Fin 1) j) = (m ((c : Thread nD τ).loc main_arg9)) (ix1 j) :=
    fun j => beta_user_row m ρ c j
  have er3 : ∀ j : Fin 64, (V1 m ρ c main_v21 : S1x64.Idx → EReal) (ix2 (0 : Fin 1) j) = (m ((c : Thread nD τ).loc main_arg10)) (ix1 j) :=
    fun j => rm_user_row m ρ c j
  have er4 : ∀ j : Fin 64, (V1 m ρ c main_v22 : S1x64.Idx → EReal) (ix2 (0 : Fin 1) j) = (m ((c : Thread nD τ).loc main_arg11)) (ix1 j) :=
    fun j => rv_user_row m ρ c j
  simp only [ex, ew, er0, er1, er2, er3, er4]

/-- The movies' input-layer rows after region 1 are the reference's. -/
theorem movies_input_layer :
    (W4 m ρ c (Proc.devRef .tc main_v29) : S50000x64.Idx → EReal)
      = val_main_v39 (F := Ideal) (m ((c : Thread nD τ).loc main_arg1)) (m ((c : Thread nD τ).loc main_arg6)) (m ((c : Thread nD τ).loc main_arg7)) (m ((c : Thread nD τ).loc main_arg12)) (m ((c : Thread nD τ).loc main_arg13)) (m ((c : Thread nD τ).loc main_arg14)) (m ((c : Thread nD τ).loc main_arg15)) := by
  funext i
  obtain ⟨p, q, rfl⟩ : ∃ (p : Fin 50000) (q : Fin 64), i = ix2 p q := ⟨i 0, i 1, eq_ix2 i⟩
  rw [ref_hm]
  have hK : (W4 m ρ c (Proc.devRef .tc main_v29) : S50000x64.Idx → EReal) = (dat1 (V3 m ρ) c).arrAt 7 cfg1.N :=
    W4_arr m ρ c 7
  rw [hK, enc1_value (V3 m ρ) c p q]
  have ex : (V3 m ρ c main_arg1 : S50000x64.Idx → EReal) = (m ((c : Thread nD τ).loc main_arg1)) := arg_at_W3 m ρ c main_arg1 (by decide) (by decide)
  have ew : (V3 m ρ c main_arg6 : S64x64.Idx → EReal) = (m ((c : Thread nD τ).loc main_arg6)) := arg_at_W3 m ρ c main_arg6 (by decide) (by decide)
  have er0 : ∀ j : Fin 64, (V3 m ρ c main_v24 : S1x64.Idx → EReal) (ix2 (0 : Fin 1) j) = (m ((c : Thread nD τ).loc main_arg7)) (ix1 j) :=
    fun j => (b_movie_row m ρ c j).trans (congrFun (arg_at_W2 m ρ c main_arg7 (by decide) (by decide)) (ix1 j))
  have er1 : ∀ j : Fin 64, (V3 m ρ c main_v25 : S1x64.Idx → EReal) (ix2 (0 : Fin 1) j) = (m ((c : Thread nD τ).loc main_arg12)) (ix1 j) :=
    fun j => (g_movie_row m ρ c j).trans (congrFun (arg_at_W2 m ρ c main_arg12 (by decide) (by decide)) (ix1 j))
  have er2 : ∀ j : Fin 64, (V3 m ρ c main_v26 : S1x64.Idx → EReal) (ix2 (0 : Fin 1) j) = (m ((c : Thread nD τ).loc main_arg13)) (ix1 j) :=
    fun j => (beta_movie_row m ρ c j).trans (congrFun (arg_at_W2 m ρ c main_arg13 (by decide) (by decide)) (ix1 j))
  have er3 : ∀ j : Fin 64, (V3 m ρ c main_v27 : S1x64.Idx → EReal) (ix2 (0 : Fin 1) j) = (m ((c : Thread nD τ).loc main_arg14)) (ix1 j) :=
    fun j => (rm_movie_row m ρ c j).trans (congrFun (arg_at_W2 m ρ c main_arg14 (by decide) (by decide)) (ix1 j))
  have er4 : ∀ j : Fin 64, (V3 m ρ c main_v28 : S1x64.Idx → EReal) (ix2 (0 : Fin 1) j) = (m ((c : Thread nD τ).loc main_arg15)) (ix1 j) :=
    fun j => (rv_movie_row m ρ c j).trans (congrFun (arg_at_W2 m ρ c main_arg15 (by decide) (by decide)) (ix1 j))
  simp only [ex, ew, er0, er1, er2, er3, er4]

end Cert.Bridge

end
-- ==== Proof.HostRef.lean ====
/-
  The reference's edge stages are the named host terms.

  The reference program gathers the edges' end rows, adds them into a zero array per node, counts a one per edge,
  and divides by max(count, 1) with the same host operations, in the same order, as the terms
  gatherUsers, gatherMovies, sumIntoMovies, sumIntoUsers, movieCount, userCount, recipCountMovies, recipCountUsers;
  only the names of the dimension records and of the shapes differ, and these are the same literal records and
  shapes.  So each stage function of the reference IS the corresponding term: the two sides unfold to one
  expression.  Read at a node, the reciprocal term is one divided by the larger of the node's count and one.
-/
import proofs.«145198_j57071525429486_2_alg».proof.Proof.HostTerms
import proofs.«145198_j57071525429486_2_alg».proof.Proof.Gen.ReferenceIdeal.Read
import proofs.«145198_j57071525429486_2_alg».proof.Proof.Spec
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.ValueIdx
open Cert.ReferenceIdeal Cert.KernelIdeal.KerValue
open Cert

variable (x0 : (⟨S100000x64, .f32⟩ : BufTy).Contents (Elt Ideal)) (x1 : (⟨S50000x64, .f32⟩ : BufTy).Contents (Elt Ideal))
  (x2 x3 : (⟨S1000000, .i32⟩ : BufTy).Contents (Elt Ideal))
  (x4 x6 x16 x18 x19 x21 : (⟨S64x64, .f32⟩ : BufTy).Contents (Elt Ideal))
  (x5 x7 x8 x9 x10 x11 x12 x13 x14 x15 x17 x20 : (⟨S64, .f32⟩ : BufTy).Contents (Elt Ideal))

/-- Layer 1, movies: the reference's sum over a movie's edges of the users' input-layer rows. -/
theorem sums1_def : Read.val_main_v49 (F := Ideal) x0 x2 x3 x4 x5 x8 x9 x10 x11
    = sumIntoMovies (gatherUsers (Read.val_main_v19 (F := Ideal) x0 x4 x5 x8 x9 x10 x11) x2) x3 := rfl

/-- Layer 1, users: the sum over a user's edges of the movies' input-layer rows. -/
theorem sums2_def : Read.val_main_v74 (F := Ideal) x1 x2 x3 x6 x7 x12 x13 x14 x15
    = sumIntoUsers (gatherMovies (Read.val_main_v39 (F := Ideal) x1 x6 x7 x12 x13 x14 x15) x3) x2 := rfl

/-- Layer 2, movies: the sum over a movie's edges of the users' layer-1 rows. -/
theorem sums3_def : Read.val_main_v101 (F := Ideal) x0 x1 x2 x3 x4 x5 x6 x7 x8 x9 x10 x11 x12 x13 x14 x15 x19 x20 x21
    = sumIntoMovies (gatherUsers (Read.val_main_v90 (F := Ideal) x0 x1 x2 x3 x4 x5 x6 x7 x8 x9 x10 x11 x12 x13 x14 x15 x19 x20 x21) x2) x3 := rfl

/-- Layer 2, users: the sum over a user's edges of the movies' layer-1 rows. -/
theorem sums4_def : Read.val_main_v126 (F := Ideal) x0 x1 x2 x3 x4 x5 x6 x7 x8 x9 x10 x11 x12 x13 x14 x15 x16 x17 x18
    = sumIntoUsers (gatherMovies (Read.val_main_v91 (F := Ideal) x0 x1 x2 x3 x4 x5 x6 x7 x8 x9 x10 x11 x12 x13 x14 x15 x16 x17 x18) x3) x2 := rfl

/-- The number of edges at each movie, as the reference counts it for layer 1 … -/
theorem movieCount_def : Read.val_main_v53 (F := Ideal) x3 = movieCount x3 := rfl
/-- … and again for layer 2. -/
theorem movieCount_def' : Read.val_main_v105 (F := Ideal) x3 = movieCount x3 := rfl
/-- The number of edges at each user, for layer 1 … -/
theorem userCount_def : Read.val_main_v78 (F := Ideal) x2 = userCount x2 := rfl
/-- … and again for layer 2. -/
theorem userCount_def' : Read.val_main_v130 (F := Ideal) x2 = userCount x2 := rfl

/-- A scalar constant broadcast over any shape reads, at every index, the constant's value. -/
theorem splat_apply {t : Shape} (h : S_.BroadcastsInDim t (![] : Fin 0 → Fin t.rank)) (b : BitVec 32) (i : t.Idx) :
    broadcastInDim t (![] : Fin 0 → Fin t.rank) h (constant (F := Ideal) S_ .f32 b) i = Ideal.ofBits .f32 b :=
  (broadcastInDim_apply _ h _ i (fun a => a.elim0) (fun a => a.elim0)).trans rfl

/-- The reciprocal of a clamped count, entry by entry: one over the larger of the count and one (movies). -/
theorem recipCountMovies_apply (cnt : (⟨S50000, .f32⟩ : BufTy).Contents (Elt Ideal)) (i : S50000.Idx) :
    recipCountMovies cnt i = Ideal.div SageSpec.one (max (cnt i) SageSpec.one) := by
  unfold recipCountMovies
  show Ideal.div (broadcastInDim _ _ _ _ i) (max (cnt i) (broadcastInDim _ _ _ _ i)) = _
  rw [splat_apply]
  rfl

/-- The same over the users. -/
theorem recipCountUsers_apply (cnt : (⟨S100000, .f32⟩ : BufTy).Contents (Elt Ideal)) (i : S100000.Idx) :
    recipCountUsers cnt i = Ideal.div SageSpec.one (max (cnt i) SageSpec.one) := by
  unfold recipCountUsers
  show Ideal.div (broadcastInDim _ _ _ _ i) (max (cnt i) (broadcastInDim _ _ _ _ i)) = _
  rw [splat_apply]
  rfl

/-- The reciprocal of a movie's clamped count, against the reference's count for layer 1 … -/
theorem movie_recip (p : Fin 50000) :
    (recipCountMovies (movieCount x3) : S50000.Idx → EReal) (ix1 p)
      = Ideal.div SageSpec.one (max (Read.val_main_v53 (F := Ideal) x3 (ix1 p)) SageSpec.one) :=
  recipCountMovies_apply (movieCount x3) (ix1 p)
/-- … and for layer 2. -/
theorem movie_recip' (p : Fin 50000) :
    (recipCountMovies (movieCount x3) : S50000.Idx → EReal) (ix1 p)
      = Ideal.div SageSpec.one (max (Read.val_main_v105 (F := Ideal) x3 (ix1 p)) SageSpec.one) :=
  recipCountMovies_apply (movieCount x3) (ix1 p)
/-- The reciprocal of a user's clamped count, against the reference's count for layer 1 … -/
theorem user_recip (p : Fin 100000) :
    (recipCountUsers (userCount x2) : S100000.Idx → EReal) (ix1 p)
      = Ideal.div SageSpec.one (max (Read.val_main_v78 (F := Ideal) x2 (ix1 p)) SageSpec.one) :=
  recipCountUsers_apply (userCount x2) (ix1 p)
/-- … and for layer 2. -/
theorem user_recip' (p : Fin 100000) :
    (recipCountUsers (userCount x2) : S100000.Idx → EReal) (ix1 p)
      = Ideal.div SageSpec.one (max (Read.val_main_v130 (F := Ideal) x2 (ix1 p)) SageSpec.one) :=
  recipCountUsers_apply (userCount x2) (ix1 p)

end Cert.Bridge

end
-- ==== Proof.KerAggPay.lean ====
/-
  The arithmetic of the four neighbourhood-mean bodies on one block, read at an index.

  Each body takes a block of 5000 rows of neighbour sums `s`, the rows' scaling factors `f` (a column), the rows'
  own features `x`, two 64 × 64 weight matrices `Wl`, `Wr` and a bias row `bl`, and stores
  `(s·Wl)·f + bl + x·Wr`, the first two bodies floored at zero. On extended reals every change of float format is the
  identity, and a matrix product into a zero accumulator is the plain sum over the shared coordinate.
-/
import proofs.«145198_j57071525429486_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.KerValue

open Cert Cert.KernelIdeal Cert.KernelIdeal.Gen

/-- A rectangle at offsets (0, 0): the offsets as the constant zero function. -/
theorem hz : (![0, 0] : Fin 2 → Nat) = fun _ => 0 := funext fun a => by fin_cases a <;> rfl

/-! ## The block product at an index

The body multiplies a block of 5000 rows by a 64 × 64 weight matrix, contracting the rows' 64 entries against the
matrix's first axis. The four lemmas below name the coordinates of the two operand indices that the contraction
pairs with an output index; the fifth reads the product, into a zero accumulator, as the sum over the 64 shared
coordinates. -/

theorem lhs_coord0 (i : S5000x64.Idx) (z : dot_S5000x64_S64x64_S5000x64_1_0_0_1_n_n.contr.Idx) :
    (dot_S5000x64_S64x64_S5000x64_1_0_0_1_n_n.lhsIdx i z 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_coord1 (i : S5000x64.Idx) (z : dot_S5000x64_S64x64_S5000x64_1_0_0_1_n_n.contr.Idx) :
    (dot_S5000x64_S64x64_S5000x64_1_0_0_1_n_n.lhsIdx i z 1).val = (z ⟨0, by decide⟩).val :=
  dot_S5000x64_S64x64_S5000x64_1_0_0_1_n_n.lhsIdx_val_of_single rfl i z
theorem rhs_coord0 (i : S5000x64.Idx) (z : dot_S5000x64_S64x64_S5000x64_1_0_0_1_n_n.contr.Idx) :
    (dot_S5000x64_S64x64_S5000x64_1_0_0_1_n_n.rhsIdx i z 0).val = (z ⟨0, by decide⟩).val :=
  dot_S5000x64_S64x64_S5000x64_1_0_0_1_n_n.rhsIdx_val_of_single rfl i z
theorem rhs_coord1 (i : S5000x64.Idx) (z : dot_S5000x64_S64x64_S5000x64_1_0_0_1_n_n.contr.Idx) :
    (dot_S5000x64_S64x64_S5000x64_1_0_0_1_n_n.rhsIdx i z 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block's matrix product into a zero accumulator, read at row `r` and column `q`: the sum over the 64 shared
    coordinates of the products. -/
theorem matmul_blk_apply {φ₁ φ₂ : FTy} (lhs : FVec Ideal S5000x64 φ₁) (rhs : FVec Ideal S64x64 φ₂) (r : Fin 5000) (q : Fin 64) :
    FloatOps.matmul dot_S5000x64_S64x64_S5000x64_1_0_0_1_n_n none lhs rhs (constant S5000x64 .f32 0x00000000#32) (ix2 r q)
      = ∑ k : Fin 64, lhs (ix2 r k) * rhs (ix2 k q) := by
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r q) ((contrEquiv1 dot_S5000x64_S64x64_S5000x64_1_0_0_1_n_n 64 rfl rfl).symm k) = ix2 r k := funext fun a => Fin.ext (by
    match a with
    | ⟨0, _⟩ => exact lhs_coord0 _ _
    | ⟨1, _⟩ => exact (lhs_coord1 _ _).trans hk)
  have er : dot_S5000x64_S64x64_S5000x64_1_0_0_1_n_n.rhsIdx (ix2 r q) ((contrEquiv1 dot_S5000x64_S64x64_S5000x64_1_0_0_1_n_n 64 rfl rfl).symm k) = ix2 k q := funext fun a => Fin.ext (by
    match a with
    | ⟨0, _⟩ => exact (rhs_coord0 _ _).trans hk
    | ⟨1, _⟩ => exact rhs_coord1 _ _)
  rw [el, er]

/-- A column [5000,1] broadcast along the rows' 64 entries reads, at (r, q), the column's entry of row r. -/
theorem bcast_col_apply (v : (⟨2, ![5000, 1]⟩ : Shape).Idx → EReal) (h : (⟨2, ![5000, 1]⟩ : Shape).Broadcasts ⟨2, ![5000, 64]⟩)
    (r : Fin 5000) (q : Fin 64) : broadcastTo ⟨2, ![5000, 64]⟩ v h (ix2 r q) = v (ix2 r (0 : Fin 1)) := by
  refine broadcastTo_apply v h (ix2 r q) (ix2 r (0 : Fin 1)) fun ax => ?_
  match ax with
  | ⟨0, _⟩ =>
    show r.val = if (5000 : Nat) = 1 then 0 else r.val
    rw [if_neg (by decide)]
  | ⟨1, _⟩ => rfl

/-- The body's arithmetic on one block, read at row `r` and column `q`: the block of neighbour sums times the
    first weight matrix, scaled by the row's factor, plus the bias row, plus the block of the nodes' own rows times
    the second weight matrix, floored at zero. The changes of float format on the way into the products are the
    identity on extended reals. -/
theorem pay2_apply (x0 : Vec Ideal S5000x64 .f32) (x3 : Vec Ideal S64x64 .f32) (x1 : Vec Ideal S5000x1 .f32) (x4 : Vec Ideal S1x64 .f32)
    (x2 : Vec Ideal S5000x64 .f32) (x5 : Vec Ideal S64x64 .f32) (r : Fin 5000) (q : Fin 64) :
    k2_pay1 (F := Ideal) x0 x3 x1 x4 x2 x5 (ix2 r q)
      = max ((((∑ k : Fin 64, x0 (ix2 r k) * x3 (ix2 k q)) * x1 (ix2 r (0 : Fin 1))) + x4 (ix2 (0 : Fin 1) q))
          + ∑ k : Fin 64, x2 (ix2 r k) * x5 (ix2 k q)) (Ideal.ofBits .f32 0x00000000#32) := by
  unfold k2_pay1
  simp only [shapeCast_self]
  rw [maximumf_apply, addf_apply, addf_apply, mulf_apply]
  refine congrArg₂ max ?_ rfl
  refine congrArg₂ (· + ·) (congrArg₂ (· + ·) (congrArg₂ (· * ·) ?_ ?_) ?_) ?_
  · exact matmul_blk_apply _ _ r q
  · exact bcast_col_apply _ _ r q
  · exact broadcastTo_1b_ab_apply _ _ r q
  · exact matmul_blk_apply _ _ r q

/-- The body's arithmetic on one block, read at row `r` and column `q`: the block of neighbour sums times the
    first weight matrix, scaled by the row's factor, plus the bias row, plus the block of the nodes' own rows times
    the second weight matrix, floored at zero. The changes of float format on the way into the products are the
    identity on extended reals. -/
theorem pay3_apply (x0 : Vec Ideal S5000x64 .f32) (x3 : Vec Ideal S64x64 .f32) (x1 : Vec Ideal S5000x1 .f32) (x4 : Vec Ideal S1x64 .f32)
    (x2 : Vec Ideal S5000x64 .f32) (x5 : Vec Ideal S64x64 .f32) (r : Fin 5000) (q : Fin 64) :
    k3_pay1 (F := Ideal) x0 x3 x1 x4 x2 x5 (ix2 r q)
      = max ((((∑ k : Fin 64, x0 (ix2 r k) * x3 (ix2 k q)) * x1 (ix2 r (0 : Fin 1))) + x4 (ix2 (0 : Fin 1) q))
          + ∑ k : Fin 64, x2 (ix2 r k) * x5 (ix2 k q)) (Ideal.ofBits .f32 0x00000000#32) := by
  unfold k3_pay1
  simp only [shapeCast_self]
  rw [maximumf_apply, addf_apply, addf_apply, mulf_apply]
  refine congrArg₂ max ?_ rfl
  refine congrArg₂ (· + ·) (congrArg₂ (· + ·) (congrArg₂ (· * ·) ?_ ?_) ?_) ?_
  · exact matmul_blk_apply _ _ r q
  · exact bcast_col_apply _ _ r q
  · exact broadcastTo_1b_ab_apply _ _ r q
  · exact matmul_blk_apply _ _ r q

/-- The body's arithmetic on one block, read at row `r` and column `q`: the block of neighbour sums times the
    first weight matrix, scaled by the row's factor, plus the bias row, plus the block of the nodes' own rows times
    the second weight matrix. The changes of float format on the way into the products are the
    identity on extended reals. -/
theorem pay4_apply (x0 : Vec Ideal S5000x64 .f32) (x3 : Vec Ideal S64x64 .f32) (x1 : Vec Ideal S5000x1 .f32) (x4 : Vec Ideal S1x64 .f32)
    (x2 : Vec Ideal S5000x64 .f32) (x5 : Vec Ideal S64x64 .f32) (r : Fin 5000) (q : Fin 64) :
    k4_pay1 (F := Ideal) x0 x3 x1 x4 x2 x5 (ix2 r q)
      = (((∑ k : Fin 64, x0 (ix2 r k) * x3 (ix2 k q)) * x1 (ix2 r (0 : Fin 1))) + x4 (ix2 (0 : Fin 1) q))
          + ∑ k : Fin 64, x2 (ix2 r k) * x5 (ix2 k q) := by
  unfold k4_pay1
  simp only [shapeCast_self]
  rw [addf_apply, addf_apply, mulf_apply]
  refine congrArg₂ (· + ·) (congrArg₂ (· + ·) (congrArg₂ (· * ·) ?_ ?_) ?_) ?_
  · exact matmul_blk_apply _ _ r q
  · exact bcast_col_apply _ _ r q
  · exact broadcastTo_1b_ab_apply _ _ r q
  · exact matmul_blk_apply _ _ r q

/-- The body's arithmetic on one block, read at row `r` and column `q`: the block of neighbour sums times the
    first weight matrix, scaled by the row's factor, plus the bias row, plus the block of the nodes' own rows times
    the second weight matrix. The changes of float format on the way into the products are the
    identity on extended reals. -/
theorem pay5_apply (x0 : Vec Ideal S5000x64 .f32) (x3 : Vec Ideal S64x64 .f32) (x1 : Vec Ideal S5000x1 .f32) (x4 : Vec Ideal S1x64 .f32)
    (x2 : Vec Ideal S5000x64 .f32) (x5 : Vec Ideal S64x64 .f32) (r : Fin 5000) (q : Fin 64) :
    k5_pay1 (F := Ideal) x0 x3 x1 x4 x2 x5 (ix2 r q)
      = (((∑ k : Fin 64, x0 (ix2 r k) * x3 (ix2 k q)) * x1 (ix2 r (0 : Fin 1))) + x4 (ix2 (0 : Fin 1) q))
          + ∑ k : Fin 64, x2 (ix2 r k) * x5 (ix2 k q) := by
  unfold k5_pay1
  simp only [shapeCast_self]
  rw [addf_apply, addf_apply, mulf_apply]
  refine congrArg₂ (· + ·) (congrArg₂ (· + ·) (congrArg₂ (· * ·) ?_ ?_) ?_) ?_
  · exact matmul_blk_apply _ _ r q
  · exact bcast_col_apply _ _ r q
  · exact broadcastTo_1b_ab_apply _ _ r q
  · exact matmul_blk_apply _ _ r q

end Cert.KernelIdeal.KerValue

end
-- ==== Proof.KerAgg2.lean ====
/-
  The value of neighbourhood-mean region 2, read off the region's frame data.

  The region sweeps 50000 rows in 10 blocks of 5000. At point `t` the three row-blocked inputs (neighbour sums,
  scaling factors, own features) and the output hold rows `5000 t … 5000 t + 4999` of their arrays, and the two weight
  matrices and the bias row are whole. The body's arithmetic on the blocks is therefore, row by row, one function of the
  arrays' rows; every point writes back its block of that function, and the 10 blocks tile the output array, so the
  array ends holding the function.
-/
import proofs.«145198_j57071525429486_2_alg».proof.Proof.Gen.KernelIdeal.Frame
import proofs.«145198_j57071525429486_2_alg».proof.Proof.Spec
import proofs.«145198_j57071525429486_2_alg».proof.Proof.KerAggPay
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.KerValue

open Cert Cert.KernelIdeal Cert.KernelIdeal.Gen

variable (V : (c : Dev nD) → (b : Ref sig .tc) → Buf (Elt Ideal) ((c : Thread nD τ).loc b))

/-! # Region 2: 50000 rows in 10 blocks of 5000, floored at zero -/

/-- What the region's output array ends holding: at row `p`, column `q`, the neighbourhood-mean layer (with the mean's
    division as a factor after the product) of row `p` of the arrays the region finds, floored at zero. -/
def G2 (c : Dev nD) : S50000x64.Idx → EReal := fun i =>
  SageSpec.reluRow (SageSpec.aggRowScaled (fun k => (V c main_v39 : S50000x64.Idx → EReal) (ix2 (i 0 : Fin 50000) k)) ((V c main_v8 : S50000x1.Idx → EReal) (ix2 (i 0 : Fin 50000) (0 : Fin 1)))
        (fun k => (V c main_v29 : S50000x64.Idx → EReal) (ix2 (i 0 : Fin 50000) k)) (fun k j => (V c main_arg16 : S64x64.Idx → EReal) (ix2 k j))
        (fun j => (V c main_v40 : S1x64.Idx → EReal) (ix2 (0 : Fin 1) j)) (fun k j => (V c main_arg18 : S64x64.Idx → EReal) (ix2 k j))) (i 1 : Fin 64)

/-- The grid's index maps, decided over its 10 points: the three row-blocked inputs and the output take block `t` of
    their rows at point `t`; the weights and the bias are one block. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row `r` of block `t` is row `5000 t + r` of the array. -/
def row2 (t : Fin cfg2.N) (r : Fin 5000) : Fin 50000 :=
  ⟨t.val * 5000 + r.val, by have h1 : t.val < 10 := lt_of_lt_of_eq t.isLt N_2; have h2 := r.isLt; omega⟩

/-- The block of neighbour sums at point `t`, read at an index: the array's rows `5000 t …`. -/
theorem blk2_0 (c : Dev nD) (t : Fin cfg2.N) (r : Fin 5000) (k : Fin 64) :
    iblk2 (F := Ideal) V c 0 t (ix2 r k) = (V c main_v39 : S50000x64.Idx → EReal) (ix2 (row2 t r) k) := by
  obtain ⟨e0, e1, -⟩ := idx2 t
  unfold iblk2
  rw [View.read_apply]
  show (V c main_v39 : S50000x64.Idx → EReal) _ = _
  refine congrArg _ (funext fun a => Fin.ext ?_)
  match a with
  | ⟨0, _⟩ => show win2_0.index t (0 : Fin 2) * 5000 + 1 * r.val = t.val * 5000 + r.val; rw [e0]; omega
  | ⟨1, _⟩ => show win2_0.index t (1 : Fin 2) * 64 + 1 * k.val = k.val; rw [e1]; omega

/-- The block of scaling factors at point `t`: the column's rows `5000 t …`. -/
theorem blk2_1 (c : Dev nD) (t : Fin cfg2.N) (r : Fin 5000) :
    iblk2 (F := Ideal) V c 1 t (ix2 r (0 : Fin 1)) = (V c main_v8 : S50000x1.Idx → EReal) (ix2 (row2 t r) (0 : Fin 1)) := by
  obtain ⟨-, -, e0, e1, -⟩ := idx2 t
  unfold iblk2
  rw [View.read_apply]
  show (V c main_v8 : S50000x1.Idx → EReal) _ = _
  refine congrArg _ (funext fun a => Fin.ext ?_)
  match a with
  | ⟨0, _⟩ => show win2_1.index t (0 : Fin 2) * 5000 + 1 * r.val = t.val * 5000 + r.val; rw [e0]; omega
  | ⟨1, _⟩ => show win2_1.index t (1 : Fin 2) * 1 + 1 * (0 : Fin 1).val = (0 : Fin 1).val; rw [e1]; rfl

/-- The block of the nodes' own rows at point `t`: the array's rows `5000 t …`. -/
theorem blk2_2 (c : Dev nD) (t : Fin cfg2.N) (r : Fin 5000) (k : Fin 64) :
    iblk2 (F := Ideal) V c 2 t (ix2 r k) = (V c main_v29 : S50000x64.Idx → EReal) (ix2 (row2 t r) k) := by
  obtain ⟨-, -, -, -, e0, e1, -⟩ := idx2 t
  unfold iblk2
  rw [View.read_apply]
  show (V c main_v29 : S50000x64.Idx → EReal) _ = _
  refine congrArg _ (funext fun a => Fin.ext ?_)
  match a with
  | ⟨0, _⟩ => show win2_2.index t (0 : Fin 2) * 5000 + 1 * r.val = t.val * 5000 + r.val; rw [e0]; omega
  | ⟨1, _⟩ => show win2_2.index t (1 : Fin 2) * 64 + 1 * k.val = k.val; rw [e1]; omega

/-- The first weight matrix's one block is the matrix. -/
theorem blk2_3 (c : Dev nD) (t : Fin cfg2.N) (k : Fin 64) (j : Fin 64) :
    iblk2 (F := Ideal) V c 3 t (ix2 k j) = (V c main_arg16 : S64x64.Idx → EReal) (ix2 k j) := by
  obtain ⟨-, -, -, -, -, -, e0, e1, -⟩ := idx2 t
  unfold iblk2
  rw [View.read_apply]
  show (V c main_arg16 : S64x64.Idx → EReal) _ = _
  refine congrArg _ (funext fun a => Fin.ext ?_)
  match a with
  | ⟨0, _⟩ => show win2_3.index t (0 : Fin 2) * 64 + 1 * k.val = k.val; rw [e0]; omega
  | ⟨1, _⟩ => show win2_3.index t (1 : Fin 2) * 64 + 1 * j.val = j.val; rw [e1]; omega

/-- The bias row's one block is the row. -/
theorem blk2_4 (c : Dev nD) (t : Fin cfg2.N) (j : Fin 64) :
    iblk2 (F := Ideal) V c 4 t (ix2 (0 : Fin 1) j) = (V c main_v40 : S1x64.Idx → EReal) (ix2 (0 : Fin 1) j) := by
  obtain ⟨-, -, -, -, -, -, -, -, e0, e1, -⟩ := idx2 t
  unfold iblk2
  rw [View.read_apply]
  show (V c main_v40 : S1x64.Idx → EReal) _ = _
  refine congrArg _ (funext fun a => Fin.ext ?_)
  match a with
  | ⟨0, _⟩ => show win2_4.index t (0 : Fin 2) * 1 + 1 * (0 : Fin 1).val = (0 : Fin 1).val; rw [e0]; rfl
  | ⟨1, _⟩ => show win2_4.index t (1 : Fin 2) * 64 + 1 * j.val = j.val; rw [e1]; omega

/-- The second weight matrix's one block is the matrix. -/
theorem blk2_5 (c : Dev nD) (t : Fin cfg2.N) (k : Fin 64) (j : Fin 64) :
    iblk2 (F := Ideal) V c 5 t (ix2 k j) = (V c main_arg18 : S64x64.Idx → EReal) (ix2 k j) := by
  obtain ⟨-, -, -, -, -, -, -, -, -, -, e0, e1, -⟩ := idx2 t
  unfold iblk2
  rw [View.read_apply]
  show (V c main_arg18 : S64x64.Idx → EReal) _ = _
  refine congrArg _ (funext fun a => Fin.ext ?_)
  match a with
  | ⟨0, _⟩ => show win2_5.index t (0 : Fin 2) * 64 + 1 * k.val = k.val; rw [e0]; omega
  | ⟨1, _⟩ => show win2_5.index t (1 : Fin 2) * 64 + 1 * j.val = j.val; rw [e1]; omega

/-- Where the output's block at point `t` sits in its array: row `r` of the block is row `5000 t + r`. -/
theorem emb2_6 (t : Fin cfg2.N) (r : Fin 5000) (q : Fin 64) :
    ((cfg2.win 6).blk t).view.emb (ix2 r q) = (ix2 (row2 t r) q : S50000x64.Idx) := by
  obtain ⟨-, -, -, -, -, -, -, -, -, -, -, -, e0, e1⟩ := idx2 t
  refine funext fun a => Fin.ext ?_
  match a with
  | ⟨0, _⟩ => show win2_6.index t (0 : Fin 2) * 5000 + 1 * r.val = t.val * 5000 + r.val; rw [e0]; omega
  | ⟨1, _⟩ => show win2_6.index t (1 : Fin 2) * 64 + 1 * q.val = q.val; rw [e1]; omega

/-- WHAT POINT `t` WRITES BACK is block `t` of `G2`: the body's arithmetic on the blocks, each block read as rows of its array. -/
theorem flushed2_eq (c : Dev nD) (t : Fin cfg2.N) :
    (dat2 (F := Ideal) V c).flushed 6 t = ((cfg2.win 6).blk t).view.read (Elt Ideal) (G2 V c) := by
  show (cfg2.win 6).cut (grid2.coords t) ((dat2 (F := Ideal) V c).after 6 t) = _
  rw [after2_6]
  unfold out2_6
  rw [View.canon_unit_zero hz]
  simp only [View.ld_unit_zero (S := S5000x64) hz, View.ld_unit_zero (S := S64x64) hz, View.ld_unit_zero (S := S5000x1) hz, View.ld_unit_zero (S := S1x64) hz]
  funext y
  obtain ⟨r, q, rfl⟩ : ∃ (r : Fin 5000) (q : Fin 64), y = ix2 r q := ⟨y 0, y 1, eq_ix2 y⟩
  show k2_pay1 (F := Ideal) (iblk2 V c 0 t) (iblk2 V c 3 t) (iblk2 V c 1 t) (iblk2 V c 4 t) (iblk2 V c 2 t) (iblk2 V c 5 t) (ix2 r q)
    = G2 V c (((cfg2.win 6).blk t).view.emb (ix2 r q))
  rw [emb2_6 t r q]
  refine (pay2_apply (iblk2 V c 0 t) (iblk2 V c 3 t) (iblk2 V c 1 t) (iblk2 V c 4 t) (iblk2 V c 2 t) (iblk2 V c 5 t) r q).trans ?_
  simp only [blk2_0 V c t, blk2_1 V c t, blk2_2 V c t, blk2_3 V c t, blk2_4 V c t, blk2_5 V c t]
  rfl

/-- An index of the array is in point `t`'s block iff each coordinate is in the block's range on its axis. -/
theorem mem_blk2 (t : Fin cfg2.N) (i : S50000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v41).slice (win2_6.rect t)).set ↔ _
  rw [View.set_slice_whole, Rect.mem_set_unit]
  exact Iff.rfl

/-- Every index of the array is in some point's block: row `p` is in block `p / 5000`. -/
theorem cover2 (i : S50000x64.Idx) : ∃ t : Fin cfg2.N, (cfg2.win 6).flush t = true ∧ i ∈ ((cfg2.win 6).blk t).view.set := by
  have hi0 : (i 0).val < 50000 := (i 0).isLt
  have hi1 : (i 1).val < 64 := (i 1).isLt
  have hN : grid2.N = 10 := N_2
  let t : Fin cfg2.N := ⟨(i 0).val / 5000, by show (i 0).val / 5000 < grid2.N; rw [hN]; omega⟩
  obtain ⟨-, -, -, -, -, -, -, -, -, -, -, -, e0, e1⟩ := idx2 t
  have ht : t.val = (i 0).val / 5000 := rfl
  refine ⟨t, flush2_6 t, ?_⟩
  rw [mem_blk2]
  intro a
  match a with
  | ⟨0, _⟩ => show win2_6.index t (0 : Fin 2) * 5000 ≤ (i 0).val ∧ (i 0).val < win2_6.index t (0 : Fin 2) * 5000 + 5000; rw [e0, ht]; omega
  | ⟨1, _⟩ => show win2_6.index t (1 : Fin 2) * 64 ≤ (i 1).val ∧ (i 1).val < win2_6.index t (1 : Fin 2) * 64 + 64; rw [e1]; omega

/-- THE ARRAY after the region: `G2` of the arrays the region finds. -/
theorem final2 (c : Dev nD) : (dat2 (F := Ideal) V c).arrAt 6 cfg2.N = G2 V c :=
  (dat2 (F := Ideal) V c).arrAt_eq_of_cover 6 (G2 V c) (fun t _ => flushed2_eq V c t) (cover2)

/-- Region 2's output at row `p`, column `q`. -/
theorem agg2_value (c : Dev nD) (p : Fin 50000) (q : Fin 64) :
    (dat2 (F := Ideal) V c).arrAt 6 cfg2.N (ix2 p q)
      = SageSpec.reluRow (SageSpec.aggRowScaled (fun k => (V c main_v39 : S50000x64.Idx → EReal) (ix2 p k)) ((V c main_v8 : S50000x1.Idx → EReal) (ix2 p (0 : Fin 1)))
        (fun k => (V c main_v29 : S50000x64.Idx → EReal) (ix2 p k)) (fun k j => (V c main_arg16 : S64x64.Idx → EReal) (ix2 k j))
        (fun j => (V c main_v40 : S1x64.Idx → EReal) (ix2 (0 : Fin 1) j)) (fun k j => (V c main_arg18 : S64x64.Idx → EReal) (ix2 k j))) q := by
  rw [final2 V c]
  rfl

end Cert.KernelIdeal.KerValue

end
-- ==== Proof.KerAgg3.lean ====
/-
  The value of neighbourhood-mean region 3, read off the region's frame data.

  The region sweeps 100000 rows in 20 blocks of 5000. At point `t` the three row-blocked inputs (neighbour sums,
  scaling factors, own features) and the output hold rows `5000 t … 5000 t + 4999` of their arrays, and the two weight
  matrices and the bias row are whole. The body's arithmetic on the blocks is therefore, row by row, one function of the
  arrays' rows; every point writes back its block of that function, and the 20 blocks tile the output array, so the
  array ends holding the function.
-/
import proofs.«145198_j57071525429486_2_alg».proof.Proof.Gen.KernelIdeal.Frame
import proofs.«145198_j57071525429486_2_alg».proof.Proof.Spec
import proofs.«145198_j57071525429486_2_alg».proof.Proof.KerAggPay
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.KerValue

open Cert Cert.KernelIdeal Cert.KernelIdeal.Gen

variable (V : (c : Dev nD) → (b : Ref sig .tc) → Buf (Elt Ideal) ((c : Thread nD τ).loc b))

/-! # Region 3: 100000 rows in 20 blocks of 5000, floored at zero -/

/-- What the region's output array ends holding: at row `p`, column `q`, the neighbourhood-mean layer (with the mean's
    division as a factor after the product) of row `p` of the arrays the region finds, floored at zero. -/
def G3 (c : Dev nD) : S100000x64.Idx → EReal := fun i =>
  SageSpec.reluRow (SageSpec.aggRowScaled (fun k => (V c main_v51 : S100000x64.Idx → EReal) (ix2 (i 0 : Fin 100000) k)) ((V c main_v17 : S100000x1.Idx → EReal) (ix2 (i 0 : Fin 100000) (0 : Fin 1)))
        (fun k => (V c main_v23 : S100000x64.Idx → EReal) (ix2 (i 0 : Fin 100000) k)) (fun k j => (V c main_arg19 : S64x64.Idx → EReal) (ix2 k j))
        (fun j => (V c main_v52 : S1x64.Idx → EReal) (ix2 (0 : Fin 1) j)) (fun k j => (V c main_arg21 : S64x64.Idx → EReal) (ix2 k j))) (i 1 : Fin 64)

/-- The grid's index maps, decided over its 20 points: the three row-blocked inputs and the output take block `t` of
    their rows at point `t`; the weights and the bias are one block. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row `r` of block `t` is row `5000 t + r` of the array. -/
def row3 (t : Fin cfg3.N) (r : Fin 5000) : Fin 100000 :=
  ⟨t.val * 5000 + r.val, by have h1 : t.val < 20 := lt_of_lt_of_eq t.isLt N_3; have h2 := r.isLt; omega⟩

/-- The block of neighbour sums at point `t`, read at an index: the array's rows `5000 t …`. -/
theorem blk3_0 (c : Dev nD) (t : Fin cfg3.N) (r : Fin 5000) (k : Fin 64) :
    iblk3 (F := Ideal) V c 0 t (ix2 r k) = (V c main_v51 : S100000x64.Idx → EReal) (ix2 (row3 t r) k) := by
  obtain ⟨e0, e1, -⟩ := idx3 t
  unfold iblk3
  rw [View.read_apply]
  show (V c main_v51 : S100000x64.Idx → EReal) _ = _
  refine congrArg _ (funext fun a => Fin.ext ?_)
  match a with
  | ⟨0, _⟩ => show win3_0.index t (0 : Fin 2) * 5000 + 1 * r.val = t.val * 5000 + r.val; rw [e0]; omega
  | ⟨1, _⟩ => show win3_0.index t (1 : Fin 2) * 64 + 1 * k.val = k.val; rw [e1]; omega

/-- The block of scaling factors at point `t`: the column's rows `5000 t …`. -/
theorem blk3_1 (c : Dev nD) (t : Fin cfg3.N) (r : Fin 5000) :
    iblk3 (F := Ideal) V c 1 t (ix2 r (0 : Fin 1)) = (V c main_v17 : S100000x1.Idx → EReal) (ix2 (row3 t r) (0 : Fin 1)) := by
  obtain ⟨-, -, e0, e1, -⟩ := idx3 t
  unfold iblk3
  rw [View.read_apply]
  show (V c main_v17 : S100000x1.Idx → EReal) _ = _
  refine congrArg _ (funext fun a => Fin.ext ?_)
  match a with
  | ⟨0, _⟩ => show win3_1.index t (0 : Fin 2) * 5000 + 1 * r.val = t.val * 5000 + r.val; rw [e0]; omega
  | ⟨1, _⟩ => show win3_1.index t (1 : Fin 2) * 1 + 1 * (0 : Fin 1).val = (0 : Fin 1).val; rw [e1]; rfl

/-- The block of the nodes' own rows at point `t`: the array's rows `5000 t …`. -/
theorem blk3_2 (c : Dev nD) (t : Fin cfg3.N) (r : Fin 5000) (k : Fin 64) :
    iblk3 (F := Ideal) V c 2 t (ix2 r k) = (V c main_v23 : S100000x64.Idx → EReal) (ix2 (row3 t r) k) := by
  obtain ⟨-, -, -, -, e0, e1, -⟩ := idx3 t
  unfold iblk3
  rw [View.read_apply]
  show (V c main_v23 : S100000x64.Idx → EReal) _ = _
  refine congrArg _ (funext fun a => Fin.ext ?_)
  match a with
  | ⟨0, _⟩ => show win3_2.index t (0 : Fin 2) * 5000 + 1 * r.val = t.val * 5000 + r.val; rw [e0]; omega
  | ⟨1, _⟩ => show win3_2.index t (1 : Fin 2) * 64 + 1 * k.val = k.val; rw [e1]; omega

/-- The first weight matrix's one block is the matrix. -/
theorem blk3_3 (c : Dev nD) (t : Fin cfg3.N) (k : Fin 64) (j : Fin 64) :
    iblk3 (F := Ideal) V c 3 t (ix2 k j) = (V c main_arg19 : S64x64.Idx → EReal) (ix2 k j) := by
  obtain ⟨-, -, -, -, -, -, e0, e1, -⟩ := idx3 t
  unfold iblk3
  rw [View.read_apply]
  show (V c main_arg19 : S64x64.Idx → EReal) _ = _
  refine congrArg _ (funext fun a => Fin.ext ?_)
  match a with
  | ⟨0, _⟩ => show win3_3.index t (0 : Fin 2) * 64 + 1 * k.val = k.val; rw [e0]; omega
  | ⟨1, _⟩ => show win3_3.index t (1 : Fin 2) * 64 + 1 * j.val = j.val; rw [e1]; omega

/-- The bias row's one block is the row. -/
theorem blk3_4 (c : Dev nD) (t : Fin cfg3.N) (j : Fin 64) :
    iblk3 (F := Ideal) V c 4 t (ix2 (0 : Fin 1) j) = (V c main_v52 : S1x64.Idx → EReal) (ix2 (0 : Fin 1) j) := by
  obtain ⟨-, -, -, -, -, -, -, -, e0, e1, -⟩ := idx3 t
  unfold iblk3
  rw [View.read_apply]
  show (V c main_v52 : S1x64.Idx → EReal) _ = _
  refine congrArg _ (funext fun a => Fin.ext ?_)
  match a with
  | ⟨0, _⟩ => show win3_4.index t (0 : Fin 2) * 1 + 1 * (0 : Fin 1).val = (0 : Fin 1).val; rw [e0]; rfl
  | ⟨1, _⟩ => show win3_4.index t (1 : Fin 2) * 64 + 1 * j.val = j.val; rw [e1]; omega

/-- The second weight matrix's one block is the matrix. -/
theorem blk3_5 (c : Dev nD) (t : Fin cfg3.N) (k : Fin 64) (j : Fin 64) :
    iblk3 (F := Ideal) V c 5 t (ix2 k j) = (V c main_arg21 : S64x64.Idx → EReal) (ix2 k j) := by
  obtain ⟨-, -, -, -, -, -, -, -, -, -, e0, e1, -⟩ := idx3 t
  unfold iblk3
  rw [View.read_apply]
  show (V c main_arg21 : S64x64.Idx → EReal) _ = _
  refine congrArg _ (funext fun a => Fin.ext ?_)
  match a with
  | ⟨0, _⟩ => show win3_5.index t (0 : Fin 2) * 64 + 1 * k.val = k.val; rw [e0]; omega
  | ⟨1, _⟩ => show win3_5.index t (1 : Fin 2) * 64 + 1 * j.val = j.val; rw [e1]; omega

/-- Where the output's block at point `t` sits in its array: row `r` of the block is row `5000 t + r`. -/
theorem emb3_6 (t : Fin cfg3.N) (r : Fin 5000) (q : Fin 64) :
    ((cfg3.win 6).blk t).view.emb (ix2 r q) = (ix2 (row3 t r) q : S100000x64.Idx) := by
  obtain ⟨-, -, -, -, -, -, -, -, -, -, -, -, e0, e1⟩ := idx3 t
  refine funext fun a => Fin.ext ?_
  match a with
  | ⟨0, _⟩ => show win3_6.index t (0 : Fin 2) * 5000 + 1 * r.val = t.val * 5000 + r.val; rw [e0]; omega
  | ⟨1, _⟩ => show win3_6.index t (1 : Fin 2) * 64 + 1 * q.val = q.val; rw [e1]; omega

/-- WHAT POINT `t` WRITES BACK is block `t` of `G3`: the body's arithmetic on the blocks, each block read as rows of its array. -/
theorem flushed3_eq (c : Dev nD) (t : Fin cfg3.N) :
    (dat3 (F := Ideal) V c).flushed 6 t = ((cfg3.win 6).blk t).view.read (Elt Ideal) (G3 V c) := by
  show (cfg3.win 6).cut (grid3.coords t) ((dat3 (F := Ideal) V c).after 6 t) = _
  rw [after3_6]
  unfold out3_6
  rw [View.canon_unit_zero hz]
  simp only [View.ld_unit_zero (S := S5000x64) hz, View.ld_unit_zero (S := S64x64) hz, View.ld_unit_zero (S := S5000x1) hz, View.ld_unit_zero (S := S1x64) hz]
  funext y
  obtain ⟨r, q, rfl⟩ : ∃ (r : Fin 5000) (q : Fin 64), y = ix2 r q := ⟨y 0, y 1, eq_ix2 y⟩
  show k3_pay1 (F := Ideal) (iblk3 V c 0 t) (iblk3 V c 3 t) (iblk3 V c 1 t) (iblk3 V c 4 t) (iblk3 V c 2 t) (iblk3 V c 5 t) (ix2 r q)
    = G3 V c (((cfg3.win 6).blk t).view.emb (ix2 r q))
  rw [emb3_6 t r q]
  refine (pay3_apply (iblk3 V c 0 t) (iblk3 V c 3 t) (iblk3 V c 1 t) (iblk3 V c 4 t) (iblk3 V c 2 t) (iblk3 V c 5 t) r q).trans ?_
  simp only [blk3_0 V c t, blk3_1 V c t, blk3_2 V c t, blk3_3 V c t, blk3_4 V c t, blk3_5 V c t]
  rfl

/-- An index of the array is in point `t`'s block iff each coordinate is in the block's range on its axis. -/
theorem mem_blk3 (t : Fin cfg3.N) (i : S100000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v53).slice (win3_6.rect t)).set ↔ _
  rw [View.set_slice_whole, Rect.mem_set_unit]
  exact Iff.rfl

/-- Every index of the array is in some point's block: row `p` is in block `p / 5000`. -/
theorem cover3 (i : S100000x64.Idx) : ∃ t : Fin cfg3.N, (cfg3.win 6).flush t = true ∧ i ∈ ((cfg3.win 6).blk t).view.set := by
  have hi0 : (i 0).val < 100000 := (i 0).isLt
  have hi1 : (i 1).val < 64 := (i 1).isLt
  have hN : grid3.N = 20 := N_3
  let t : Fin cfg3.N := ⟨(i 0).val / 5000, by show (i 0).val / 5000 < grid3.N; rw [hN]; omega⟩
  obtain ⟨-, -, -, -, -, -, -, -, -, -, -, -, e0, e1⟩ := idx3 t
  have ht : t.val = (i 0).val / 5000 := rfl
  refine ⟨t, flush3_6 t, ?_⟩
  rw [mem_blk3]
  intro a
  match a with
  | ⟨0, _⟩ => show win3_6.index t (0 : Fin 2) * 5000 ≤ (i 0).val ∧ (i 0).val < win3_6.index t (0 : Fin 2) * 5000 + 5000; rw [e0, ht]; omega
  | ⟨1, _⟩ => show win3_6.index t (1 : Fin 2) * 64 ≤ (i 1).val ∧ (i 1).val < win3_6.index t (1 : Fin 2) * 64 + 64; rw [e1]; omega

/-- THE ARRAY after the region: `G3` of the arrays the region finds. -/
theorem final3 (c : Dev nD) : (dat3 (F := Ideal) V c).arrAt 6 cfg3.N = G3 V c :=
  (dat3 (F := Ideal) V c).arrAt_eq_of_cover 6 (G3 V c) (fun t _ => flushed3_eq V c t) (cover3)

/-- Region 3's output at row `p`, column `q`. -/
theorem agg3_value (c : Dev nD) (p : Fin 100000) (q : Fin 64) :
    (dat3 (F := Ideal) V c).arrAt 6 cfg3.N (ix2 p q)
      = SageSpec.reluRow (SageSpec.aggRowScaled (fun k => (V c main_v51 : S100000x64.Idx → EReal) (ix2 p k)) ((V c main_v17 : S100000x1.Idx → EReal) (ix2 p (0 : Fin 1)))
        (fun k => (V c main_v23 : S100000x64.Idx → EReal) (ix2 p k)) (fun k j => (V c main_arg19 : S64x64.Idx → EReal) (ix2 k j))
        (fun j => (V c main_v52 : S1x64.Idx → EReal) (ix2 (0 : Fin 1) j)) (fun k j => (V c main_arg21 : S64x64.Idx → EReal) (ix2 k j))) q := by
  rw [final3 V c]
  rfl

end Cert.KernelIdeal.KerValue

end
-- ==== Proof.KerAgg4.lean ====
/-
  The value of neighbourhood-mean region 4, read off the region's frame data.

  The region sweeps 50000 rows in 10 blocks of 5000. At point `t` the three row-blocked inputs (neighbour sums,
  scaling factors, own features) and the output hold rows `5000 t … 5000 t + 4999` of their arrays, and the two weight
  matrices and the bias row are whole. The body's arithmetic on the blocks is therefore, row by row, one function of the
  arrays' rows; every point writes back its block of that function, and the 10 blocks tile the output array, so the
  array ends holding the function.
-/
import proofs.«145198_j57071525429486_2_alg».proof.Proof.Gen.KernelIdeal.Frame
import proofs.«145198_j57071525429486_2_alg».proof.Proof.Spec
import proofs.«145198_j57071525429486_2_alg».proof.Proof.KerAggPay
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.KerValue

open Cert Cert.KernelIdeal Cert.KernelIdeal.Gen

variable (V : (c : Dev nD) → (b : Ref sig .tc) → Buf (Elt Ideal) ((c : Thread nD τ).loc b))

/-! # Region 4: 50000 rows in 10 blocks of 5000 -/

/-- What the region's output array ends holding: at row `p`, column `q`, the neighbourhood-mean layer (with the mean's
    division as a factor after the product) of row `p` of the arrays the region finds. -/
def G4 (c : Dev nD) : S50000x64.Idx → EReal := fun i =>
  SageSpec.aggRowScaled (fun k => (V c main_v63 : S50000x64.Idx → EReal) (ix2 (i 0 : Fin 50000) k)) ((V c main_v8 : S50000x1.Idx → EReal) (ix2 (i 0 : Fin 50000) (0 : Fin 1)))
        (fun k => (V c main_v41 : S50000x64.Idx → EReal) (ix2 (i 0 : Fin 50000) k)) (fun k j => (V c main_arg22 : S64x64.Idx → EReal) (ix2 k j))
        (fun j => (V c main_v64 : S1x64.Idx → EReal) (ix2 (0 : Fin 1) j)) (fun k j => (V c main_arg24 : S64x64.Idx → EReal) (ix2 k j)) (i 1 : Fin 64)

/-- The grid's index maps, decided over its 10 points: the three row-blocked inputs and the output take block `t` of
    their rows at point `t`; the weights and the bias are one block. -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Row `r` of block `t` is row `5000 t + r` of the array. -/
def row4 (t : Fin cfg4.N) (r : Fin 5000) : Fin 50000 :=
  ⟨t.val * 5000 + r.val, by have h1 : t.val < 10 := lt_of_lt_of_eq t.isLt N_4; have h2 := r.isLt; omega⟩

/-- The block of neighbour sums at point `t`, read at an index: the array's rows `5000 t …`. -/
theorem blk4_0 (c : Dev nD) (t : Fin cfg4.N) (r : Fin 5000) (k : Fin 64) :
    iblk4 (F := Ideal) V c 0 t (ix2 r k) = (V c main_v63 : S50000x64.Idx → EReal) (ix2 (row4 t r) k) := by
  obtain ⟨e0, e1, -⟩ := idx4 t
  unfold iblk4
  rw [View.read_apply]
  show (V c main_v63 : S50000x64.Idx → EReal) _ = _
  refine congrArg _ (funext fun a => Fin.ext ?_)
  match a with
  | ⟨0, _⟩ => show win4_0.index t (0 : Fin 2) * 5000 + 1 * r.val = t.val * 5000 + r.val; rw [e0]; omega
  | ⟨1, _⟩ => show win4_0.index t (1 : Fin 2) * 64 + 1 * k.val = k.val; rw [e1]; omega

/-- The block of scaling factors at point `t`: the column's rows `5000 t …`. -/
theorem blk4_1 (c : Dev nD) (t : Fin cfg4.N) (r : Fin 5000) :
    iblk4 (F := Ideal) V c 1 t (ix2 r (0 : Fin 1)) = (V c main_v8 : S50000x1.Idx → EReal) (ix2 (row4 t r) (0 : Fin 1)) := by
  obtain ⟨-, -, e0, e1, -⟩ := idx4 t
  unfold iblk4
  rw [View.read_apply]
  show (V c main_v8 : S50000x1.Idx → EReal) _ = _
  refine congrArg _ (funext fun a => Fin.ext ?_)
  match a with
  | ⟨0, _⟩ => show win4_1.index t (0 : Fin 2) * 5000 + 1 * r.val = t.val * 5000 + r.val; rw [e0]; omega
  | ⟨1, _⟩ => show win4_1.index t (1 : Fin 2) * 1 + 1 * (0 : Fin 1).val = (0 : Fin 1).val; rw [e1]; rfl

/-- The block of the nodes' own rows at point `t`: the array's rows `5000 t …`. -/
theorem blk4_2 (c : Dev nD) (t : Fin cfg4.N) (r : Fin 5000) (k : Fin 64) :
    iblk4 (F := Ideal) V c 2 t (ix2 r k) = (V c main_v41 : S50000x64.Idx → EReal) (ix2 (row4 t r) k) := by
  obtain ⟨-, -, -, -, e0, e1, -⟩ := idx4 t
  unfold iblk4
  rw [View.read_apply]
  show (V c main_v41 : S50000x64.Idx → EReal) _ = _
  refine congrArg _ (funext fun a => Fin.ext ?_)
  match a with
  | ⟨0, _⟩ => show win4_2.index t (0 : Fin 2) * 5000 + 1 * r.val = t.val * 5000 + r.val; rw [e0]; omega
  | ⟨1, _⟩ => show win4_2.index t (1 : Fin 2) * 64 + 1 * k.val = k.val; rw [e1]; omega

/-- The first weight matrix's one block is the matrix. -/
theorem blk4_3 (c : Dev nD) (t : Fin cfg4.N) (k : Fin 64) (j : Fin 64) :
    iblk4 (F := Ideal) V c 3 t (ix2 k j) = (V c main_arg22 : S64x64.Idx → EReal) (ix2 k j) := by
  obtain ⟨-, -, -, -, -, -, e0, e1, -⟩ := idx4 t
  unfold iblk4
  rw [View.read_apply]
  show (V c main_arg22 : S64x64.Idx → EReal) _ = _
  refine congrArg _ (funext fun a => Fin.ext ?_)
  match a with
  | ⟨0, _⟩ => show win4_3.index t (0 : Fin 2) * 64 + 1 * k.val = k.val; rw [e0]; omega
  | ⟨1, _⟩ => show win4_3.index t (1 : Fin 2) * 64 + 1 * j.val = j.val; rw [e1]; omega

/-- The bias row's one block is the row. -/
theorem blk4_4 (c : Dev nD) (t : Fin cfg4.N) (j : Fin 64) :
    iblk4 (F := Ideal) V c 4 t (ix2 (0 : Fin 1) j) = (V c main_v64 : S1x64.Idx → EReal) (ix2 (0 : Fin 1) j) := by
  obtain ⟨-, -, -, -, -, -, -, -, e0, e1, -⟩ := idx4 t
  unfold iblk4
  rw [View.read_apply]
  show (V c main_v64 : S1x64.Idx → EReal) _ = _
  refine congrArg _ (funext fun a => Fin.ext ?_)
  match a with
  | ⟨0, _⟩ => show win4_4.index t (0 : Fin 2) * 1 + 1 * (0 : Fin 1).val = (0 : Fin 1).val; rw [e0]; rfl
  | ⟨1, _⟩ => show win4_4.index t (1 : Fin 2) * 64 + 1 * j.val = j.val; rw [e1]; omega

/-- The second weight matrix's one block is the matrix. -/
theorem blk4_5 (c : Dev nD) (t : Fin cfg4.N) (k : Fin 64) (j : Fin 64) :
    iblk4 (F := Ideal) V c 5 t (ix2 k j) = (V c main_arg24 : S64x64.Idx → EReal) (ix2 k j) := by
  obtain ⟨-, -, -, -, -, -, -, -, -, -, e0, e1, -⟩ := idx4 t
  unfold iblk4
  rw [View.read_apply]
  show (V c main_arg24 : S64x64.Idx → EReal) _ = _
  refine congrArg _ (funext fun a => Fin.ext ?_)
  match a with
  | ⟨0, _⟩ => show win4_5.index t (0 : Fin 2) * 64 + 1 * k.val = k.val; rw [e0]; omega
  | ⟨1, _⟩ => show win4_5.index t (1 : Fin 2) * 64 + 1 * j.val = j.val; rw [e1]; omega

/-- Where the output's block at point `t` sits in its array: row `r` of the block is row `5000 t + r`. -/
theorem emb4_6 (t : Fin cfg4.N) (r : Fin 5000) (q : Fin 64) :
    ((cfg4.win 6).blk t).view.emb (ix2 r q) = (ix2 (row4 t r) q : S50000x64.Idx) := by
  obtain ⟨-, -, -, -, -, -, -, -, -, -, -, -, e0, e1⟩ := idx4 t
  refine funext fun a => Fin.ext ?_
  match a with
  | ⟨0, _⟩ => show win4_6.index t (0 : Fin 2) * 5000 + 1 * r.val = t.val * 5000 + r.val; rw [e0]; omega
  | ⟨1, _⟩ => show win4_6.index t (1 : Fin 2) * 64 + 1 * q.val = q.val; rw [e1]; omega

/-- WHAT POINT `t` WRITES BACK is block `t` of `G4`: the body's arithmetic on the blocks, each block read as rows of its array. -/
theorem flushed4_eq (c : Dev nD) (t : Fin cfg4.N) :
    (dat4 (F := Ideal) V c).flushed 6 t = ((cfg4.win 6).blk t).view.read (Elt Ideal) (G4 V c) := by
  show (cfg4.win 6).cut (grid4.coords t) ((dat4 (F := Ideal) V c).after 6 t) = _
  rw [after4_6]
  unfold out4_6
  rw [View.canon_unit_zero hz]
  simp only [View.ld_unit_zero (S := S5000x64) hz, View.ld_unit_zero (S := S64x64) hz, View.ld_unit_zero (S := S5000x1) hz, View.ld_unit_zero (S := S1x64) hz]
  funext y
  obtain ⟨r, q, rfl⟩ : ∃ (r : Fin 5000) (q : Fin 64), y = ix2 r q := ⟨y 0, y 1, eq_ix2 y⟩
  show k4_pay1 (F := Ideal) (iblk4 V c 0 t) (iblk4 V c 3 t) (iblk4 V c 1 t) (iblk4 V c 4 t) (iblk4 V c 2 t) (iblk4 V c 5 t) (ix2 r q)
    = G4 V c (((cfg4.win 6).blk t).view.emb (ix2 r q))
  rw [emb4_6 t r q]
  refine (pay4_apply (iblk4 V c 0 t) (iblk4 V c 3 t) (iblk4 V c 1 t) (iblk4 V c 4 t) (iblk4 V c 2 t) (iblk4 V c 5 t) r q).trans ?_
  simp only [blk4_0 V c t, blk4_1 V c t, blk4_2 V c t, blk4_3 V c t, blk4_4 V c t, blk4_5 V c t]
  rfl

/-- An index of the array is in point `t`'s block iff each coordinate is in the block's range on its axis. -/
theorem mem_blk4 (t : Fin cfg4.N) (i : S50000x64.Idx) :
    i ∈ ((cfg4.win 6).blk t).view.set ↔ ∀ a : Fin 2, win4_6.index t a * S5000x64.size a ≤ (i a).val ∧ (i a).val < win4_6.index t a * S5000x64.size a + S5000x64.size a := by
  show i ∈ ((View.whole main_v65).slice (win4_6.rect t)).set ↔ _
  rw [View.set_slice_whole, Rect.mem_set_unit]
  exact Iff.rfl

/-- Every index of the array is in some point's block: row `p` is in block `p / 5000`. -/
theorem cover4 (i : S50000x64.Idx) : ∃ t : Fin cfg4.N, (cfg4.win 6).flush t = true ∧ i ∈ ((cfg4.win 6).blk t).view.set := by
  have hi0 : (i 0).val < 50000 := (i 0).isLt
  have hi1 : (i 1).val < 64 := (i 1).isLt
  have hN : grid4.N = 10 := N_4
  let t : Fin cfg4.N := ⟨(i 0).val / 5000, by show (i 0).val / 5000 < grid4.N; rw [hN]; omega⟩
  obtain ⟨-, -, -, -, -, -, -, -, -, -, -, -, e0, e1⟩ := idx4 t
  have ht : t.val = (i 0).val / 5000 := rfl
  refine ⟨t, flush4_6 t, ?_⟩
  rw [mem_blk4]
  intro a
  match a with
  | ⟨0, _⟩ => show win4_6.index t (0 : Fin 2) * 5000 ≤ (i 0).val ∧ (i 0).val < win4_6.index t (0 : Fin 2) * 5000 + 5000; rw [e0, ht]; omega
  | ⟨1, _⟩ => show win4_6.index t (1 : Fin 2) * 64 ≤ (i 1).val ∧ (i 1).val < win4_6.index t (1 : Fin 2) * 64 + 64; rw [e1]; omega

/-- THE ARRAY after the region: `G4` of the arrays the region finds. -/
theorem final4 (c : Dev nD) : (dat4 (F := Ideal) V c).arrAt 6 cfg4.N = G4 V c :=
  (dat4 (F := Ideal) V c).arrAt_eq_of_cover 6 (G4 V c) (fun t _ => flushed4_eq V c t) (cover4)

/-- Region 4's output at row `p`, column `q`. -/
theorem agg4_value (c : Dev nD) (p : Fin 50000) (q : Fin 64) :
    (dat4 (F := Ideal) V c).arrAt 6 cfg4.N (ix2 p q)
      = SageSpec.aggRowScaled (fun k => (V c main_v63 : S50000x64.Idx → EReal) (ix2 p k)) ((V c main_v8 : S50000x1.Idx → EReal) (ix2 p (0 : Fin 1)))
        (fun k => (V c main_v41 : S50000x64.Idx → EReal) (ix2 p k)) (fun k j => (V c main_arg22 : S64x64.Idx → EReal) (ix2 k j))
        (fun j => (V c main_v64 : S1x64.Idx → EReal) (ix2 (0 : Fin 1) j)) (fun k j => (V c main_arg24 : S64x64.Idx → EReal) (ix2 k j)) q := by
  rw [final4 V c]
  rfl

end Cert.KernelIdeal.KerValue

end
-- ==== Proof.KerAgg5.lean ====
/-
  The value of neighbourhood-mean region 5, read off the region's frame data.

  The region sweeps 100000 rows in 20 blocks of 5000. At point `t` the three row-blocked inputs (neighbour sums,
  scaling factors, own features) and the output hold rows `5000 t … 5000 t + 4999` of their arrays, and the two weight
  matrices and the bias row are whole. The body's arithmetic on the blocks is therefore, row by row, one function of the
  arrays' rows; every point writes back its block of that function, and the 20 blocks tile the output array, so the
  array ends holding the function.
-/
import proofs.«145198_j57071525429486_2_alg».proof.Proof.Gen.KernelIdeal.Frame
import proofs.«145198_j57071525429486_2_alg».proof.Proof.Spec
import proofs.«145198_j57071525429486_2_alg».proof.Proof.KerAggPay
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.KerValue

open Cert Cert.KernelIdeal Cert.KernelIdeal.Gen

variable (V : (c : Dev nD) → (b : Ref sig .tc) → Buf (Elt Ideal) ((c : Thread nD τ).loc b))

/-! # Region 5: 100000 rows in 20 blocks of 5000 -/

/-- What the region's output array ends holding: at row `p`, column `q`, the neighbourhood-mean layer (with the mean's
    division as a factor after the product) of row `p` of the arrays the region finds. -/
def G5 (c : Dev nD) : S100000x64.Idx → EReal := fun i =>
  SageSpec.aggRowScaled (fun k => (V c main_v75 : S100000x64.Idx → EReal) (ix2 (i 0 : Fin 100000) k)) ((V c main_v17 : S100000x1.Idx → EReal) (ix2 (i 0 : Fin 100000) (0 : Fin 1)))
        (fun k => (V c main_v53 : S100000x64.Idx → EReal) (ix2 (i 0 : Fin 100000) k)) (fun k j => (V c main_arg25 : S64x64.Idx → EReal) (ix2 k j))
        (fun j => (V c main_v76 : S1x64.Idx → EReal) (ix2 (0 : Fin 1) j)) (fun k j => (V c main_arg27 : S64x64.Idx → EReal) (ix2 k j)) (i 1 : Fin 64)

/-- The grid's index maps, decided over its 20 points: the three row-blocked inputs and the output take block `t` of
    their rows at point `t`; the weights and the bias are one block. -/
theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- Row `r` of block `t` is row `5000 t + r` of the array. -/
def row5 (t : Fin cfg5.N) (r : Fin 5000) : Fin 100000 :=
  ⟨t.val * 5000 + r.val, by have h1 : t.val < 20 := lt_of_lt_of_eq t.isLt N_5; have h2 := r.isLt; omega⟩

/-- The block of neighbour sums at point `t`, read at an index: the array's rows `5000 t …`. -/
theorem blk5_0 (c : Dev nD) (t : Fin cfg5.N) (r : Fin 5000) (k : Fin 64) :
    iblk5 (F := Ideal) V c 0 t (ix2 r k) = (V c main_v75 : S100000x64.Idx → EReal) (ix2 (row5 t r) k) := by
  obtain ⟨e0, e1, -⟩ := idx5 t
  unfold iblk5
  rw [View.read_apply]
  show (V c main_v75 : S100000x64.Idx → EReal) _ = _
  refine congrArg _ (funext fun a => Fin.ext ?_)
  match a with
  | ⟨0, _⟩ => show win5_0.index t (0 : Fin 2) * 5000 + 1 * r.val = t.val * 5000 + r.val; rw [e0]; omega
  | ⟨1, _⟩ => show win5_0.index t (1 : Fin 2) * 64 + 1 * k.val = k.val; rw [e1]; omega

/-- The block of scaling factors at point `t`: the column's rows `5000 t …`. -/
theorem blk5_1 (c : Dev nD) (t : Fin cfg5.N) (r : Fin 5000) :
    iblk5 (F := Ideal) V c 1 t (ix2 r (0 : Fin 1)) = (V c main_v17 : S100000x1.Idx → EReal) (ix2 (row5 t r) (0 : Fin 1)) := by
  obtain ⟨-, -, e0, e1, -⟩ := idx5 t
  unfold iblk5
  rw [View.read_apply]
  show (V c main_v17 : S100000x1.Idx → EReal) _ = _
  refine congrArg _ (funext fun a => Fin.ext ?_)
  match a with
  | ⟨0, _⟩ => show win5_1.index t (0 : Fin 2) * 5000 + 1 * r.val = t.val * 5000 + r.val; rw [e0]; omega
  | ⟨1, _⟩ => show win5_1.index t (1 : Fin 2) * 1 + 1 * (0 : Fin 1).val = (0 : Fin 1).val; rw [e1]; rfl

/-- The block of the nodes' own rows at point `t`: the array's rows `5000 t …`. -/
theorem blk5_2 (c : Dev nD) (t : Fin cfg5.N) (r : Fin 5000) (k : Fin 64) :
    iblk5 (F := Ideal) V c 2 t (ix2 r k) = (V c main_v53 : S100000x64.Idx → EReal) (ix2 (row5 t r) k) := by
  obtain ⟨-, -, -, -, e0, e1, -⟩ := idx5 t
  unfold iblk5
  rw [View.read_apply]
  show (V c main_v53 : S100000x64.Idx → EReal) _ = _
  refine congrArg _ (funext fun a => Fin.ext ?_)
  match a with
  | ⟨0, _⟩ => show win5_2.index t (0 : Fin 2) * 5000 + 1 * r.val = t.val * 5000 + r.val; rw [e0]; omega
  | ⟨1, _⟩ => show win5_2.index t (1 : Fin 2) * 64 + 1 * k.val = k.val; rw [e1]; omega

/-- The first weight matrix's one block is the matrix. -/
theorem blk5_3 (c : Dev nD) (t : Fin cfg5.N) (k : Fin 64) (j : Fin 64) :
    iblk5 (F := Ideal) V c 3 t (ix2 k j) = (V c main_arg25 : S64x64.Idx → EReal) (ix2 k j) := by
  obtain ⟨-, -, -, -, -, -, e0, e1, -⟩ := idx5 t
  unfold iblk5
  rw [View.read_apply]
  show (V c main_arg25 : S64x64.Idx → EReal) _ = _
  refine congrArg _ (funext fun a => Fin.ext ?_)
  match a with
  | ⟨0, _⟩ => show win5_3.index t (0 : Fin 2) * 64 + 1 * k.val = k.val; rw [e0]; omega
  | ⟨1, _⟩ => show win5_3.index t (1 : Fin 2) * 64 + 1 * j.val = j.val; rw [e1]; omega

/-- The bias row's one block is the row. -/
theorem blk5_4 (c : Dev nD) (t : Fin cfg5.N) (j : Fin 64) :
    iblk5 (F := Ideal) V c 4 t (ix2 (0 : Fin 1) j) = (V c main_v76 : S1x64.Idx → EReal) (ix2 (0 : Fin 1) j) := by
  obtain ⟨-, -, -, -, -, -, -, -, e0, e1, -⟩ := idx5 t
  unfold iblk5
  rw [View.read_apply]
  show (V c main_v76 : S1x64.Idx → EReal) _ = _
  refine congrArg _ (funext fun a => Fin.ext ?_)
  match a with
  | ⟨0, _⟩ => show win5_4.index t (0 : Fin 2) * 1 + 1 * (0 : Fin 1).val = (0 : Fin 1).val; rw [e0]; rfl
  | ⟨1, _⟩ => show win5_4.index t (1 : Fin 2) * 64 + 1 * j.val = j.val; rw [e1]; omega

/-- The second weight matrix's one block is the matrix. -/
theorem blk5_5 (c : Dev nD) (t : Fin cfg5.N) (k : Fin 64) (j : Fin 64) :
    iblk5 (F := Ideal) V c 5 t (ix2 k j) = (V c main_arg27 : S64x64.Idx → EReal) (ix2 k j) := by
  obtain ⟨-, -, -, -, -, -, -, -, -, -, e0, e1, -⟩ := idx5 t
  unfold iblk5
  rw [View.read_apply]
  show (V c main_arg27 : S64x64.Idx → EReal) _ = _
  refine congrArg _ (funext fun a => Fin.ext ?_)
  match a with
  | ⟨0, _⟩ => show win5_5.index t (0 : Fin 2) * 64 + 1 * k.val = k.val; rw [e0]; omega
  | ⟨1, _⟩ => show win5_5.index t (1 : Fin 2) * 64 + 1 * j.val = j.val; rw [e1]; omega

/-- Where the output's block at point `t` sits in its array: row `r` of the block is row `5000 t + r`. -/
theorem emb5_6 (t : Fin cfg5.N) (r : Fin 5000) (q : Fin 64) :
    ((cfg5.win 6).blk t).view.emb (ix2 r q) = (ix2 (row5 t r) q : S100000x64.Idx) := by
  obtain ⟨-, -, -, -, -, -, -, -, -, -, -, -, e0, e1⟩ := idx5 t
  refine funext fun a => Fin.ext ?_
  match a with
  | ⟨0, _⟩ => show win5_6.index t (0 : Fin 2) * 5000 + 1 * r.val = t.val * 5000 + r.val; rw [e0]; omega
  | ⟨1, _⟩ => show win5_6.index t (1 : Fin 2) * 64 + 1 * q.val = q.val; rw [e1]; omega

/-- WHAT POINT `t` WRITES BACK is block `t` of `G5`: the body's arithmetic on the blocks, each block read as rows of its array. -/
theorem flushed5_eq (c : Dev nD) (t : Fin cfg5.N) :
    (dat5 (F := Ideal) V c).flushed 6 t = ((cfg5.win 6).blk t).view.read (Elt Ideal) (G5 V c) := by
  show (cfg5.win 6).cut (grid5.coords t) ((dat5 (F := Ideal) V c).after 6 t) = _
  rw [after5_6]
  unfold out5_6
  rw [View.canon_unit_zero hz]
  simp only [View.ld_unit_zero (S := S5000x64) hz, View.ld_unit_zero (S := S64x64) hz, View.ld_unit_zero (S := S5000x1) hz, View.ld_unit_zero (S := S1x64) hz]
  funext y
  obtain ⟨r, q, rfl⟩ : ∃ (r : Fin 5000) (q : Fin 64), y = ix2 r q := ⟨y 0, y 1, eq_ix2 y⟩
  show k5_pay1 (F := Ideal) (iblk5 V c 0 t) (iblk5 V c 3 t) (iblk5 V c 1 t) (iblk5 V c 4 t) (iblk5 V c 2 t) (iblk5 V c 5 t) (ix2 r q)
    = G5 V c (((cfg5.win 6).blk t).view.emb (ix2 r q))
  rw [emb5_6 t r q]
  refine (pay5_apply (iblk5 V c 0 t) (iblk5 V c 3 t) (iblk5 V c 1 t) (iblk5 V c 4 t) (iblk5 V c 2 t) (iblk5 V c 5 t) r q).trans ?_
  simp only [blk5_0 V c t, blk5_1 V c t, blk5_2 V c t, blk5_3 V c t, blk5_4 V c t, blk5_5 V c t]
  rfl

/-- An index of the array is in point `t`'s block iff each coordinate is in the block's range on its axis. -/
theorem mem_blk5 (t : Fin cfg5.N) (i : S100000x64.Idx) :
    i ∈ ((cfg5.win 6).blk t).view.set ↔ ∀ a : Fin 2, win5_6.index t a * S5000x64.size a ≤ (i a).val ∧ (i a).val < win5_6.index t a * S5000x64.size a + S5000x64.size a := by
  show i ∈ ((View.whole main_v77).slice (win5_6.rect t)).set ↔ _
  rw [View.set_slice_whole, Rect.mem_set_unit]
  exact Iff.rfl

/-- Every index of the array is in some point's block: row `p` is in block `p / 5000`. -/
theorem cover5 (i : S100000x64.Idx) : ∃ t : Fin cfg5.N, (cfg5.win 6).flush t = true ∧ i ∈ ((cfg5.win 6).blk t).view.set := by
  have hi0 : (i 0).val < 100000 := (i 0).isLt
  have hi1 : (i 1).val < 64 := (i 1).isLt
  have hN : grid5.N = 20 := N_5
  let t : Fin cfg5.N := ⟨(i 0).val / 5000, by show (i 0).val / 5000 < grid5.N; rw [hN]; omega⟩
  obtain ⟨-, -, -, -, -, -, -, -, -, -, -, -, e0, e1⟩ := idx5 t
  have ht : t.val = (i 0).val / 5000 := rfl
  refine ⟨t, flush5_6 t, ?_⟩
  rw [mem_blk5]
  intro a
  match a with
  | ⟨0, _⟩ => show win5_6.index t (0 : Fin 2) * 5000 ≤ (i 0).val ∧ (i 0).val < win5_6.index t (0 : Fin 2) * 5000 + 5000; rw [e0, ht]; omega
  | ⟨1, _⟩ => show win5_6.index t (1 : Fin 2) * 64 ≤ (i 1).val ∧ (i 1).val < win5_6.index t (1 : Fin 2) * 64 + 64; rw [e1]; omega

/-- THE ARRAY after the region: `G5` of the arrays the region finds. -/
theorem final5 (c : Dev nD) : (dat5 (F := Ideal) V c).arrAt 6 cfg5.N = G5 V c :=
  (dat5 (F := Ideal) V c).arrAt_eq_of_cover 6 (G5 V c) (fun t _ => flushed5_eq V c t) (cover5)

/-- Region 5's output at row `p`, column `q`. -/
theorem agg5_value (c : Dev nD) (p : Fin 100000) (q : Fin 64) :
    (dat5 (F := Ideal) V c).arrAt 6 cfg5.N (ix2 p q)
      = SageSpec.aggRowScaled (fun k => (V c main_v75 : S100000x64.Idx → EReal) (ix2 p k)) ((V c main_v17 : S100000x1.Idx → EReal) (ix2 p (0 : Fin 1)))
        (fun k => (V c main_v53 : S100000x64.Idx → EReal) (ix2 p k)) (fun k j => (V c main_arg25 : S64x64.Idx → EReal) (ix2 k j))
        (fun j => (V c main_v76 : S1x64.Idx → EReal) (ix2 (0 : Fin 1) j)) (fun k j => (V c main_arg27 : S64x64.Idx → EReal) (ix2 k j)) q := by
  rw [final5 V c]
  rfl

end Cert.KernelIdeal.KerValue

end
-- ==== Proof.KerAgg.lean ====
/-
  The four neighbourhood-mean regions' values, gathered: `agg2_value`, `agg3_value`, `agg4_value`, `agg5_value`
  (namespace `Cert.KernelIdeal.KerValue`).
-/
import proofs.«145198_j57071525429486_2_alg».proof.Proof.KerAgg2
import proofs.«145198_j57071525429486_2_alg».proof.Proof.KerAgg3
import proofs.«145198_j57071525429486_2_alg».proof.Proof.KerAgg4
import proofs.«145198_j57071525429486_2_alg».proof.Proof.KerAgg5
-- ==== Proof.RefAgg.lean ====
/-
  The reference program's two neighbourhood-mean layers on the movie nodes, read at one element.  (The two layers
  on the user nodes are the same statements over 100000 rows, in a module of their own.)

  Each layer is, on the row `p` of a movie node and the output feature `q`,
  `(∑ k, (s p k / max (c p) 1) · Wl k q) + bl q + ∑ k, x p k · Wr k q`,
  where `s` is the array of neighbour sums, `c` the array of neighbour counts (both written by scatter
  operations that are kept as opaque arrays here) and `x` the node's own previous features.  The first layer is
  followed by the rectifier.  Every theorem below identifies one of the program's arrays, at the
  index `(p, q)`, with the specification's `aggRow` (and `reluRow`) of the rows at `p`.

  The proofs are all the same: the program's operations are read at an index one after the other, outermost
  first; each broadcast reads its operand at an index computed from the literal shapes, and those composed index
  functions are identified with the coordinate constructors; at the exact instance the arithmetic operations are
  the extended reals' `+`, `*`, `max` and the division `Ideal.div`.
-/
import proofs.«145198_j57071525429486_2_alg».proof.Proof.Gen.ReferenceIdeal.Read
import proofs.«145198_j57071525429486_2_alg».proof.Proof.Spec

noncomputable section

namespace Cert.ReferenceIdeal.RefValue

open Cert.ReferenceIdeal Cert.ReferenceIdeal.Gen Cert.ReferenceIdeal.Read Idealize.ShloMosaic Idealize.ShloMosaic.StableHlo
open Idealize.ShloMosaic.ValueIdx
open Cert

/-! ## Movie nodes, first layer -/

/-- Movie nodes, first layer: the rectifier of the neighbourhood mean of the users' input-layer rows. -/
theorem ref_m1 (x0 : (⟨S100000x64, .f32⟩ : BufTy).Contents (Elt Ideal)) (x1 : (⟨S50000x64, .f32⟩ : BufTy).Contents (Elt Ideal)) (x2 x3 : (⟨S1000000, .i32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 x8 x9 x10 x11 x12 x13 x14 x15 : (⟨S64, .f32⟩ : BufTy).Contents (Elt Ideal)) (x16 : (⟨S64x64, .f32⟩ : BufTy).Contents (Elt Ideal)) (x17 : (⟨S64, .f32⟩ : BufTy).Contents (Elt Ideal)) (x18 : (⟨S64x64, .f32⟩ : BufTy).Contents (Elt Ideal)) (p : Fin 50000) (q : Fin 64) :
    Read.val_main_v91 (F := Ideal) x0 x1 x2 x3 x4 x5 x6 x7 x8 x9 x10 x11 x12 x13 x14 x15 x16 x17 x18 (ix2 p q)
      = SageSpec.reluRow (SageSpec.aggRow (fun k => Read.val_main_v49 (F := Ideal) x0 x2 x3 x4 x5 x8 x9 x10 x11 (ix2 p k)) (Read.val_main_v53 (F := Ideal) x3 (ix1 p))
          (fun k => Read.val_main_v39 (F := Ideal) x1 x6 x7 x12 x13 x14 x15 (ix2 p k)) (fun k j => x16 (ix2 k j)) (fun j => x17 (ix1 j)) (fun k j => x18 (ix2 k j))) q := by
  -- The index functions of the two matrix products and of the broadcasts, on coordinates: a product reads its
  -- left factor on the row `p` and its right factor on the column `q`; the count is read at the row, the bias
  -- at the column.
  have hsl : ∀ k : Fin 64, lidx_main_v59 (ix2 p q) k = ix2 p k := fun k =>
    funext fun a => Fin.ext (by match a with | ⟨0, _⟩ => rfl | ⟨1, _⟩ => rfl)
  have hsr : ∀ k : Fin 64, ridx_main_v59 (ix2 p q) k = ix2 k q := fun k =>
    funext fun a => Fin.ext (by match a with | ⟨0, _⟩ => rfl | ⟨1, _⟩ => rfl)
  have hxl : ∀ k : Fin 64, lidx_main_v63 (ix2 p q) k = ix2 p k := fun k =>
    funext fun a => Fin.ext (by match a with | ⟨0, _⟩ => rfl | ⟨1, _⟩ => rfl)
  have hxr : ∀ k : Fin 64, ridx_main_v63 (ix2 p q) k = ix2 k q := fun k =>
    funext fun a => Fin.ext (by match a with | ⟨0, _⟩ => rfl | ⟨1, _⟩ => rfl)
  have hcnt : ∀ k : Fin 64, idx_main_v56 (idx_main_v57 (ix2 p k)) = ix1 p := fun k =>
    funext fun a => Fin.ext (by match a with | ⟨0, _⟩ => rfl)
  have hbias : idx_main_v60 (idx_main_v61 (ix2 p q)) = ix1 q :=
    funext fun a => Fin.ext (by match a with | ⟨0, _⟩ => rfl)
  -- A summand of the first product: the neighbour sum divided by the broadcast of `max count 1`, times the weight.
  have hS : ∀ k : Fin 64,
      Read.val_main_v58 (F := Ideal) x0 x2 x3 x4 x5 x8 x9 x10 x11 (lidx_main_v59 (ix2 p q) k) * x16 (ridx_main_v59 (ix2 p q) k)
        = Ideal.div (Read.val_main_v49 (F := Ideal) x0 x2 x3 x4 x5 x8 x9 x10 x11 (ix2 p k)) (max (Read.val_main_v53 (F := Ideal) x3 (ix1 p)) SageSpec.one) * x16 (ix2 k q) := fun k => by
    rw [hsl k, hsr k, val_main_v58_apply, val_main_v57_apply, val_main_v56_apply, hcnt k, val_main_v55_apply, val_main_v54_apply, val_main_cst_5_apply]
    rfl
  -- A summand of the second product: the node's own row times the weight.
  have hX : ∀ k : Fin 64,
      Read.val_main_v39 (F := Ideal) x1 x6 x7 x12 x13 x14 x15 (lidx_main_v63 (ix2 p q) k) * x18 (ridx_main_v63 (ix2 p q) k)
        = Read.val_main_v39 (F := Ideal) x1 x6 x7 x12 x13 x14 x15 (ix2 p k) * x18 (ix2 k q) := fun k => by
    rw [hxl k, hxr k]
  -- The pointwise operations and the two products, outermost first; then the summands and the bias.
  rw [val_main_v91_apply, val_main_v64_apply, val_main_v62_apply, val_main_v59_apply, val_main_v61_apply, val_main_v60_apply, val_main_v63_apply, val_main_call3_v0_apply, val_main_call3_cst_apply]
  rw [Finset.sum_congr rfl (fun k _ => hS k), Finset.sum_congr rfl (fun k _ => hX k), hbias]
  rfl

/-! ## Movie nodes, second layer -/

/-- Movie nodes, second layer: the neighbourhood mean of the users' first-layer rows, with no rectifier. -/
theorem ref_movie_out (x0 : (⟨S100000x64, .f32⟩ : BufTy).Contents (Elt Ideal)) (x1 : (⟨S50000x64, .f32⟩ : BufTy).Contents (Elt Ideal)) (x2 x3 : (⟨S1000000, .i32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 x8 x9 x10 x11 x12 x13 x14 x15 : (⟨S64, .f32⟩ : BufTy).Contents (Elt Ideal)) (x16 : (⟨S64x64, .f32⟩ : BufTy).Contents (Elt Ideal)) (x17 : (⟨S64, .f32⟩ : BufTy).Contents (Elt Ideal)) (x18 x19 : (⟨S64x64, .f32⟩ : BufTy).Contents (Elt Ideal)) (x20 : (⟨S64, .f32⟩ : BufTy).Contents (Elt Ideal)) (x21 x22 : (⟨S64x64, .f32⟩ : BufTy).Contents (Elt Ideal)) (x23 : (⟨S64, .f32⟩ : BufTy).Contents (Elt Ideal)) (x24 : (⟨S64x64, .f32⟩ : BufTy).Contents (Elt Ideal)) (p : Fin 50000) (q : Fin 64) :
    Read.val_main_v116 (F := Ideal) x0 x1 x2 x3 x4 x5 x6 x7 x8 x9 x10 x11 x12 x13 x14 x15 x16 x17 x18 x19 x20 x21 x22 x23 x24 (ix2 p q)
      = SageSpec.aggRow (fun k => Read.val_main_v101 (F := Ideal) x0 x1 x2 x3 x4 x5 x6 x7 x8 x9 x10 x11 x12 x13 x14 x15 x19 x20 x21 (ix2 p k)) (Read.val_main_v105 (F := Ideal) x3 (ix1 p))
          (fun k => Read.val_main_v91 (F := Ideal) x0 x1 x2 x3 x4 x5 x6 x7 x8 x9 x10 x11 x12 x13 x14 x15 x16 x17 x18 (ix2 p k)) (fun k j => x22 (ix2 k j)) (fun j => x23 (ix1 j)) (fun k j => x24 (ix2 k j)) q := by
  -- The index functions of the two matrix products and of the broadcasts, on coordinates: a product reads its
  -- left factor on the row `p` and its right factor on the column `q`; the count is read at the row, the bias
  -- at the column.
  have hsl : ∀ k : Fin 64, lidx_main_v111 (ix2 p q) k = ix2 p k := fun k =>
    funext fun a => Fin.ext (by match a with | ⟨0, _⟩ => rfl | ⟨1, _⟩ => rfl)
  have hsr : ∀ k : Fin 64, ridx_main_v111 (ix2 p q) k = ix2 k q := fun k =>
    funext fun a => Fin.ext (by match a with | ⟨0, _⟩ => rfl | ⟨1, _⟩ => rfl)
  have hxl : ∀ k : Fin 64, lidx_main_v115 (ix2 p q) k = ix2 p k := fun k =>
    funext fun a => Fin.ext (by match a with | ⟨0, _⟩ => rfl | ⟨1, _⟩ => rfl)
  have hxr : ∀ k : Fin 64, ridx_main_v115 (ix2 p q) k = ix2 k q := fun k =>
    funext fun a => Fin.ext (by match a with | ⟨0, _⟩ => rfl | ⟨1, _⟩ => rfl)
  have hcnt : ∀ k : Fin 64, idx_main_v108 (idx_main_v109 (ix2 p k)) = ix1 p := fun k =>
    funext fun a => Fin.ext (by match a with | ⟨0, _⟩ => rfl)
  have hbias : idx_main_v112 (idx_main_v113 (ix2 p q)) = ix1 q :=
    funext fun a => Fin.ext (by match a with | ⟨0, _⟩ => rfl)
  -- A summand of the first product: the neighbour sum divided by the broadcast of `max count 1`, times the weight.
  have hS : ∀ k : Fin 64,
      Read.val_main_v110 (F := Ideal) x0 x1 x2 x3 x4 x5 x6 x7 x8 x9 x10 x11 x12 x13 x14 x15 x19 x20 x21 (lidx_main_v111 (ix2 p q) k) * x22 (ridx_main_v111 (ix2 p q) k)
        = Ideal.div (Read.val_main_v101 (F := Ideal) x0 x1 x2 x3 x4 x5 x6 x7 x8 x9 x10 x11 x12 x13 x14 x15 x19 x20 x21 (ix2 p k)) (max (Read.val_main_v105 (F := Ideal) x3 (ix1 p)) SageSpec.one) * x22 (ix2 k q) := fun k => by
    rw [hsl k, hsr k, val_main_v110_apply, val_main_v109_apply, val_main_v108_apply, hcnt k, val_main_v107_apply, val_main_v106_apply, val_main_cst_17_apply]
    rfl
  -- A summand of the second product: the node's own row times the weight.
  have hX : ∀ k : Fin 64,
      Read.val_main_v91 (F := Ideal) x0 x1 x2 x3 x4 x5 x6 x7 x8 x9 x10 x11 x12 x13 x14 x15 x16 x17 x18 (lidx_main_v115 (ix2 p q) k) * x24 (ridx_main_v115 (ix2 p q) k)
        = Read.val_main_v91 (F := Ideal) x0 x1 x2 x3 x4 x5 x6 x7 x8 x9 x10 x11 x12 x13 x14 x15 x16 x17 x18 (ix2 p k) * x24 (ix2 k q) := fun k => by
    rw [hxl k, hxr k]
  -- The pointwise operations and the two products, outermost first; then the summands and the bias.
  rw [val_main_v116_apply, val_main_v114_apply, val_main_v111_apply, val_main_v113_apply, val_main_v112_apply, val_main_v115_apply]
  rw [Finset.sum_congr rfl (fun k _ => hS k), Finset.sum_congr rfl (fun k _ => hX k), hbias]
  rfl

end Cert.ReferenceIdeal.RefValue

end
-- ==== Proof.RefAggUd.lean ====
/-
  The reference program's two neighbourhood-mean layers on the user nodes, read at one element.  (The two layers
  on the movie nodes are the same statements over 50000 rows, in a module of their own.)

  Each layer is, on the row `p` of a user node and the output feature `q`,
  `(∑ k, (s p k / max (c p) 1) · Wl k q) + bl q + ∑ k, x p k · Wr k q`,
  where `s` is the array of neighbour sums, `c` the array of neighbour counts (both written by scatter
  operations that are kept as opaque arrays here) and `x` the node's own previous features.  The first layer is
  followed by the rectifier.  Every theorem below identifies one of the program's arrays, at the
  index `(p, q)`, with the specification's `aggRow` (and `reluRow`) of the rows at `p`.

  The proofs are all the same: the program's operations are read at an index one after the other, outermost
  first; each broadcast reads its operand at an index computed from the literal shapes, and those composed index
  functions are identified with the coordinate constructors; at the exact instance the arithmetic operations are
  the extended reals' `+`, `*`, `max` and the division `Ideal.div`.
-/
import proofs.«145198_j57071525429486_2_alg».proof.Proof.Gen.ReferenceIdeal.Read
import proofs.«145198_j57071525429486_2_alg».proof.Proof.Spec

noncomputable section

namespace Cert.ReferenceIdeal.RefValue

open Cert.ReferenceIdeal Cert.ReferenceIdeal.Gen Cert.ReferenceIdeal.Read Idealize.ShloMosaic Idealize.ShloMosaic.StableHlo
open Idealize.ShloMosaic.ValueIdx
open Cert

/-! ## User nodes, first layer -/

/-- User nodes, first layer: the rectifier of the neighbourhood mean of the movies' input-layer rows. -/
theorem ref_u1 (x0 : (⟨S100000x64, .f32⟩ : BufTy).Contents (Elt Ideal)) (x1 : (⟨S50000x64, .f32⟩ : BufTy).Contents (Elt Ideal)) (x2 x3 : (⟨S1000000, .i32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 x8 x9 x10 x11 x12 x13 x14 x15 : (⟨S64, .f32⟩ : BufTy).Contents (Elt Ideal)) (x19 : (⟨S64x64, .f32⟩ : BufTy).Contents (Elt Ideal)) (x20 : (⟨S64, .f32⟩ : BufTy).Contents (Elt Ideal)) (x21 : (⟨S64x64, .f32⟩ : BufTy).Contents (Elt Ideal)) (p : Fin 100000) (q : Fin 64) :
    Read.val_main_v90 (F := Ideal) x0 x1 x2 x3 x4 x5 x6 x7 x8 x9 x10 x11 x12 x13 x14 x15 x19 x20 x21 (ix2 p q)
      = SageSpec.reluRow (SageSpec.aggRow (fun k => Read.val_main_v74 (F := Ideal) x1 x2 x3 x6 x7 x12 x13 x14 x15 (ix2 p k)) (Read.val_main_v78 (F := Ideal) x2 (ix1 p))
          (fun k => Read.val_main_v19 (F := Ideal) x0 x4 x5 x8 x9 x10 x11 (ix2 p k)) (fun k j => x19 (ix2 k j)) (fun j => x20 (ix1 j)) (fun k j => x21 (ix2 k j))) q := by
  -- The index functions of the two matrix products and of the broadcasts, on coordinates: a product reads its
  -- left factor on the row `p` and its right factor on the column `q`; the count is read at the row, the bias
  -- at the column.
  have hsl : ∀ k : Fin 64, lidx_main_v84 (ix2 p q) k = ix2 p k := fun k =>
    funext fun a => Fin.ext (by match a with | ⟨0, _⟩ => rfl | ⟨1, _⟩ => rfl)
  have hsr : ∀ k : Fin 64, ridx_main_v84 (ix2 p q) k = ix2 k q := fun k =>
    funext fun a => Fin.ext (by match a with | ⟨0, _⟩ => rfl | ⟨1, _⟩ => rfl)
  have hxl : ∀ k : Fin 64, lidx_main_v88 (ix2 p q) k = ix2 p k := fun k =>
    funext fun a => Fin.ext (by match a with | ⟨0, _⟩ => rfl | ⟨1, _⟩ => rfl)
  have hxr : ∀ k : Fin 64, ridx_main_v88 (ix2 p q) k = ix2 k q := fun k =>
    funext fun a => Fin.ext (by match a with | ⟨0, _⟩ => rfl | ⟨1, _⟩ => rfl)
  have hcnt : ∀ k : Fin 64, idx_main_v81 (idx_main_v82 (ix2 p k)) = ix1 p := fun k =>
    funext fun a => Fin.ext (by match a with | ⟨0, _⟩ => rfl)
  have hbias : idx_main_v85 (idx_main_v86 (ix2 p q)) = ix1 q :=
    funext fun a => Fin.ext (by match a with | ⟨0, _⟩ => rfl)
  -- A summand of the first product: the neighbour sum divided by the broadcast of `max count 1`, times the weight.
  have hS : ∀ k : Fin 64,
      Read.val_main_v83 (F := Ideal) x1 x2 x3 x6 x7 x12 x13 x14 x15 (lidx_main_v84 (ix2 p q) k) * x19 (ridx_main_v84 (ix2 p q) k)
        = Ideal.div (Read.val_main_v74 (F := Ideal) x1 x2 x3 x6 x7 x12 x13 x14 x15 (ix2 p k)) (max (Read.val_main_v78 (F := Ideal) x2 (ix1 p)) SageSpec.one) * x19 (ix2 k q) := fun k => by
    rw [hsl k, hsr k, val_main_v83_apply, val_main_v82_apply, val_main_v81_apply, hcnt k, val_main_v80_apply, val_main_v79_apply, val_main_cst_11_apply]
    rfl
  -- A summand of the second product: the node's own row times the weight.
  have hX : ∀ k : Fin 64,
      Read.val_main_v19 (F := Ideal) x0 x4 x5 x8 x9 x10 x11 (lidx_main_v88 (ix2 p q) k) * x21 (ridx_main_v88 (ix2 p q) k)
        = Read.val_main_v19 (F := Ideal) x0 x4 x5 x8 x9 x10 x11 (ix2 p k) * x21 (ix2 k q) := fun k => by
    rw [hxl k, hxr k]
  -- The pointwise operations and the two products, outermost first; then the summands and the bias.
  rw [val_main_v90_apply, val_main_v89_apply, val_main_v87_apply, val_main_v84_apply, val_main_v86_apply, val_main_v85_apply, val_main_v88_apply, val_main_call2_v0_apply, val_main_call2_cst_apply]
  rw [Finset.sum_congr rfl (fun k _ => hS k), Finset.sum_congr rfl (fun k _ => hX k), hbias]
  rfl

/-! ## User nodes, second layer -/

/-- User nodes, second layer: the neighbourhood mean of the movies' first-layer rows, with no rectifier. -/
theorem ref_user_out (x0 : (⟨S100000x64, .f32⟩ : BufTy).Contents (Elt Ideal)) (x1 : (⟨S50000x64, .f32⟩ : BufTy).Contents (Elt Ideal)) (x2 x3 : (⟨S1000000, .i32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 x8 x9 x10 x11 x12 x13 x14 x15 : (⟨S64, .f32⟩ : BufTy).Contents (Elt Ideal)) (x16 : (⟨S64x64, .f32⟩ : BufTy).Contents (Elt Ideal)) (x17 : (⟨S64, .f32⟩ : BufTy).Contents (Elt Ideal)) (x18 x19 : (⟨S64x64, .f32⟩ : BufTy).Contents (Elt Ideal)) (x20 : (⟨S64, .f32⟩ : BufTy).Contents (Elt Ideal)) (x21 x25 : (⟨S64x64, .f32⟩ : BufTy).Contents (Elt Ideal)) (x26 : (⟨S64, .f32⟩ : BufTy).Contents (Elt Ideal)) (x27 : (⟨S64x64, .f32⟩ : BufTy).Contents (Elt Ideal)) (p : Fin 100000) (q : Fin 64) :
    Read.val_main_v141 (F := Ideal) x0 x1 x2 x3 x4 x5 x6 x7 x8 x9 x10 x11 x12 x13 x14 x15 x16 x17 x18 x19 x20 x21 x25 x26 x27 (ix2 p q)
      = SageSpec.aggRow (fun k => Read.val_main_v126 (F := Ideal) x0 x1 x2 x3 x4 x5 x6 x7 x8 x9 x10 x11 x12 x13 x14 x15 x16 x17 x18 (ix2 p k)) (Read.val_main_v130 (F := Ideal) x2 (ix1 p))
          (fun k => Read.val_main_v90 (F := Ideal) x0 x1 x2 x3 x4 x5 x6 x7 x8 x9 x10 x11 x12 x13 x14 x15 x19 x20 x21 (ix2 p k)) (fun k j => x25 (ix2 k j)) (fun j => x26 (ix1 j)) (fun k j => x27 (ix2 k j)) q := by
  -- The index functions of the two matrix products and of the broadcasts, on coordinates: a product reads its
  -- left factor on the row `p` and its right factor on the column `q`; the count is read at the row, the bias
  -- at the column.
  have hsl : ∀ k : Fin 64, lidx_main_v136 (ix2 p q) k = ix2 p k := fun k =>
    funext fun a => Fin.ext (by match a with | ⟨0, _⟩ => rfl | ⟨1, _⟩ => rfl)
  have hsr : ∀ k : Fin 64, ridx_main_v136 (ix2 p q) k = ix2 k q := fun k =>
    funext fun a => Fin.ext (by match a with | ⟨0, _⟩ => rfl | ⟨1, _⟩ => rfl)
  have hxl : ∀ k : Fin 64, lidx_main_v140 (ix2 p q) k = ix2 p k := fun k =>
    funext fun a => Fin.ext (by match a with | ⟨0, _⟩ => rfl | ⟨1, _⟩ => rfl)
  have hxr : ∀ k : Fin 64, ridx_main_v140 (ix2 p q) k = ix2 k q := fun k =>
    funext fun a => Fin.ext (by match a with | ⟨0, _⟩ => rfl | ⟨1, _⟩ => rfl)
  have hcnt : ∀ k : Fin 64, idx_main_v133 (idx_main_v134 (ix2 p k)) = ix1 p := fun k =>
    funext fun a => Fin.ext (by match a with | ⟨0, _⟩ => rfl)
  have hbias : idx_main_v137 (idx_main_v138 (ix2 p q)) = ix1 q :=
    funext fun a => Fin.ext (by match a with | ⟨0, _⟩ => rfl)
  -- A summand of the first product: the neighbour sum divided by the broadcast of `max count 1`, times the weight.
  have hS : ∀ k : Fin 64,
      Read.val_main_v135 (F := Ideal) x0 x1 x2 x3 x4 x5 x6 x7 x8 x9 x10 x11 x12 x13 x14 x15 x16 x17 x18 (lidx_main_v136 (ix2 p q) k) * x25 (ridx_main_v136 (ix2 p q) k)
        = Ideal.div (Read.val_main_v126 (F := Ideal) x0 x1 x2 x3 x4 x5 x6 x7 x8 x9 x10 x11 x12 x13 x14 x15 x16 x17 x18 (ix2 p k)) (max (Read.val_main_v130 (F := Ideal) x2 (ix1 p)) SageSpec.one) * x25 (ix2 k q) := fun k => by
    rw [hsl k, hsr k, val_main_v135_apply, val_main_v134_apply, val_main_v133_apply, hcnt k, val_main_v132_apply, val_main_v131_apply, val_main_cst_23_apply]
    rfl
  -- A summand of the second product: the node's own row times the weight.
  have hX : ∀ k : Fin 64,
      Read.val_main_v90 (F := Ideal) x0 x1 x2 x3 x4 x5 x6 x7 x8 x9 x10 x11 x12 x13 x14 x15 x19 x20 x21 (lidx_main_v140 (ix2 p q) k) * x27 (ridx_main_v140 (ix2 p q) k)
        = Read.val_main_v90 (F := Ideal) x0 x1 x2 x3 x4 x5 x6 x7 x8 x9 x10 x11 x12 x13 x14 x15 x19 x20 x21 (ix2 p k) * x27 (ix2 k q) := fun k => by
    rw [hxl k, hxr k]
  -- The pointwise operations and the two products, outermost first; then the summands and the bias.
  rw [val_main_v141_apply, val_main_v139_apply, val_main_v136_apply, val_main_v138_apply, val_main_v137_apply, val_main_v140_apply]
  rw [Finset.sum_congr rfl (fun k _ => hS k), Finset.sum_congr rfl (fun k _ => hX k), hbias]
  rfl

end Cert.ReferenceIdeal.RefValue

end
-- ==== Proof.AggLaw.lean ====
/-
  The neighbourhood mean may be taken after the matrix product.

  One program divides every entry of the neighbour sum `s` by `d = max c 1` and then multiplies by the
  weight matrix; the other multiplies `s` by the matrix first and scales the product by `1 / d`.  On the
  extended reals the two agree with no finiteness assumption on `s` or on the weights:

  * `d ≥ 1`, so `d ≠ 0` and division by `d` is multiplication by `d⁻¹`;
  * `d⁻¹` is nonnegative and is never `⊤` (it is the real `1/d`, or `0` when `d = ⊤`);
  * multiplication by a nonnegative factor other than `⊤` is additive on all of `EReal`, hence commutes
    with a finite sum;
  * multiplication on `EReal` is commutative and associative.
-/
import proofs.«145198_j57071525429486_2_alg».proof.Proof.Spec
import Mathlib.Data.EReal.Inv

noncomputable section

namespace Cert.SageSpec

open Idealize.ShloMosaic
open scoped BigOperators

/-- The word `0x3F800000` has sign bit 0, exponent field 127 (the bias) and fraction 0: it denotes
    `2^23 · 2^(127 - 127 - 23) = 1`. -/
theorem one_eq : one = ((1 : ℝ) : EReal) := by
  unfold one
  simp [Ideal.ofBits, Ideal.ieee, -EReal.coe_mul]
  norm_num

/-- The same value as the unit of `EReal`. -/
theorem one_eq_one : one = (1 : EReal) := by
  rw [one_eq, EReal.coe_one]

/-- Right multiplication by a nonnegative factor other than `⊤` commutes with a finite sum: it is
    additive on every pair of extended reals, and the sum is built one term at a time. -/
theorem sum_mul_of_nonneg {ι : Type} (t : Finset ι) (a : ι → EReal) {e : EReal}
    (h0 : 0 ≤ e) (ht : e ≠ ⊤) : (∑ k ∈ t, a k) * e = ∑ k ∈ t, a k * e := by
  classical
  induction t using Finset.induction_on with
  | empty => simp
  | insert i t hi ih =>
    rw [Finset.sum_insert hi, Finset.sum_insert hi,
      EReal.right_distrib_of_nonneg_of_ne_top h0 ht, ih]

/-- Scaling the matrix product by `1 / max c 1` is the neighbourhood-mean layer. -/
theorem aggRowScaled_eq (s : Row) (cnt : EReal) (x : Row) (wl : Mat) (bl : Row) (wr : Mat) :
    aggRowScaled s (Ideal.div one (max cnt one)) x wl bl wr = aggRow s cnt x wl bl wr := by
  funext j
  -- the divisor is at least 1, so it is not 0 and dividing by it is multiplying by its inverse
  have hd1 : (1 : EReal) ≤ max cnt one := by
    rw [one_eq_one]; exact le_max_right _ _
  have hd0 : max cnt one ≠ 0 := (lt_of_lt_of_le zero_lt_one hd1).ne'
  have hdiv : ∀ y : EReal, Ideal.div y (max cnt one) = y * (max cnt one)⁻¹ := fun y => by
    unfold Ideal.div; rw [if_neg hd0]
  -- the inverse of the divisor is a nonnegative factor other than ⊤
  have he0 : 0 ≤ (max cnt one)⁻¹ := EReal.inv_nonneg_of_nonneg (le_trans zero_le_one hd1)
  have het : (max cnt one)⁻¹ ≠ ⊤ := (EReal.inv_lt_top _).ne
  unfold aggRowScaled aggRow
  simp only [hdiv]
  generalize (max cnt one)⁻¹ = e at he0 het
  -- 1 · e = e; then distribute e over the sum and move it next to the entry of s
  rw [one_eq_one, one_mul, sum_mul_of_nonneg _ _ he0 het]
  congr 2
  refine Finset.sum_congr rfl (fun k _ => ?_)
  exact mul_right_comm _ _ _

end Cert.SageSpec

end
-- ==== Proof.FoldKeep.lean ====
/-
  The intermediate arrays through the fold.

  The column of reciprocal neighbour counts of each node type is computed by the first stretch of host operations
  and read by two regions much later; each layer's output array is written by one region and read by later host
  operations (the gather along the edges) and by later regions (as the node's own row).  Between its writer and
  its readers nothing writes such an array: a stretch of host operations writes only its own results, and a region
  only its output array — an array it takes as an input window it leaves as it found it.
-/
import proofs.«145198_j57071525429486_2_alg».proof.Proof.Gen.KernelIdeal.Frame
import proofs.«145198_j57071525429486_2_alg».proof.Proof.FoldArgs

set_option maxRecDepth 16384

noncomputable section

namespace Cert.KernelIdeal.KerValue

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

variable (c : Dev nD)

/-- The movie nodes' reciprocal counts, at region 2's entry, are as the first host stretch left them. -/
theorem invcMovie_at_W5 : W5 m ρ c (Proc.devRef .tc main_v8) = W1 m ρ c (Proc.devRef .tc main_v8) :=
  (show W5 m ρ c (Proc.devRef .tc main_v8) = W4 m ρ c (Proc.devRef .tc main_v8) by unwritten_by hostOps2).trans (
    (W4_of_ne m ρ c main_v8 (by decide)).trans (
    (show W3 m ρ c (Proc.devRef .tc main_v8) = W2 m ρ c (Proc.devRef .tc main_v8) by unwritten_by hostOps1).trans ((W2_of_ne m ρ c main_v8 (by decide)))))

/-- … and at region 4's entry as at region 2's: region 2 takes the column as an input window. -/
theorem invcMovie_at_W9 : W9 m ρ c (Proc.devRef .tc main_v8) = W5 m ρ c (Proc.devRef .tc main_v8) :=
  (show W9 m ρ c (Proc.devRef .tc main_v8) = W8 m ρ c (Proc.devRef .tc main_v8) by unwritten_by hostOps4).trans (
    (W8_of_ne m ρ c main_v8 (by decide)).trans (
    (show W7 m ρ c (Proc.devRef .tc main_v8) = W6 m ρ c (Proc.devRef .tc main_v8) by unwritten_by hostOps3).trans (((W6_arr m ρ c 1).trans (((dat2 (V5 m ρ) c).arrAt_in 1 rfl _).trans (A_eq2 (V5 m ρ) c 1))))))

/-- The user nodes' reciprocal counts, at region 3's entry, are as the first host stretch left them. -/
theorem invcUser_at_W7 : W7 m ρ c (Proc.devRef .tc main_v17) = W1 m ρ c (Proc.devRef .tc main_v17) :=
  (show W7 m ρ c (Proc.devRef .tc main_v17) = W6 m ρ c (Proc.devRef .tc main_v17) by unwritten_by hostOps3).trans (
    (W6_of_ne m ρ c main_v17 (by decide)).trans (
    (show W5 m ρ c (Proc.devRef .tc main_v17) = W4 m ρ c (Proc.devRef .tc main_v17) by unwritten_by hostOps2).trans (
    (W4_of_ne m ρ c main_v17 (by decide)).trans (
    (show W3 m ρ c (Proc.devRef .tc main_v17) = W2 m ρ c (Proc.devRef .tc main_v17) by unwritten_by hostOps1).trans ((W2_of_ne m ρ c main_v17 (by decide)))))))

/-- … and at region 5's entry as at region 3's: region 3 takes the column as an input window. -/
theorem invcUser_at_W11 : W11 m ρ c (Proc.devRef .tc main_v17) = W7 m ρ c (Proc.devRef .tc main_v17) :=
  (show W11 m ρ c (Proc.devRef .tc main_v17) = W10 m ρ c (Proc.devRef .tc main_v17) by unwritten_by hostOps5).trans (
    (W10_of_ne m ρ c main_v17 (by decide)).trans (
    (show W9 m ρ c (Proc.devRef .tc main_v17) = W8 m ρ c (Proc.devRef .tc main_v17) by unwritten_by hostOps4).trans (((W8_arr m ρ c 1).trans (((dat3 (V7 m ρ) c).arrAt_in 1 rfl _).trans (A_eq3 (V7 m ρ) c 1))))))

/-- The users' input-layer rows, when the first gather reads them, are as region 0 left them. -/
theorem hu_at_W4 : W4 m ρ c (Proc.devRef .tc main_v23) = W2 m ρ c (Proc.devRef .tc main_v23) :=
  (W4_of_ne m ρ c main_v23 (by decide)).trans ((show W3 m ρ c (Proc.devRef .tc main_v23) = W2 m ρ c (Proc.devRef .tc main_v23) by unwritten_by hostOps1))

/-- … and at region 3's entry still. -/
theorem hu_at_W7 : W7 m ρ c (Proc.devRef .tc main_v23) = W4 m ρ c (Proc.devRef .tc main_v23) :=
  (show W7 m ρ c (Proc.devRef .tc main_v23) = W6 m ρ c (Proc.devRef .tc main_v23) by unwritten_by hostOps3).trans (
    (W6_of_ne m ρ c main_v23 (by decide)).trans ((show W5 m ρ c (Proc.devRef .tc main_v23) = W4 m ρ c (Proc.devRef .tc main_v23) by unwritten_by hostOps2)))

/-- The movies' input-layer rows at region 2's entry are as region 1 left them. -/
theorem hm_at_W5 : W5 m ρ c (Proc.devRef .tc main_v29) = W4 m ρ c (Proc.devRef .tc main_v29) :=
  (show W5 m ρ c (Proc.devRef .tc main_v29) = W4 m ρ c (Proc.devRef .tc main_v29) by unwritten_by hostOps2)

/-- … and after region 2, which takes them as an input window. -/
theorem hm_at_W6 : W6 m ρ c (Proc.devRef .tc main_v29) = W5 m ρ c (Proc.devRef .tc main_v29) :=
  ((W6_arr m ρ c 2).trans (((dat2 (V5 m ρ) c).arrAt_in 2 rfl _).trans (A_eq2 (V5 m ρ) c 2)))

/-- The movies' first-layer rows at region 4's entry are as region 2 left them. -/
theorem m1_at_W9 : W9 m ρ c (Proc.devRef .tc main_v41) = W6 m ρ c (Proc.devRef .tc main_v41) :=
  (show W9 m ρ c (Proc.devRef .tc main_v41) = W8 m ρ c (Proc.devRef .tc main_v41) by unwritten_by hostOps4).trans (
    (W8_of_ne m ρ c main_v41 (by decide)).trans ((show W7 m ρ c (Proc.devRef .tc main_v41) = W6 m ρ c (Proc.devRef .tc main_v41) by unwritten_by hostOps3)))

/-- … and after region 4, which takes them as an input window. -/
theorem m1_at_W10 : W10 m ρ c (Proc.devRef .tc main_v41) = W9 m ρ c (Proc.devRef .tc main_v41) :=
  ((W10_arr m ρ c 2).trans (((dat4 (V9 m ρ) c).arrAt_in 2 rfl _).trans (A_eq4 (V9 m ρ) c 2)))

/-- The users' first-layer rows at region 5's entry are as region 3 left them. -/
theorem u1_at_W11 : W11 m ρ c (Proc.devRef .tc main_v53) = W8 m ρ c (Proc.devRef .tc main_v53) :=
  (show W11 m ρ c (Proc.devRef .tc main_v53) = W10 m ρ c (Proc.devRef .tc main_v53) by unwritten_by hostOps5).trans (
    (W10_of_ne m ρ c main_v53 (by decide)).trans ((show W9 m ρ c (Proc.devRef .tc main_v53) = W8 m ρ c (Proc.devRef .tc main_v53) by unwritten_by hostOps4)))

/-- The movies' result at the end is as region 4 left it. -/
theorem movieOut_at_W12 : W12 m ρ c (Proc.devRef .tc main_v65) = W10 m ρ c (Proc.devRef .tc main_v65) :=
  (W12_of_ne m ρ c main_v65 (by decide)).trans ((show W11 m ρ c (Proc.devRef .tc main_v65) = W10 m ρ c (Proc.devRef .tc main_v65) by unwritten_by hostOps5))

end Cert.KernelIdeal.KerValue

end
-- ==== Proof.FoldRead2.lean ====
/-
  The stretch of host operations before region 2 read: the sums of the users' input-layer rows over each movie's
  neighbours (a gather along the edges, then a sum into the movies), and the layer's bias as a row.
-/
import proofs.«145198_j57071525429486_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value
import proofs.«145198_j57071525429486_2_alg».proof.Proof.HostTerms

set_option maxRecDepth 16384

noncomputable section

namespace Cert.KernelIdeal.KerValue

open Cert.KernelIdeal Cert.KernelIdeal.Gen
open Idealize.ShloMosaic Idealize.ShloMosaic.TcCoe Idealize.SL.Sem
open Idealize.ShloMosaic.Pipeline (Dat Cfg Window)
open Idealize.ShloMosaic.StableHlo Idealize.ShloMosaic.ValueIdx

variable {F : FTy → Type} [FloatOps F]
variable (m : (ℓ : Loc nD τ sig) → Buf (Elt F) ℓ) (ρ : Dev nD → PrngReg)

variable (c : Dev nD)

set_option maxHeartbeats 8000000 in
/-- Region 2's neighbour sums: the users' input-layer rows gathered along the edges and summed into the movies. -/
theorem sum_read2 :
    W5 m ρ c (Proc.devRef .tc main_v39)
      = sumIntoMovies (gatherUsers (W4 m ρ c (Proc.devRef .tc main_v23)) (W4 m ρ c (Proc.devRef .tc main_arg2))) (W4 m ρ c (Proc.devRef .tc main_arg3)) := by
  show StableHlo.after hostOps2 (W4 m ρ c) (Proc.devRef .tc main_v39) = _
  simp only [hostOps2]
  after_results
  rfl

set_option maxHeartbeats 8000000 in
/-- The layer's bias as a row. -/
theorem bias_row2 (q : Fin 64) :
    (W5 m ρ c (Proc.devRef .tc main_v40) : S1x64.Idx → F .f32) (ix2 (0 : Fin 1) q)
      = (W4 m ρ c (Proc.devRef .tc main_arg17) : S64.Idx → F .f32) (ix1 q) := by
  have h : (W5 m ρ c (Proc.devRef .tc main_v40) : S1x64.Idx → F .f32)
      = shapeCast S1x64 (W4 m ρ c (Proc.devRef .tc main_arg17) : S64.Idx → F .f32) shapeCasts_S64_S1x64 := by
    show StableHlo.after hostOps2 (W4 m ρ c) (Proc.devRef .tc main_v40) = _
    simp only [hostOps2]
    after_results
    rfl
  rw [h]
  exact shapeCast_a_1a_apply _ _ _ _

end Cert.KernelIdeal.KerValue

end
-- ==== Proof.FoldRead3.lean ====
/-
  The stretch of host operations before region 3 read: the sums of the movies' input-layer rows over each user's
  neighbours, and the layer's bias as a row.
-/
import proofs.«145198_j57071525429486_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value
import proofs.«145198_j57071525429486_2_alg».proof.Proof.HostTerms

set_option maxRecDepth 16384

noncomputable section

namespace Cert.KernelIdeal.KerValue

open Cert.KernelIdeal Cert.KernelIdeal.Gen
open Idealize.ShloMosaic Idealize.ShloMosaic.TcCoe Idealize.SL.Sem
open Idealize.ShloMosaic.Pipeline (Dat Cfg Window)
open Idealize.ShloMosaic.StableHlo Idealize.ShloMosaic.ValueIdx

variable {F : FTy → Type} [FloatOps F]
variable (m : (ℓ : Loc nD τ sig) → Buf (Elt F) ℓ) (ρ : Dev nD → PrngReg)

variable (c : Dev nD)

set_option maxHeartbeats 8000000 in
/-- Region 3's neighbour sums: the movies' input-layer rows gathered along the edges and summed into the users. -/
theorem sum_read3 :
    W7 m ρ c (Proc.devRef .tc main_v51)
      = sumIntoUsers (gatherMovies (W6 m ρ c (Proc.devRef .tc main_v29)) (W6 m ρ c (Proc.devRef .tc main_arg3))) (W6 m ρ c (Proc.devRef .tc main_arg2)) := by
  show StableHlo.after hostOps3 (W6 m ρ c) (Proc.devRef .tc main_v51) = _
  simp only [hostOps3]
  after_results
  rfl

set_option maxHeartbeats 8000000 in
/-- The layer's bias as a row. -/
theorem bias_row3 (q : Fin 64) :
    (W7 m ρ c (Proc.devRef .tc main_v52) : S1x64.Idx → F .f32) (ix2 (0 : Fin 1) q)
      = (W6 m ρ c (Proc.devRef .tc main_arg20) : S64.Idx → F .f32) (ix1 q) := by
  have h : (W7 m ρ c (Proc.devRef .tc main_v52) : S1x64.Idx → F .f32)
      = shapeCast S1x64 (W6 m ρ c (Proc.devRef .tc main_arg20) : S64.Idx → F .f32) shapeCasts_S64_S1x64 := by
    show StableHlo.after hostOps3 (W6 m ρ c) (Proc.devRef .tc main_v52) = _
    simp only [hostOps3]
    after_results
    rfl
  rw [h]
  exact shapeCast_a_1a_apply _ _ _ _

end Cert.KernelIdeal.KerValue

end
-- ==== Proof.FoldRead4.lean ====
/-
  The stretch of host operations before region 4 read: the sums of the users' first-layer rows over each movie's
  neighbours, and the layer's bias as a row.
-/
import proofs.«145198_j57071525429486_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value
import proofs.«145198_j57071525429486_2_alg».proof.Proof.HostTerms

set_option maxRecDepth 16384

noncomputable section

namespace Cert.KernelIdeal.KerValue

open Cert.KernelIdeal Cert.KernelIdeal.Gen
open Idealize.ShloMosaic Idealize.ShloMosaic.TcCoe Idealize.SL.Sem
open Idealize.ShloMosaic.Pipeline (Dat Cfg Window)
open Idealize.ShloMosaic.StableHlo Idealize.ShloMosaic.ValueIdx

variable {F : FTy → Type} [FloatOps F]
variable (m : (ℓ : Loc nD τ sig) → Buf (Elt F) ℓ) (ρ : Dev nD → PrngReg)

variable (c : Dev nD)

set_option maxHeartbeats 8000000 in
/-- Region 4's neighbour sums: the users' first-layer rows gathered along the edges and summed into the movies. -/
theorem sum_read4 :
    W9 m ρ c (Proc.devRef .tc main_v63)
      = sumIntoMovies (gatherUsers (W8 m ρ c (Proc.devRef .tc main_v53)) (W8 m ρ c (Proc.devRef .tc main_arg2))) (W8 m ρ c (Proc.devRef .tc main_arg3)) := by
  show StableHlo.after hostOps4 (W8 m ρ c) (Proc.devRef .tc main_v63) = _
  simp only [hostOps4]
  after_results
  rfl

set_option maxHeartbeats 8000000 in
/-- The layer's bias as a row. -/
theorem bias_row4 (q : Fin 64) :
    (W9 m ρ c (Proc.devRef .tc main_v64) : S1x64.Idx → F .f32) (ix2 (0 : Fin 1) q)
      = (W8 m ρ c (Proc.devRef .tc main_arg23) : S64.Idx → F .f32) (ix1 q) := by
  have h : (W9 m ρ c (Proc.devRef .tc main_v64) : S1x64.Idx → F .f32)
      = shapeCast S1x64 (W8 m ρ c (Proc.devRef .tc main_arg23) : S64.Idx → F .f32) shapeCasts_S64_S1x64 := by
    show StableHlo.after hostOps4 (W8 m ρ c) (Proc.devRef .tc main_v64) = _
    simp only [hostOps4]
    after_results
    rfl
  rw [h]
  exact shapeCast_a_1a_apply _ _ _ _

end Cert.KernelIdeal.KerValue

end
-- ==== Proof.FoldRead5.lean ====
/-
  The stretch of host operations before region 5 read: the sums of the movies' first-layer rows over each user's
  neighbours, and the layer's bias as a row.
-/
import proofs.«145198_j57071525429486_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value
import proofs.«145198_j57071525429486_2_alg».proof.Proof.HostTerms

set_option maxRecDepth 16384

noncomputable section

namespace Cert.KernelIdeal.KerValue

open Cert.KernelIdeal Cert.KernelIdeal.Gen
open Idealize.ShloMosaic Idealize.ShloMosaic.TcCoe Idealize.SL.Sem
open Idealize.ShloMosaic.Pipeline (Dat Cfg Window)
open Idealize.ShloMosaic.StableHlo Idealize.ShloMosaic.ValueIdx

variable {F : FTy → Type} [FloatOps F]
variable (m : (ℓ : Loc nD τ sig) → Buf (Elt F) ℓ) (ρ : Dev nD → PrngReg)

variable (c : Dev nD)

set_option maxHeartbeats 8000000 in
/-- Region 5's neighbour sums: the movies' first-layer rows gathered along the edges and summed into the users. -/
theorem sum_read5 :
    W11 m ρ c (Proc.devRef .tc main_v75)
      = sumIntoUsers (gatherMovies (W10 m ρ c (Proc.devRef .tc main_v41)) (W10 m ρ c (Proc.devRef .tc main_arg3))) (W10 m ρ c (Proc.devRef .tc main_arg2)) := by
  show StableHlo.after hostOps5 (W10 m ρ c) (Proc.devRef .tc main_v75) = _
  simp only [hostOps5]
  after_results
  rfl

set_option maxHeartbeats 8000000 in
/-- The layer's bias as a row. -/
theorem bias_row5 (q : Fin 64) :
    (W11 m ρ c (Proc.devRef .tc main_v76) : S1x64.Idx → F .f32) (ix2 (0 : Fin 1) q)
      = (W10 m ρ c (Proc.devRef .tc main_arg26) : S64.Idx → F .f32) (ix1 q) := by
  have h : (W11 m ρ c (Proc.devRef .tc main_v76) : S1x64.Idx → F .f32)
      = shapeCast S1x64 (W10 m ρ c (Proc.devRef .tc main_arg26) : S64.Idx → F .f32) shapeCasts_S64_S1x64 := by
    show StableHlo.after hostOps5 (W10 m ρ c) (Proc.devRef .tc main_v76) = _
    simp only [hostOps5]
    after_results
    rfl
  rw [h]
  exact shapeCast_a_1a_apply _ _ _ _

end Cert.KernelIdeal.KerValue

end
-- ==== Proof.BridgeAgg.lean ====
/-
  The neighbourhood-mean layers: what regions 2 to 5 leave is what the reference computes.

  Each of these regions finds at its entry the sums of its nodes' neighbours' rows (gathered and summed by the host
  from the rows an earlier region left), the column of reciprocal neighbour counts, the nodes' own rows, and the
  layer's weights.  It computes `(s·Wl)·(1 / max c 1) + bl + x·Wr` per node; the reference computes
  `(s / max c 1)·Wl + bl + x·Wr` from the same sums, counts and rows.  Multiplying by the nonnegative real
  `1 / max c 1` commutes with the finite sum of the matrix product on the extended reals, so the two agree.
-/
import proofs.«145198_j57071525429486_2_alg».proof.Proof.BridgeEnc
import proofs.«145198_j57071525429486_2_alg».proof.Proof.HostRef
import proofs.«145198_j57071525429486_2_alg».proof.Proof.KerAgg
import proofs.«145198_j57071525429486_2_alg».proof.Proof.RefAgg
import proofs.«145198_j57071525429486_2_alg».proof.Proof.RefAggUd
import proofs.«145198_j57071525429486_2_alg».proof.Proof.AggLaw
import proofs.«145198_j57071525429486_2_alg».proof.Proof.FoldKeep
import proofs.«145198_j57071525429486_2_alg».proof.Proof.FoldRead2
import proofs.«145198_j57071525429486_2_alg».proof.Proof.FoldRead3
import proofs.«145198_j57071525429486_2_alg».proof.Proof.FoldRead4
import proofs.«145198_j57071525429486_2_alg».proof.Proof.FoldRead5

set_option maxRecDepth 16384

noncomputable section

namespace Cert.Bridge

open Cert.KernelIdeal Cert.KernelIdeal.Gen Cert.KernelIdeal.KerValue
open Idealize.ShloMosaic Idealize.ShloMosaic.TcCoe Idealize.SL.Sem Idealize.ShloMosaic.ValueIdx
open Cert.ReferenceIdeal.Read Cert.ReferenceIdeal.RefValue

variable (m : (ℓ : Loc nD τ sig) → Buf (Elt Ideal) ℓ) (ρ : Dev nD → PrngReg) (c : Dev nD)

/-- The sums region 2 finds are the reference's. -/
theorem movie_sums1 :
    (W5 m ρ c (Proc.devRef .tc main_v39) : S50000x64.Idx → EReal) = val_main_v49 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) := by
  rw [sum_read2 m ρ c, hu_at_W4 m ρ c, users_input_layer m ρ c, arg_at_W4 m ρ c main_arg2 (by decide) (by decide) (by decide), arg_at_W4 m ρ c main_arg3 (by decide) (by decide) (by decide)]
  rfl

/-- The movies' first-layer rows after region 2 are the reference's. -/
theorem movies_layer1 :
    (W6 m ρ c (Proc.devRef .tc main_v41) : S50000x64.Idx → EReal) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  funext i
  obtain ⟨p, q, rfl⟩ : ∃ (p : Fin 50000) (q : Fin 64), i = ix2 p q := ⟨i 0, i 1, eq_ix2 i⟩
  rw [ref_m1]
  have hK : (W6 m ρ c (Proc.devRef .tc main_v41) : S50000x64.Idx → EReal) = (dat2 (V5 m ρ) c).arrAt 6 cfg2.N :=
    W6_arr m ρ c 6
  rw [hK, agg2_value (V5 m ρ) c p q]
  have es : (V5 m ρ c main_v39 : S50000x64.Idx → EReal) = _ := movie_sums1 m ρ c
  have ef : (V5 m ρ c main_v8 : S50000x1.Idx → EReal) (ix2 p (0 : Fin 1)) = _ :=
    ((congrFun (invcMovie_at_W5 m ρ c : (_ : S50000x1.Idx → EReal) = _) _).trans (recip_movie_col m ρ c p)).trans (movie_recip (m ((c : Thread nD τ).loc main_arg3)) p)
  have ex : (V5 m ρ c main_v29 : S50000x64.Idx → EReal) = _ := (hm_at_W5 m ρ c).trans (movies_input_layer m ρ c)
  have ewl : (V5 m ρ c main_arg16 : S64x64.Idx → EReal) = (m ((c : Thread nD τ).loc main_arg16)) := arg_at_W5 m ρ c main_arg16 (by decide) (by decide) (by decide)
  have eb : ∀ j : Fin 64, (V5 m ρ c main_v40 : S1x64.Idx → EReal) (ix2 (0 : Fin 1) j) = (m ((c : Thread nD τ).loc main_arg17)) (ix1 j) :=
    fun j => (bias_row2 m ρ c j).trans (congrFun (arg_at_W4 m ρ c main_arg17 (by decide) (by decide) (by decide)) (ix1 j))
  have ewr : (V5 m ρ c main_arg18 : S64x64.Idx → EReal) = (m ((c : Thread nD τ).loc main_arg18)) := arg_at_W5 m ρ c main_arg18 (by decide) (by decide) (by decide)
  simp only [es, ef, ex, ewl, eb, ewr]
  rw [SageSpec.aggRowScaled_eq]

/-- The sums region 3 finds are the reference's. -/
theorem user_sums1 :
    (W7 m ρ c (Proc.devRef .tc main_v51) : S100000x64.Idx → EReal) = val_main_v74 (F := Ideal) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg12)) (m ((c : Thread nD τ).loc main_arg13)) (m ((c : Thread nD τ).loc main_arg14)) (m ((c : Thread nD τ).loc main_arg15)) := by
  rw [sum_read3 m ρ c, hm_at_W6 m ρ c, hm_at_W5 m ρ c, movies_input_layer m ρ c, arg_at_W6 m ρ c main_arg3 (by decide) (by decide) (by decide) (by decide), arg_at_W6 m ρ c main_arg2 (by decide) (by decide) (by decide) (by decide)]
  rfl

/-- The users' first-layer rows after region 3 are the reference's. -/
theorem users_layer1 :
    (W8 m ρ c (Proc.devRef .tc main_v53) : S100000x64.Idx → EReal) = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg19)) (m ((c : Thread nD τ).loc main_arg20)) (m ((c : Thread nD τ).loc main_arg21)) := by
  funext i
  obtain ⟨p, q, rfl⟩ : ∃ (p : Fin 100000) (q : Fin 64), i = ix2 p q := ⟨i 0, i 1, eq_ix2 i⟩
  rw [ref_u1]
  have hK : (W8 m ρ c (Proc.devRef .tc main_v53) : S100000x64.Idx → EReal) = (dat3 (V7 m ρ) c).arrAt 6 cfg3.N :=
    W8_arr m ρ c 6
  rw [hK, agg3_value (V7 m ρ) c p q]
  have es : (V7 m ρ c main_v51 : S100000x64.Idx → EReal) = _ := user_sums1 m ρ c
  have ef : (V7 m ρ c main_v17 : S100000x1.Idx → EReal) (ix2 p (0 : Fin 1)) = _ :=
    ((congrFun (invcUser_at_W7 m ρ c : (_ : S100000x1.Idx → EReal) = _) _).trans (recip_user_col m ρ c p)).trans (user_recip (m ((c : Thread nD τ).loc main_arg2)) p)
  have ex : (V7 m ρ c main_v23 : S100000x64.Idx → EReal) = _ := ((hu_at_W7 m ρ c).trans (hu_at_W4 m ρ c)).trans (users_input_layer m ρ c)
  have ewl : (V7 m ρ c main_arg19 : S64x64.Idx → EReal) = (m ((c : Thread nD τ).loc main_arg19)) := arg_at_W7 m ρ c main_arg19 (by decide) (by decide) (by decide) (by decide)
  have eb : ∀ j : Fin 64, (V7 m ρ c main_v52 : S1x64.Idx → EReal) (ix2 (0 : Fin 1) j) = (m ((c : Thread nD τ).loc main_arg20)) (ix1 j) :=
    fun j => (bias_row3 m ρ c j).trans (congrFun (arg_at_W6 m ρ c main_arg20 (by decide) (by decide) (by decide) (by decide)) (ix1 j))
  have ewr : (V7 m ρ c main_arg21 : S64x64.Idx → EReal) = (m ((c : Thread nD τ).loc main_arg21)) := arg_at_W7 m ρ c main_arg21 (by decide) (by decide) (by decide) (by decide)
  simp only [es, ef, ex, ewl, eb, ewr]
  rw [SageSpec.aggRowScaled_eq]

/-- The sums region 4 finds are the reference's. -/
theorem movie_sums2 :
    (W9 m ρ c (Proc.devRef .tc main_v63) : S50000x64.Idx → EReal) = val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg19)) (m ((c : Thread nD τ).loc main_arg20)) (m ((c : Thread nD τ).loc main_arg21)) := by
  rw [sum_read4 m ρ c, users_layer1 m ρ c, arg_at_W8 m ρ c main_arg2 (by decide) (by decide) (by decide) (by decide) (by decide), arg_at_W8 m ρ c main_arg3 (by decide) (by decide) (by decide) (by decide) (by decide)]
  rfl

/-- The movies' result after region 4 is the reference's. -/
theorem movies_layer2 :
    (W10 m ρ c (Proc.devRef .tc main_v65) : S50000x64.Idx → EReal) = val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  funext i
  obtain ⟨p, q, rfl⟩ : ∃ (p : Fin 50000) (q : Fin 64), i = ix2 p q := ⟨i 0, i 1, eq_ix2 i⟩
  rw [ref_movie_out]
  have hK : (W10 m ρ c (Proc.devRef .tc main_v65) : S50000x64.Idx → EReal) = (dat4 (V9 m ρ) c).arrAt 6 cfg4.N :=
    W10_arr m ρ c 6
  rw [hK, agg4_value (V9 m ρ) c p q]
  have es : (V9 m ρ c main_v63 : S50000x64.Idx → EReal) = _ := movie_sums2 m ρ c
  have ef : (V9 m ρ c main_v8 : S50000x1.Idx → EReal) (ix2 p (0 : Fin 1)) = _ :=
    ((((congrFun (invcMovie_at_W9 m ρ c : (_ : S50000x1.Idx → EReal) = _) _).trans (congrFun (invcMovie_at_W5 m ρ c : (_ : S50000x1.Idx → EReal) = _) _)).trans (recip_movie_col m ρ c p)).trans (movie_recip' (m ((c : Thread nD τ).loc main_arg3)) p))
  have ex : (V9 m ρ c main_v41 : S50000x64.Idx → EReal) = _ := (m1_at_W9 m ρ c).trans (movies_layer1 m ρ c)
  have ewl : (V9 m ρ c main_arg22 : S64x64.Idx → EReal) = (m ((c : Thread nD τ).loc main_arg22)) := arg_at_W9 m ρ c main_arg22 (by decide) (by decide) (by decide) (by decide) (by decide)
  have eb : ∀ j : Fin 64, (V9 m ρ c main_v64 : S1x64.Idx → EReal) (ix2 (0 : Fin 1) j) = (m ((c : Thread nD τ).loc main_arg23)) (ix1 j) :=
    fun j => (bias_row4 m ρ c j).trans (congrFun (arg_at_W8 m ρ c main_arg23 (by decide) (by decide) (by decide) (by decide) (by decide)) (ix1 j))
  have ewr : (V9 m ρ c main_arg24 : S64x64.Idx → EReal) = (m ((c : Thread nD τ).loc main_arg24)) := arg_at_W9 m ρ c main_arg24 (by decide) (by decide) (by decide) (by decide) (by decide)
  simp only [es, ef, ex, ewl, eb, ewr]
  rw [SageSpec.aggRowScaled_eq]

/-- The sums region 5 finds are the reference's. -/
theorem user_sums2 :
    (W11 m ρ c (Proc.devRef .tc main_v75) : S100000x64.Idx → EReal) = val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  rw [sum_read5 m ρ c, m1_at_W10 m ρ c, m1_at_W9 m ρ c, movies_layer1 m ρ c, arg_at_W10 m ρ c main_arg3 (by decide) (by decide) (by decide) (by decide) (by decide) (by decide), arg_at_W10 m ρ c main_arg2 (by decide) (by decide) (by decide) (by decide) (by decide) (by decide)]
  rfl

/-- The users' result after region 5 is the reference's. -/
theorem users_layer2 :
    (W12 m ρ c (Proc.devRef .tc main_v77) : S100000x64.Idx → EReal) = val_main_v141 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg25)) (m ((c : Thread nD τ).loc main_arg26)) (m ((c : Thread nD τ).loc main_arg27)) := by
  funext i
  obtain ⟨p, q, rfl⟩ : ∃ (p : Fin 100000) (q : Fin 64), i = ix2 p q := ⟨i 0, i 1, eq_ix2 i⟩
  rw [ref_user_out]
  have hK : (W12 m ρ c (Proc.devRef .tc main_v77) : S100000x64.Idx → EReal) = (dat5 (V11 m ρ) c).arrAt 6 cfg5.N :=
    W12_arr m ρ c 6
  rw [hK, agg5_value (V11 m ρ) c p q]
  have es : (V11 m ρ c main_v75 : S100000x64.Idx → EReal) = _ := user_sums2 m ρ c
  have ef : (V11 m ρ c main_v17 : S100000x1.Idx → EReal) (ix2 p (0 : Fin 1)) = _ :=
    ((((congrFun (invcUser_at_W11 m ρ c : (_ : S100000x1.Idx → EReal) = _) _).trans (congrFun (invcUser_at_W7 m ρ c : (_ : S100000x1.Idx → EReal) = _) _)).trans (recip_user_col m ρ c p)).trans (user_recip' (m ((c : Thread nD τ).loc main_arg2)) p))
  have ex : (V11 m ρ c main_v53 : S100000x64.Idx → EReal) = _ := (u1_at_W11 m ρ c).trans (users_layer1 m ρ c)
  have ewl : (V11 m ρ c main_arg25 : S64x64.Idx → EReal) = (m ((c : Thread nD τ).loc main_arg25)) := arg_at_W11 m ρ c main_arg25 (by decide) (by decide) (by decide) (by decide) (by decide) (by decide)
  have eb : ∀ j : Fin 64, (V11 m ρ c main_v76 : S1x64.Idx → EReal) (ix2 (0 : Fin 1) j) = (m ((c : Thread nD τ).loc main_arg26)) (ix1 j) :=
    fun j => (bias_row5 m ρ c j).trans (congrFun (arg_at_W10 m ρ c main_arg26 (by decide) (by decide) (by decide) (by decide) (by decide) (by decide)) (ix1 j))
  have ewr : (V11 m ρ c main_arg27 : S64x64.Idx → EReal) = (m ((c : Thread nD τ).loc main_arg27)) := arg_at_W11 m ρ c main_arg27 (by decide) (by decide) (by decide) (by decide) (by decide) (by decide)
  simp only [es, ef, ex, ewl, eb, ewr]
  rw [SageSpec.aggRowScaled_eq]

/-- The movies' result at the end of @main is the reference's. -/
theorem movies_result :
    (W12 m ρ c (Proc.devRef .tc main_v65) : S50000x64.Idx → EReal) = val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) :=
  (movieOut_at_W12 m ρ c).trans (movies_layer2 m ρ c)

end Cert.Bridge

end
-- ==== Proof.lean ====
/-
  A two-layer neighbourhood-mean network on a bipartite graph (100000 user nodes, 50000 movie nodes, 64 features, a
  million edges): the tiled kernel against its plain reference, both read on the extended reals.

  Per node both programs compute an input layer `max (((x·W + b − μ)·rsqrt (σ² + ε))·γ + β) 0` and then, twice and in
  both directions, a layer `(s / max c 1)·Wl + bl + x·Wr` where `s` is the sum of the rows of the node's neighbours and
  `c` their number (the first of the two followed by a rectifier).  The sums along the edges are the same host
  operations in both programs.  The kernel differs in two ways: the dense part of every layer is a tiled region
  (blocks of 5000 rows), and the division by `max c 1` is a multiplication by `1 / max c 1` applied after the matrix
  product.  Since `1 / max c 1` is a nonnegative real, multiplying by it commutes with the finite sum of the matrix
  product on the extended reals, whatever the rows hold; no finiteness of the inputs is used.

  The frames of the two kernel programs are the generated ones; the reference's frame is its generated run with the
  results dropped; the idealization rewrote nothing, so `preserves` is trivial.  For the value claim the kernel's run
  is stated with every buffer that outlives the regions at the last stage of the fold of its segments, and the two
  results are read back through that fold, layer by layer, to the reference's stages.
-/
import proofs.«145198_j57071525429486_2_alg».proof.Defs
import proofs.«145198_j57071525429486_2_alg».proof.Proof.Gen.Kernel
import proofs.«145198_j57071525429486_2_alg».proof.Proof.Gen.Kernel.Skeleton
import proofs.«145198_j57071525429486_2_alg».proof.Proof.Gen.Kernel.Launch
import proofs.«145198_j57071525429486_2_alg».proof.Proof.Gen.Kernel.Points
import proofs.«145198_j57071525429486_2_alg».proof.Proof.Gen.Kernel.Frame
import proofs.«145198_j57071525429486_2_alg».proof.Proof.Gen.KernelIdeal
import proofs.«145198_j57071525429486_2_alg».proof.Proof.Gen.KernelIdeal.Skeleton
import proofs.«145198_j57071525429486_2_alg».proof.Proof.Gen.KernelIdeal.Launch
import proofs.«145198_j57071525429486_2_alg».proof.Proof.Gen.KernelIdeal.Points
import proofs.«145198_j57071525429486_2_alg».proof.Proof.Gen.KernelIdeal.Frame
import proofs.«145198_j57071525429486_2_alg».proof.Proof.Gen.ReferenceIdeal
import proofs.«145198_j57071525429486_2_alg».proof.Proof.Gen.Pre_finite_inputs
import proofs.«145198_j57071525429486_2_alg».proof.Proof.Gen.ReferenceIdeal.Run
import proofs.«145198_j57071525429486_2_alg».proof.Proof.Gen.ReferenceIdeal.Read
import proofs.«145198_j57071525429486_2_alg».proof.Proof.KernelRun
import proofs.«145198_j57071525429486_2_alg».proof.Proof.BridgeAgg
import Idealize.ShloMosaic.Adequacy
import Idealize.ShloMosaic.Init

set_option maxRecDepth 16384

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference has no region: its frame is its run with the two results dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

section Value

open Cert.KernelIdeal Cert.KernelIdeal.Gen

/-- From memories that agree on the arguments both programs run, and end with the same two results: the kernel's are
    the last stage of its fold at the two result buffers, which the bridges identify with the reference's last
    stages at the kernel's arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => W12 m ρ c (Proc.devRef .tc main_v77), fun c => W12 m ρ c (Proc.devRef .tc main_v65), ?_, ?_⟩
  · refine (θ_run Cert.KernelIdeal.defs _ _).mono (fun r h c => ?_) (Cert.KernelIdeal.KerValue.run_all m ρ)
    exact ⟨h c _ (mem_uc main_v77 (by decide)), h c _ (mem_uc main_v65 (by decide)),
      (h c _ (mem_uc main_arg0 (by decide))).trans (W12_main_arg0 m ρ c),
      (h c _ (mem_uc main_arg1 (by decide))).trans (W12_main_arg1 m ρ c),
      (h c _ (mem_uc main_arg2 (by decide))).trans (W12_main_arg2 m ρ c),
      (h c _ (mem_uc main_arg3 (by decide))).trans (W12_main_arg3 m ρ c),
      (h c _ (mem_uc main_arg4 (by decide))).trans (W12_main_arg4 m ρ c),
      (h c _ (mem_uc main_arg5 (by decide))).trans (W12_main_arg5 m ρ c),
      (h c _ (mem_uc main_arg6 (by decide))).trans (W12_main_arg6 m ρ c),
      (h c _ (mem_uc main_arg7 (by decide))).trans (W12_main_arg7 m ρ c),
      (h c _ (mem_uc main_arg8 (by decide))).trans (W12_main_arg8 m ρ c),
      (h c _ (mem_uc main_arg9 (by decide))).trans (W12_main_arg9 m ρ c),
      (h c _ (mem_uc main_arg10 (by decide))).trans (W12_main_arg10 m ρ c),
      (h c _ (mem_uc main_arg11 (by decide))).trans (W12_main_arg11 m ρ c),
      (h c _ (mem_uc main_arg12 (by decide))).trans (W12_main_arg12 m ρ c),
      (h c _ (mem_uc main_arg13 (by decide))).trans (W12_main_arg13 m ρ c),
      (h c _ (mem_uc main_arg14 (by decide))).trans (W12_main_arg14 m ρ c),
      (h c _ (mem_uc main_arg15 (by decide))).trans (W12_main_arg15 m ρ c),
      (h c _ (mem_uc main_arg16 (by decide))).trans (W12_main_arg16 m ρ c),
      (h c _ (mem_uc main_arg17 (by decide))).trans (W12_main_arg17 m ρ c),
      (h c _ (mem_uc main_arg18 (by decide))).trans (W12_main_arg18 m ρ c),
      (h c _ (mem_uc main_arg19 (by decide))).trans (W12_main_arg19 m ρ c),
      (h c _ (mem_uc main_arg20 (by decide))).trans (W12_main_arg20 m ρ c),
      (h c _ (mem_uc main_arg21 (by decide))).trans (W12_main_arg21 m ρ c),
      (h c _ (mem_uc main_arg22 (by decide))).trans (W12_main_arg22 m ρ c),
      (h c _ (mem_uc main_arg23 (by decide))).trans (W12_main_arg23 m ρ c),
      (h c _ (mem_uc main_arg24 (by decide))).trans (W12_main_arg24 m ρ c),
      (h c _ (mem_uc main_arg25 (by decide))).trans (W12_main_arg25 m ρ c),
      (h c _ (mem_uc main_arg26 (by decide))).trans (W12_main_arg26 m ρ c),
      (h c _ (mem_uc main_arg27 (by decide))).trans (W12_main_arg27 m ρ c)⟩
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13, h14, h15, h16, h17, h18, h19, h20, h21, h22, h23, h24, h25, h26, h27⟩ := hagree c
      rw [Cert.ReferenceIdeal.Read.val_main_v141_eq]
      simp only [h0, h1, h2, h3, h4, h5, h6, h7, h8, h9, h10, h11, h12, h13, h14, h15, h16, h17, h18, h19, h20, h21, h22, h23, h24, h25, h26, h27]
      exact (Cert.Bridge.users_layer2 m ρ c).symm
    · obtain ⟨h0, h1, h2, h3, h4, h5, h6, h7, h8, h9, h10, h11, h12, h13, h14, h15, h16, h17, h18, h19, h20, h21, h22, h23, h24, h25, h26, h27⟩ := hagree c
      rw [Cert.ReferenceIdeal.Read.val_main_v116_eq]
      simp only [h0, h1, h2, h3, h4, h5, h6, h7, h8, h9, h10, h11, h12, h13, h14, h15, h16, h17, h18, h19, h20, h21, h22, h23, h24, h25, h26, h27]
      exact (Cert.Bridge.movies_result m ρ c).symm

end Value

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
